-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v201) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x384 : Shape := ⟨2, ![100000, 384]⟩
abbrev S2x1600000 : Shape := ⟨2, ![2, 1600000]⟩
abbrev S384x64 : Shape := ⟨2, ![384, 64]⟩
abbrev S64 : Shape := ⟨1, ![64]⟩
abbrev S3x64x64 : Shape := ⟨3, ![3, 64, 64]⟩
abbrev S3x64 : Shape := ⟨2, ![3, 64]⟩
abbrev S_ : Shape := ⟨0, ![]⟩

class Facts : Prop where
  bcast_S_S100000x384 : S_.BroadcastsInDim S100000x384 (![] : Fin 0 → Fin S100000x384.rank)
  reducesTo_S100000x384_S_d0_1 : S100000x384.ReducesTo [0, 1] S_
  h_S_ : 0 < S_.numel
  bcast_S_S384x64 : S_.BroadcastsInDim S384x64 (![] : Fin 0 → Fin S384x64.rank)
  reducesTo_S384x64_S_d0_1 : S384x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part2 {F : FTy → Type} [FloatOps F] (main_arg8 : FVec F S3x64 .f32) (main_arg9 : FVec F S64 .f32) (main_arg10 : FVec F S64 .f32) (main_v33 : IVec S_ 1) : IVec S_ 1 :=
  let main_v34 : FVec F S3x64 .f32 := Host.absf main_arg8
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S3x64 .f32) (main_arg6 : FVec F S3x64x64 .f32) (main_arg7 : FVec F S3x64 .f32) (main_arg8 : FVec F S3x64 .f32) (main_arg9 : FVec F S64 .f32) (main_arg10 : FVec F S64 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg5
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64x64 .f32 := Host.absf main_arg6
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x64 .f32 := Host.absf main_arg7
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x384 .f32) (main_arg1 : IVec S2x1600000 32) (main_arg2 : FVec F S384x64 .f32) (main_arg3 : FVec F S64 .f32) (main_arg4 : FVec F S3x64x64 .f32) (main_arg5 : FVec F S3x64 .f32) (main_arg6 : FVec F S3x64x64 .f32) (main_arg7 : FVec F S3x64 .f32) (main_arg8 : FVec F S3x64 .f32) (main_arg9 : FVec F S64 .f32) (main_arg10 : FVec F S64 .f32) : IVec S_ 1 :=
  let main_v0 : FVec F S100000x384 .f32 := Host.absf main_arg0
  let main_cst : FVec F S_ .f32 := constant S_ .f32 0x7F800000#32
  let main_v1 : FVec F S100000x384 .f32 := broadcastInDim S100000x384 ![] bcast_S_S100000x384 main_cst
  let main_v2 : IVec S100000x384 1 := cmpf .olt main_v0 main_v1
  let main_c : IVec S_ 1 := constantI S_ 1 1#1
  let main_v3 : IVec S_ 1 := (fun x v => Host.reduce IntOp.andi x v reducesTo_S100000x384_S_d0_1 h_S_) main_v2 main_c
  let main_v4 : FVec F S384x64 .f32 := Host.absf main_arg2
  let main_cst_0 : FVec F S_ .f32 := constant S_ .f32 0x7F800000#32
  let main_v5 : FVec F S384x64 .f32 := broadcastInDim S384x64 ![] bcast_S_S384x64 main_cst_0
  let main_v6 : IVec S384x64 1 := cmpf .olt main_v4 main_v5
  let main_c_1 : IVec S_ 1 := constantI S_ 1 1#1
  let main_v7 : IVec S_ 1 := (fun x v => Host.reduce IntOp.andi x v reducesTo_S384x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x64x64 .f32 := Host.absf main_arg4
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg5 main_arg6 main_arg7 main_arg8 main_arg9 main_arg10 main_v13 main_v16
-- ==== Kernel.lean ====
abbrev S100000x384 : Shape := ⟨2, ![100000, 384]⟩
abbrev S2x1600000 : Shape := ⟨2, ![2, 1600000]⟩
abbrev S384x64 : Shape := ⟨2, ![384, 64]⟩
abbrev S64 : Shape := ⟨1, ![64]⟩
abbrev S3x64x64 : Shape := ⟨3, ![3, 64, 64]⟩
abbrev S3x64 : Shape := ⟨2, ![3, 64]⟩
abbrev S1x1600000 : Shape := ⟨2, ![1, 1600000]⟩
abbrev S1600000 : Shape := ⟨1, ![1600000]⟩
abbrev S100000x64 : Shape := ⟨2, ![100000, 64]⟩
abbrev S2000x384 : Shape := ⟨2, ![2000, 384]⟩
abbrev S2000x64 : Shape := ⟨2, ![2000, 64]⟩
abbrev S1x64 : Shape := ⟨2, ![1, 64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64x64 : Shape := ⟨3, ![1, 64, 64]⟩
abbrev S64x64 : Shape := ⟨2, ![64, 64]⟩
abbrev S2000 : Shape := ⟨1, ![2000]⟩
abbrev S2000x1 : Shape := ⟨2, ![2000, 1]⟩

abbrev nBuf : Space → Nat
  | .hbm => 105
  | .vmem => 45
  | .smem => 0
  | _ => 0

abbrev bufTy : (tb : Table) → Fin (tcTables nBuf tb) → BufTy
  | .hbm, ⟨0, _⟩ => ⟨S100000x384, .f32⟩
  | .hbm, ⟨1, _⟩ => ⟨S2x1600000, .i32⟩
  | .hbm, ⟨2, _⟩ => ⟨S384x64, .f32⟩
  | .hbm, ⟨3, _⟩ => ⟨S64, .f32⟩
  | .hbm, ⟨4, _⟩ => ⟨S3x64x64, .f32⟩
  | .hbm, ⟨5, _⟩ => ⟨S3x64, .f32⟩
  | .hbm, ⟨6, _⟩ => ⟨S3x64x64, .f32⟩
  | .hbm, ⟨7, _⟩ => ⟨S3x64, .f32⟩
  | .hbm, ⟨8, _⟩ => ⟨S3x64, .f32⟩
  | .hbm, ⟨9, _⟩ => ⟨S64, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S100000x64, .f32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x64, .f32⟩
  | .hbm, ⟨35, _⟩ => ⟨S_, .f32⟩
  | .hbm, ⟨36, _⟩ => ⟨S100000x64, .f32⟩
  | .hbm, ⟨37, _⟩ => ⟨S1600000x1, .i32⟩
  | .hbm, ⟨38, _⟩ => ⟨S100000x64, .f32⟩
  | .hbm, ⟨39, _⟩ => ⟨S100000x64, .f32⟩
  | .hbm, ⟨40, _⟩ => ⟨S100000x64, .f32⟩
  | .hbm, ⟨41, _⟩ => ⟨S1x64x64, .f32⟩
  | .hbm, ⟨42, _⟩ => ⟨S64x64, .f32⟩
  | .hbm, ⟨43, _⟩ => ⟨S1x64, .f32⟩
  | .hbm, ⟨44, _⟩ => ⟨S64, .f32⟩
  | .hbm, ⟨45, _⟩ => ⟨S1x64x64, .f32⟩
  | .hbm, ⟨46, _⟩ => ⟨S64x64, .f32⟩
  | .hbm, ⟨47, _⟩ => ⟨S1x64, .f32⟩
  | .hbm, ⟨48, _⟩ => ⟨S64, .f32⟩
  | .hbm, ⟨49, _⟩ => ⟨S1x64, .f32⟩
  | .hbm, ⟨50, _⟩ => ⟨S64, .f32⟩
  | .hbm, ⟨51, _⟩ => ⟨S100000x64, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x64, .f32⟩
  | .hbm, ⟨61, _⟩ => ⟨S_, .f32⟩
  | .hbm, ⟨62, _⟩ => ⟨S100000x64, .f32⟩
  | .hbm, ⟨63, _⟩ => ⟨S1600000x1, .i32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S1x64x64, .f32⟩
  | .hbm, ⟨68, _⟩ => ⟨S64x64, .f32⟩
  | .hbm, ⟨69, _⟩ => ⟨S1x64, .f32⟩
  | .hbm, ⟨70, _⟩ => ⟨S64, .f32⟩
  | .hbm, ⟨71, _⟩ => ⟨S1x64x64, .f32⟩
  | .hbm, ⟨72, _⟩ => ⟨S64x64, .f32⟩
  | .hbm, ⟨73, _⟩ => ⟨S1x64, .f32⟩
  | .hbm, ⟨74, _⟩ => ⟨S64, .f32⟩
  | .hbm, ⟨75, _⟩ => ⟨S1x64, .f32⟩
  | .hbm, ⟨76, _⟩ => ⟨S64, .f32⟩
  | .hbm, ⟨77, _⟩ => ⟨S100000x64, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000x64, .f32⟩
  | .hbm, ⟨87, _⟩ => ⟨S_, .f32⟩
  | .hbm, ⟨88, _⟩ => ⟨S100000x64, .f32⟩
  | .hbm, ⟨89, _⟩ => ⟨S1600000x1, .i32⟩
  | .hbm, ⟨90, _⟩ => ⟨S100000x64, .f32⟩
  | .hbm, ⟨91, _⟩ => ⟨S100000x64, .f32⟩
  | .hbm, ⟨92, _⟩ => ⟨S100000x64, .f32⟩
  | .hbm, ⟨93, _⟩ => ⟨S1x64x64, .f32⟩
  | .hbm, ⟨94, _⟩ => ⟨S64x64, .f32⟩
  | .hbm, ⟨95, _⟩ => ⟨S1x64, .f32⟩
  | .hbm, ⟨96, _⟩ => ⟨S64, .f32⟩
  | .hbm, ⟨97, _⟩ => ⟨S1x64x64, .f32⟩
  | .hbm, ⟨98, _⟩ => ⟨S64x64, .f32⟩
  | .hbm, ⟨99, _⟩ => ⟨S1x64, .f32⟩
  | .hbm, ⟨100, _⟩ => ⟨S64, .f32⟩
  | .hbm, ⟨101, _⟩ => ⟨S1x64, .f32⟩
  | .hbm, ⟨102, _⟩ => ⟨S64, .f32⟩
  | .hbm, ⟨103, _⟩ => ⟨S100000x64, .f32⟩
  | .hbm, ⟨104, _⟩ => ⟨S100000x64, .f32⟩
  | .local _ .vmem, ⟨0, _⟩ => ⟨S2000x384, .f32⟩
  | .local _ .vmem, ⟨1, _⟩ => ⟨S2000x384, .f32⟩
  | .local _ .vmem, ⟨2, _⟩ => ⟨S384x64, .f32⟩
  | .local _ .vmem, ⟨3, _⟩ => ⟨S64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S64x64, .f32⟩
  | .local _ .vmem, ⟨11, _⟩ => ⟨S64, .f32⟩
  | .local _ .vmem, ⟨12, _⟩ => ⟨S64x64, .f32⟩
  | .local _ .vmem, ⟨13, _⟩ => ⟨S64, .f32⟩
  | .local _ .vmem, ⟨14, _⟩ => ⟨S64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S64x64, .f32⟩
  | .local _ .vmem, ⟨22, _⟩ => ⟨S64, .f32⟩
  | .local _ .vmem, ⟨23, _⟩ => ⟨S64x64, .f32⟩
  | .local _ .vmem, ⟨24, _⟩ => ⟨S64, .f32⟩
  | .local _ .vmem, ⟨25, _⟩ => ⟨S64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S2000x64, .f32⟩
  | .local _ .vmem, ⟨31, _⟩ => ⟨S2000x64, .f32⟩
  | .local _ .vmem, ⟨32, _⟩ => ⟨S64x64, .f32⟩
  | .local _ .vmem, ⟨33, _⟩ => ⟨S64, .f32⟩
  | .local _ .vmem, ⟨34, _⟩ => ⟨S64x64, .f32⟩
  | .local _ .vmem, ⟨35, _⟩ => ⟨S64, .f32⟩
  | .local _ .vmem, ⟨36, _⟩ => ⟨S64, .f32⟩
  | .local _ .vmem, ⟨37, _⟩ => ⟨S2000x64, .f32⟩
  | .local _ .vmem, ⟨38, _⟩ => ⟨S2000x64, .f32⟩
  | .local _ .vmem, ⟨39, _⟩ => ⟨S2000x64, .f32⟩
  | .local _ .vmem, ⟨40, _⟩ => ⟨S2000x64, .f32⟩
  | .local _ .vmem, ⟨41, _⟩ => ⟨S64, .f32⟩
  | .local _ .vmem, ⟨42, _⟩ => ⟨S64, .f32⟩
  | .local _ .vmem, ⟨43, _⟩ => ⟨S2000x64, .f32⟩
  | .local _ .vmem, ⟨44, _⟩ => ⟨S2000x64, .f32⟩
  | _, _ => ⟨S100000x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_4 : Ref sig .tc := ⟨.hbm, 52, rfl⟩
abbrev main_v35 : Ref sig .tc := ⟨.hbm, 53, rfl⟩
abbrev main_v36 : Ref sig .tc := ⟨.hbm, 54, rfl⟩
abbrev main_c_5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_7 : Ref sig .tc := ⟨.hbm, 78, rfl⟩
abbrev main_v58 : Ref sig .tc := ⟨.hbm, 79, rfl⟩
abbrev main_v59 : Ref sig .tc := ⟨.hbm, 80, rfl⟩
abbrev main_c_8 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_9 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg7_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg7_0 : Ref sig .tc := ⟨.vmem, 37, rfl⟩
abbrev cc3_stg7_1 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg3_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem7_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem7_0 : DmaSem sig := 37
abbrev cc3_sem7_1 : DmaSem sig := 38
abbrev cc4_sem0_0 : DmaSem sig := 39
abbrev cc4_sem0_1 : DmaSem sig := 40
abbrev cc4_sem1_0 : DmaSem sig := 41
abbrev cc4_sem2_0 : DmaSem sig := 42
abbrev cc4_sem3_0 : DmaSem sig := 43
abbrev cc4_sem3_1 : DmaSem sig := 44

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S2000x384_S2000x384_0_0 : ∀ a, (![0, 0] : Fin 2 → Nat) a + S2000x384.size a ≤ S2000x384.size a
  h_S2000x384 : 0 < S2000x384.numel
  bitsLt_bf16_f32 : FTy.bits .bf16 < FTy.bits .f32
  inb_S384x64_S384x64_0_0 : ∀ a, (![0, 0] : Fin 2 → Nat) a + S384x64.size a ≤ S384x64.size a
  h_S384x64 : 0 < S384x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S64_S64 : S64.ShapeCasts S64
  reduces_S2000x64_S2000 : S2000x64.Reduces [1] S2000
  shapeCasts_S2000_S2000x1 : S2000.ShapeCasts S2000x1
  broadcasts_S2000x1_S2000x64 : S2000x1.Broadcasts S2000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  dot_S2000x384_S384x64_S2000x64_1_0_0_1_n_n_wf : DotDims.WF S2000x384 S384x64 S2000x64 [1] [0] [0] [1] [] []
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x384.size a ≤ S100000x384.size a
  hwx0_0 : ∀ i : grid0.Coords, EltTy.bits .f32 = 32 ∨ (Rect.block (s := S100000x384) S2000x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x64.size a ≤ S384x64.size a
  hwx0_1 : ∀ i : grid0.Coords, EltTy.bits .f32 = 32 ∨ (Rect.block (s := S384x64) S384x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x64.size a ≤ S100000x64.size a
  hwx1_7 : ∀ i : grid1.Coords, EltTy.bits .f32 = 32 ∨ (Rect.block (s := S100000x64) S2000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64.size a ≤ S64.size a
  hwx2_6 : ∀ i : grid2.Coords, EltTy.bits .f32 = 32 ∨ (Rect.block (s := S64) S64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x64.size a ≤ S100000x64.size a
  hwx2_7 : ∀ i : grid2.Coords, EltTy.bits .f32 = 32 ∨ (Rect.block (s := S100000x64) S2000x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S100000x64.size a
  hwx3_1 : ∀ i : grid3.Coords, EltTy.bits .f32 = 32 ∨ (Rect.block (s := S100000x64) S2000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64.size a ≤ S64.size a
  hwx3_5 : ∀ i : grid3.Coords, EltTy.bits .f32 = 32 ∨ (Rect.block (s := S64) S64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64.size a ≤ S64.size a
  hwx3_6 : ∀ i : grid3.Coords, EltTy.bits .f32 = 32 ∨ (Rect.block (s := S64) S64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x64.size a ≤ S100000x64.size a
  hwx3_7 : ∀ i : grid3.Coords, EltTy.bits .f32 = 32 ∨ (Rect.block (s := S100000x64) S2000x64.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64.size a ≤ S64.size a
  hwx4_1 : ∀ i : grid4.Coords, EltTy.bits .f32 = 32 ∨ (Rect.block (s := S64) S64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64.size a ≤ S64.size a
  hwx4_2 : ∀ i : grid4.Coords, EltTy.bits .f32 = 32 ∨ (Rect.block (s := S64) S64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x64.size a ≤ S100000x64.size a
  hwx4_3 : ∀ i : grid4.Coords, EltTy.bits .f32 = 32 ∨ (Rect.block (s := S100000x64) S2000x64.size (cc4_transform_3 i) (hinb4_3 i)).WholeWords (EltTy.packing .f32)

variable [Facts₀]

def dot_S2000x384_S384x64_S2000x64_1_0_0_1_n_n : DotDims S2000x384 S384x64 S2000x64 where
  lhsContracting := [1]
  rhsContracting := [0]
  lhsNonContracting := [0]
  rhsNonContracting := [1]
  lhsBatch := []
  rhsBatch := []
  wf := dot_S2000x384_S384x64_S2000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_arg0) S2000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S384x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v34) S2000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v46) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v48) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v56) S64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v57) S2000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v69) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v71) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v73) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v75) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v77) S64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v79) S64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v80) S2000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v80) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg10) S64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v81) S2000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x384 : Shape := ⟨2, ![100000, 384]⟩
abbrev S2x1600000 : Shape := ⟨2, ![2, 1600000]⟩
abbrev S384x64 : Shape := ⟨2, ![384, 64]⟩
abbrev S64 : Shape := ⟨1, ![64]⟩
abbrev S3x64x64 : Shape := ⟨3, ![3, 64, 64]⟩
abbrev S3x64 : Shape := ⟨2, ![3, 64]⟩
abbrev S1x1600000 : Shape := ⟨2, ![1, 1600000]⟩
abbrev S1600000 : Shape := ⟨1, ![1600000]⟩
abbrev S100000x64 : Shape := ⟨2, ![100000, 64]⟩
abbrev S1x64 : Shape := ⟨2, ![1, 64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64x64 : Shape := ⟨3, ![1, 64, 64]⟩
abbrev S64x64 : Shape := ⟨2, ![64, 64]⟩

abbrev nBuf : Space → Nat
  | .hbm => 343
  | .vmem => 0
  | .smem => 0
  | _ => 0

abbrev hbmTy0_0 (i : Nat) : BufTy := match i % 128 with
  | 0 => ⟨S100000x384, .f32⟩
  | 1 => ⟨S2x1600000, .i32⟩
  | 2 => ⟨S384x64, .f32⟩
  | 3 => ⟨S64, .f32⟩
  | 4 => ⟨S3x64x64, .f32⟩
  | 5 => ⟨S3x64, .f32⟩
  | 6 => ⟨S3x64x64, .f32⟩
  | 7 => ⟨S3x64, .f32⟩
  | 8 => ⟨S3x64, .f32⟩
  | 9 => ⟨S64, .f32⟩
  | 10 => ⟨S64, .f32⟩
  | 11 => ⟨S1x1600000, .i32⟩
  | 12 => ⟨S1600000, .i32⟩
  | 13 => ⟨S1x1600000, .i32⟩
  | 14 => ⟨S1600000, .i32⟩
  | 15 => ⟨S100000x64, .f32⟩
  | 16 => ⟨S1x64, .f32⟩
  | 17 => ⟨S100000x64, .f32⟩
  | 18 => ⟨S100000x64, .f32⟩
  | 19 => ⟨S_, .f32⟩
  | 20 => ⟨S100000x64, .f32⟩
  | 21 => ⟨S100000x64, .f32⟩
  | 22 => ⟨S_, .f32⟩
  | 23 => ⟨S1600000, .f32⟩
  | 24 => ⟨S_, .f32⟩
  | 25 => ⟨S100000, .f32⟩
  | 26 => ⟨S1600000x1, .i32⟩
  | 27 => ⟨S100000, .f32⟩
  | 28 => ⟨S_, .f32⟩
  | 29 => ⟨S100000, .f32⟩
  | 30 => ⟨S100000, .f32⟩
  | 31 => ⟨S100000x1, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x64, .f32⟩
  | 41 => ⟨S_, .f32⟩
  | 42 => ⟨S100000x64, .f32⟩
  | 43 => ⟨S1600000x1, .i32⟩
  | 44 => ⟨S100000x64, .f32⟩
  | 45 => ⟨S100000x64, .f32⟩
  | 46 => ⟨S100000x64, .f32⟩
  | 47 => ⟨S1x64x64, .f32⟩
  | 48 => ⟨S64x64, .f32⟩
  | 49 => ⟨S100000x64, .f32⟩
  | 50 => ⟨S1x64, .f32⟩
  | 51 => ⟨S64, .f32⟩
  | 52 => ⟨S1x64, .f32⟩
  | 53 => ⟨S100000x64, .f32⟩
  | 54 => ⟨S100000x64, .f32⟩
  | 55 => ⟨S1x64x64, .f32⟩
  | 56 => ⟨S64x64, .f32⟩
  | 57 => ⟨S100000x64, .f32⟩
  | 58 => ⟨S100000x64, .f32⟩
  | 59 => ⟨S100000x64, .f32⟩
  | 60 => ⟨S_, .f32⟩
  | 61 => ⟨S100000, .f32⟩
  | 62 => ⟨S100000x1, .f32⟩
  | 63 => ⟨S_, .f32⟩
  | 64 => ⟨S100000x1, .f32⟩
  | 65 => ⟨S100000x1, .f32⟩
  | 66 => ⟨S100000x1, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x64, .f32⟩
  | 73 => ⟨S1x64, .f32⟩
  | 74 => ⟨S64, .f32⟩
  | 75 => ⟨S1x64, .f32⟩
  | 76 => ⟨S64, .f32⟩
  | 77 => ⟨S_, .f32⟩
  | 78 => ⟨S100000, .f32⟩
  | 79 => ⟨S100000x1, .f32⟩
  | 80 => ⟨S_, .f32⟩
  | 81 => ⟨S100000x1, .f32⟩
  | 82 => ⟨S100000x1, .f32⟩
  | 83 => ⟨S_, .i32⟩
  | 84 => ⟨S_, .f32⟩
  | 85 => ⟨S100000, .f32⟩
  | 86 => ⟨S100000x1, .f32⟩
  | 87 => ⟨S_, .f32⟩
  | 88 => ⟨S100000x1, .f32⟩
  | 89 => ⟨S100000x1, .f32⟩
  | 90 => ⟨S100000x64, .f32⟩
  | 91 => ⟨S100000x64, .f32⟩
  | 92 => ⟨S100000x64, .f32⟩
  | 93 => ⟨S_, .f32⟩
  | 94 => ⟨S_, .f32⟩
  | 95 => ⟨S_, .f32⟩
  | 96 => ⟨S_, .f32⟩
  | 97 => ⟨S100000, .f32⟩
  | 98 => ⟨S100000x1, .f32⟩
  | 99 => ⟨S100000x1, .f32⟩
  | 100 => ⟨S100000x1, .f32⟩
  | 101 => ⟨S_, .f32⟩
  | 102 => ⟨S_, .i1⟩
  | 103 => ⟨S_, .f32⟩
  | 104 => ⟨S_, .f32⟩
  | 105 => ⟨S100000x1, .f32⟩
  | 106 => ⟨S100000x1, .f32⟩
  | 107 => ⟨S100000x64, .f32⟩
  | 108 => ⟨S100000x64, .f32⟩
  | 109 => ⟨S_, .f32⟩
  | 110 => ⟨S100000x1, .f32⟩
  | 111 => ⟨S100000x1, .f32⟩
  | 112 => ⟨S100000x1, .f32⟩
  | 113 => ⟨S100000x64, .f32⟩
  | 114 => ⟨S100000x64, .f32⟩
  | 115 => ⟨S1x64, .f32⟩
  | 116 => ⟨S100000x64, .f32⟩
  | 117 => ⟨S100000x64, .f32⟩
  | 118 => ⟨S1x64, .f32⟩
  | 119 => ⟨S100000x64, .f32⟩
  | 120 => ⟨S100000x64, .f32⟩
  | 121 => ⟨S_, .i32⟩
  | 122 => ⟨S1600000, .i32⟩
  | 123 => ⟨S1600000, .i1⟩
  | 124 => ⟨S_, .i32⟩
  | 125 => ⟨S1600000, .i32⟩
  | 126 => ⟨S1600000, .i32⟩
  | 127 => ⟨S1600000, .i32⟩
  | _ => ⟨S100000x384, .f32⟩

abbrev hbmTy0_1 (i : Nat) : BufTy := match i % 128 with
  | 0 => ⟨S1600000x1, .i32⟩
  | 1 => ⟨S1600000x64, .f32⟩
  | 2 => ⟨S_, .f32⟩
  | 3 => ⟨S100000x64, .f32⟩
  | 4 => ⟨S1600000x1, .i32⟩
  | 5 => ⟨S100000x64, .f32⟩
  | 6 => ⟨S100000x64, .f32⟩
  | 7 => ⟨S100000x64, .f32⟩
  | 8 => ⟨S1x64x64, .f32⟩
  | 9 => ⟨S64x64, .f32⟩
  | 10 => ⟨S100000x64, .f32⟩
  | 11 => ⟨S1x64, .f32⟩
  | 12 => ⟨S64, .f32⟩
  | 13 => ⟨S1x64, .f32⟩
  | 14 => ⟨S100000x64, .f32⟩
  | 15 => ⟨S100000x64, .f32⟩
  | 16 => ⟨S1x64x64, .f32⟩
  | 17 => ⟨S64x64, .f32⟩
  | 18 => ⟨S100000x64, .f32⟩
  | 19 => ⟨S100000x64, .f32⟩
  | 20 => ⟨S100000x64, .f32⟩
  | 21 => ⟨S_, .f32⟩
  | 22 => ⟨S100000, .f32⟩
  | 23 => ⟨S100000x1, .f32⟩
  | 24 => ⟨S_, .f32⟩
  | 25 => ⟨S100000x1, .f32⟩
  | 26 => ⟨S100000x1, .f32⟩
  | 27 => ⟨S100000x1, .f32⟩
  | 28 => ⟨S100000x64, .f32⟩
  | 29 => ⟨S100000x64, .f32⟩
  | 30 => ⟨S_, .f32⟩
  | 31 => ⟨S100000x64, .f32⟩
  | 32 => ⟨S100000x64, .f32⟩
  | 33 => ⟨S100000x64, .f32⟩
  | 34 => ⟨S1x64, .f32⟩
  | 35 => ⟨S64, .f32⟩
  | 36 => ⟨S1x64, .f32⟩
  | 37 => ⟨S64, .f32⟩
  | 38 => ⟨S_, .f32⟩
  | 39 => ⟨S100000, .f32⟩
  | 40 => ⟨S100000x1, .f32⟩
  | 41 => ⟨S_, .f32⟩
  | 42 => ⟨S100000x1, .f32⟩
  | 43 => ⟨S100000x1, .f32⟩
  | 44 => ⟨S_, .i32⟩
  | 45 => ⟨S_, .f32⟩
  | 46 => ⟨S100000, .f32⟩
  | 47 => ⟨S100000x1, .f32⟩
  | 48 => ⟨S_, .f32⟩
  | 49 => ⟨S100000x1, .f32⟩
  | 50 => ⟨S100000x1, .f32⟩
  | 51 => ⟨S100000x64, .f32⟩
  | 52 => ⟨S100000x64, .f32⟩
  | 53 => ⟨S100000x64, .f32⟩
  | 54 => ⟨S_, .f32⟩
  | 55 => ⟨S_, .f32⟩
  | 56 => ⟨S_, .f32⟩
  | 57 => ⟨S_, .f32⟩
  | 58 => ⟨S100000, .f32⟩
  | 59 => ⟨S100000x1, .f32⟩
  | 60 => ⟨S100000x1, .f32⟩
  | 61 => ⟨S100000x1, .f32⟩
  | 62 => ⟨S_, .f32⟩
  | 63 => ⟨S_, .i1⟩
  | 64 => ⟨S_, .f32⟩
  | 65 => ⟨S_, .f32⟩
  | 66 => ⟨S100000x1, .f32⟩
  | 67 => ⟨S100000x1, .f32⟩
  | 68 => ⟨S100000x64, .f32⟩
  | 69 => ⟨S100000x64, .f32⟩
  | 70 => ⟨S_, .f32⟩
  | 71 => ⟨S100000x1, .f32⟩
  | 72 => ⟨S100000x1, .f32⟩
  | 73 => ⟨S100000x1, .f32⟩
  | 74 => ⟨S100000x64, .f32⟩
  | 75 => ⟨S100000x64, .f32⟩
  | 76 => ⟨S1x64, .f32⟩
  | 77 => ⟨S100000x64, .f32⟩
  | 78 => ⟨S100000x64, .f32⟩
  | 79 => ⟨S1x64, .f32⟩
  | 80 => ⟨S100000x64, .f32⟩
  | 81 => ⟨S100000x64, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000x64, .f32⟩
  | 91 => ⟨S_, .f32⟩
  | 92 => ⟨S100000x64, .f32⟩
  | 93 => ⟨S1600000x1, .i32⟩
  | 94 => ⟨S100000x64, .f32⟩
  | 95 => ⟨S100000x64, .f32⟩
  | 96 => ⟨S100000x64, .f32⟩
  | 97 => ⟨S1x64x64, .f32⟩
  | 98 => ⟨S64x64, .f32⟩
  | 99 => ⟨S100000x64, .f32⟩
  | 100 => ⟨S1x64, .f32⟩
  | 101 => ⟨S64, .f32⟩
  | 102 => ⟨S1x64, .f32⟩
  | 103 => ⟨S100000x64, .f32⟩
  | 104 => ⟨S100000x64, .f32⟩
  | 105 => ⟨S1x64x64, .f32⟩
  | 106 => ⟨S64x64, .f32⟩
  | 107 => ⟨S100000x64, .f32⟩
  | 108 => ⟨S100000x64, .f32⟩
  | 109 => ⟨S100000x64, .f32⟩
  | 110 => ⟨S_, .f32⟩
  | 111 => ⟨S100000, .f32⟩
  | 112 => ⟨S100000x1, .f32⟩
  | 113 => ⟨S_, .f32⟩
  | 114 => ⟨S100000x1, .f32⟩
  | 115 => ⟨S100000x1, .f32⟩
  | 116 => ⟨S100000x1, .f32⟩
  | 117 => ⟨S100000x64, .f32⟩
  | 118 => ⟨S100000x64, .f32⟩
  | 119 => ⟨S_, .f32⟩
  | 120 => ⟨S100000x64, .f32⟩
  | 121 => ⟨S100000x64, .f32⟩
  | 122 => ⟨S100000x64, .f32⟩
  | 123 => ⟨S1x64, .f32⟩
  | 124 => ⟨S64, .f32⟩
  | 125 => ⟨S1x64, .f32⟩
  | 126 => ⟨S64, .f32⟩
  | 127 => ⟨S_, .f32⟩
  | _ => ⟨S100000x384, .f32⟩

abbrev hbmTy0_2 (i : Nat) : BufTy := match i % 128 with
  | 0 => ⟨S100000, .f32⟩
  | 1 => ⟨S100000x1, .f32⟩
  | 2 => ⟨S_, .f32⟩
  | 3 => ⟨S100000x1, .f32⟩
  | 4 => ⟨S100000x1, .f32⟩
  | 5 => ⟨S_, .i32⟩
  | 6 => ⟨S_, .f32⟩
  | 7 => ⟨S100000, .f32⟩
  | 8 => ⟨S100000x1, .f32⟩
  | 9 => ⟨S_, .f32⟩
  | 10 => ⟨S100000x1, .f32⟩
  | 11 => ⟨S100000x1, .f32⟩
  | 12 => ⟨S100000x64, .f32⟩
  | 13 => ⟨S100000x64, .f32⟩
  | 14 => ⟨S100000x64, .f32⟩
  | 15 => ⟨S_, .f32⟩
  | 16 => ⟨S_, .f32⟩
  | 17 => ⟨S_, .f32⟩
  | 18 => ⟨S_, .f32⟩
  | 19 => ⟨S100000, .f32⟩
  | 20 => ⟨S100000x1, .f32⟩
  | 21 => ⟨S100000x1, .f32⟩
  | 22 => ⟨S100000x1, .f32⟩
  | 23 => ⟨S_, .f32⟩
  | 24 => ⟨S_, .i1⟩
  | 25 => ⟨S_, .f32⟩
  | 26 => ⟨S_, .f32⟩
  | 27 => ⟨S100000x1, .f32⟩
  | 28 => ⟨S100000x1, .f32⟩
  | 29 => ⟨S100000x64, .f32⟩
  | 30 => ⟨S100000x64, .f32⟩
  | 31 => ⟨S_, .f32⟩
  | 32 => ⟨S100000x1, .f32⟩
  | 33 => ⟨S100000x1, .f32⟩
  | 34 => ⟨S100000x1, .f32⟩
  | 35 => ⟨S100000x64, .f32⟩
  | 36 => ⟨S100000x64, .f32⟩
  | 37 => ⟨S1x64, .f32⟩
  | 38 => ⟨S100000x64, .f32⟩
  | 39 => ⟨S100000x64, .f32⟩
  | 40 => ⟨S1x64, .f32⟩
  | 41 => ⟨S100000x64, .f32⟩
  | 42 => ⟨S100000x64, .f32⟩
  | 43 => ⟨S_, .f32⟩
  | 44 => ⟨S100000, .f32⟩
  | 45 => ⟨S100000x1, .f32⟩
  | 46 => ⟨S_, .f32⟩
  | 47 => ⟨S100000x1, .f32⟩
  | 48 => ⟨S100000x1, .f32⟩
  | 49 => ⟨S_, .i32⟩
  | 50 => ⟨S_, .f32⟩
  | 51 => ⟨S100000, .f32⟩
  | 52 => ⟨S100000x1, .f32⟩
  | 53 => ⟨S_, .f32⟩
  | 54 => ⟨S100000x1, .f32⟩
  | 55 => ⟨S100000x1, .f32⟩
  | 56 => ⟨S100000x64, .f32⟩
  | 57 => ⟨S100000x64, .f32⟩
  | 58 => ⟨S100000x64, .f32⟩
  | 59 => ⟨S_, .f32⟩
  | 60 => ⟨S_, .f32⟩
  | 61 => ⟨S_, .f32⟩
  | 62 => ⟨S_, .f32⟩
  | 63 => ⟨S100000, .f32⟩
  | 64 => ⟨S100000x1, .f32⟩
  | 65 => ⟨S100000x1, .f32⟩
  | 66 => ⟨S100000x1, .f32⟩
  | 67 => ⟨S_, .f32⟩
  | 68 => ⟨S_, .i1⟩
  | 69 => ⟨S_, .f32⟩
  | 70 => ⟨S_, .f32⟩
  | 71 => ⟨S100000x1, .f32⟩
  | 72 => ⟨S100000x1, .f32⟩
  | 73 => ⟨S100000x64, .f32⟩
  | 74 => ⟨S100000x64, .f32⟩
  | 75 => ⟨S_, .f32⟩
  | 76 => ⟨S100000x1, .f32⟩
  | 77 => ⟨S100000x1, .f32⟩
  | 78 => ⟨S100000x1, .f32⟩
  | 79 => ⟨S100000x64, .f32⟩
  | 80 => ⟨S100000x64, .f32⟩
  | 81 => ⟨S1x64, .f32⟩
  | 82 => ⟨S100000x64, .f32⟩
  | 83 => ⟨S100000x64, .f32⟩
  | 84 => ⟨S1x64, .f32⟩
  | 85 => ⟨S100000x64, .f32⟩
  | 86 => ⟨S100000x64, .f32⟩
  | _ => ⟨S100000x384, .f32⟩

abbrev hbmTy (i : Nat) : BufTy := match i / 128 with
  | 0 => hbmTy0_0 i
  | 1 => hbmTy0_1 i
  | 2 => hbmTy0_2 i
  | _ => ⟨S100000x384, .f32⟩

abbrev bufTy : (tb : Table) → Fin (tcTables nBuf tb) → BufTy
  | .hbm, ⟨i, _⟩ => hbmTy i
  | _, _ => ⟨S100000x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call0_cst : Ref sig .tc := ⟨.hbm, 19, rfl⟩
abbrev main_call0_v0 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_4 : Ref sig .tc := ⟨.hbm, 60, rfl⟩
abbrev main_v41 : Ref sig .tc := ⟨.hbm, 61, rfl⟩
abbrev main_v42 : Ref sig .tc := ⟨.hbm, 62, rfl⟩
abbrev main_cst_5 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call1_cst : Ref sig .tc := ⟨.hbm, 69, rfl⟩
abbrev main_call1_v0 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_6 : Ref sig .tc := ⟨.hbm, 77, rfl⟩
abbrev main_v54 : Ref sig .tc := ⟨.hbm, 78, rfl⟩
abbrev main_v55 : Ref sig .tc := ⟨.hbm, 79, rfl⟩
abbrev main_cst_7 : Ref sig .tc := ⟨.hbm, 80, rfl⟩
abbrev main_v56 : Ref sig .tc := ⟨.hbm, 81, rfl⟩
abbrev main_v57 : Ref sig .tc := ⟨.hbm, 82, rfl⟩
abbrev main_c_8 : Ref sig .tc := ⟨.hbm, 83, rfl⟩
abbrev main_call2_cst : Ref sig .tc := ⟨.hbm, 84, rfl⟩
abbrev main_call2_v0 : Ref sig .tc := ⟨.hbm, 85, rfl⟩
abbrev main_call2_v1 : Ref sig .tc := ⟨.hbm, 86, rfl⟩
abbrev main_call2_cst_0 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_v5 : Ref sig .tc := ⟨.hbm, 91, rfl⟩
abbrev main_call2_v6 : Ref sig .tc := ⟨.hbm, 92, rfl⟩
abbrev main_call2_v7 : Ref sig .tc := ⟨.hbm, 93, rfl⟩
abbrev main_call2_cst_1 : Ref sig .tc := ⟨.hbm, 94, rfl⟩
abbrev main_call2_v8 : Ref sig .tc := ⟨.hbm, 95, rfl⟩
abbrev main_call2_cst_2 : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_v12 : Ref sig .tc := ⟨.hbm, 100, rfl⟩
abbrev main_call2_cst_3 : Ref sig .tc := ⟨.hbm, 101, rfl⟩
abbrev main_call2_v13 : Ref sig .tc := ⟨.hbm, 102, rfl⟩
abbrev main_call2_cst_4 : Ref sig .tc := ⟨.hbm, 103, rfl⟩
abbrev main_call2_call0_v0 : Ref sig .tc := ⟨.hbm, 104, rfl⟩
abbrev main_call2_call0_v1 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_cst_9 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_c_10 : Ref sig .tc := ⟨.hbm, 121, rfl⟩
abbrev main_v72 : Ref sig .tc := ⟨.hbm, 122, rfl⟩
abbrev main_v73 : Ref sig .tc := ⟨.hbm, 123, rfl⟩
abbrev main_c_11 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_cst_12 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_cst_13 : Ref sig .tc := ⟨.hbm, 149, rfl⟩
abbrev main_v97 : Ref sig .tc := ⟨.hbm, 150, rfl⟩
abbrev main_v98 : Ref sig .tc := ⟨.hbm, 151, rfl⟩
abbrev main_cst_14 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_call3_cst : Ref sig .tc := ⟨.hbm, 158, rfl⟩
abbrev main_call3_v0 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_cst_15 : Ref sig .tc := ⟨.hbm, 166, rfl⟩
abbrev main_v110 : Ref sig .tc := ⟨.hbm, 167, rfl⟩
abbrev main_v111 : Ref sig .tc := ⟨.hbm, 168, rfl⟩
abbrev main_cst_16 : Ref sig .tc := ⟨.hbm, 169, rfl⟩
abbrev main_v112 : Ref sig .tc := ⟨.hbm, 170, rfl⟩
abbrev main_v113 : Ref sig .tc := ⟨.hbm, 171, rfl⟩
abbrev main_c_17 : Ref sig .tc := ⟨.hbm, 172, rfl⟩
abbrev main_call4_cst : Ref sig .tc := ⟨.hbm, 173, rfl⟩
abbrev main_call4_v0 : Ref sig .tc := ⟨.hbm, 174, rfl⟩
abbrev main_call4_v1 : Ref sig .tc := ⟨.hbm, 175, rfl⟩
abbrev main_call4_cst_0 : Ref sig .tc := ⟨.hbm, 176, rfl⟩
abbrev main_call4_v2 : Ref sig .tc := ⟨.hbm, 177, rfl⟩
abbrev main_call4_v3 : Ref sig .tc := ⟨.hbm, 178, rfl⟩
abbrev main_call4_v4 : Ref sig .tc := ⟨.hbm, 179, rfl⟩
abbrev main_call4_v5 : Ref sig .tc := ⟨.hbm, 180, rfl⟩
abbrev main_call4_v6 : Ref sig .tc := ⟨.hbm, 181, rfl⟩
abbrev main_call4_v7 : Ref sig .tc := ⟨.hbm, 182, rfl⟩
abbrev main_call4_cst_1 : Ref sig .tc := ⟨.hbm, 183, rfl⟩
abbrev main_call4_v8 : Ref sig .tc := ⟨.hbm, 184, rfl⟩
abbrev main_call4_cst_2 : Ref sig .tc := ⟨.hbm, 185, rfl⟩
abbrev main_call4_v9 : Ref sig .tc := ⟨.hbm, 186, rfl⟩
abbrev main_call4_v10 : Ref sig .tc := ⟨.hbm, 187, rfl⟩
abbrev main_call4_v11 : Ref sig .tc := ⟨.hbm, 188, rfl⟩
abbrev main_call4_v12 : Ref sig .tc := ⟨.hbm, 189, rfl⟩
abbrev main_call4_cst_3 : Ref sig .tc := ⟨.hbm, 190, rfl⟩
abbrev main_call4_v13 : Ref sig .tc := ⟨.hbm, 191, rfl⟩
abbrev main_call4_cst_4 : Ref sig .tc := ⟨.hbm, 192, rfl⟩
abbrev main_call4_call0_v0 : Ref sig .tc := ⟨.hbm, 193, rfl⟩
abbrev main_call4_call0_v1 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_cst_18 : Ref sig .tc := ⟨.hbm, 198, rfl⟩
abbrev main_v117 : Ref sig .tc := ⟨.hbm, 199, rfl⟩
abbrev main_v118 : Ref sig .tc := ⟨.hbm, 200, rfl⟩
abbrev main_v119 : Ref sig .tc := ⟨.hbm, 201, rfl⟩
abbrev main_v120 : Ref sig .tc := ⟨.hbm, 202, rfl⟩
abbrev main_v121 : Ref sig .tc := ⟨.hbm, 203, rfl⟩
abbrev main_v122 : Ref sig .tc := ⟨.hbm, 204, rfl⟩
abbrev main_v123 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_c_19 : Ref sig .tc := ⟨.hbm, 210, rfl⟩
abbrev main_v128 : Ref sig .tc := ⟨.hbm, 211, rfl⟩
abbrev main_v129 : Ref sig .tc := ⟨.hbm, 212, rfl⟩
abbrev main_c_20 : Ref sig .tc := ⟨.hbm, 213, rfl⟩
abbrev main_v130 : Ref sig .tc := ⟨.hbm, 214, rfl⟩
abbrev main_v131 : Ref sig .tc := ⟨.hbm, 215, rfl⟩
abbrev main_v132 : Ref sig .tc := ⟨.hbm, 216, rfl⟩
abbrev main_v133 : Ref sig .tc := ⟨.hbm, 217, rfl⟩
abbrev main_v134 : Ref sig .tc := ⟨.hbm, 218, rfl⟩
abbrev main_cst_21 : Ref sig .tc := ⟨.hbm, 219, rfl⟩
abbrev main_v135 : Ref sig .tc := ⟨.hbm, 220, rfl⟩
abbrev main_v136 : Ref sig .tc := ⟨.hbm, 221, rfl⟩
abbrev main_v137 : Ref sig .tc := ⟨.hbm, 222, rfl⟩
abbrev main_v138 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_v142 : Ref sig .tc := ⟨.hbm, 227, rfl⟩
abbrev main_v143 : Ref sig .tc := ⟨.hbm, 228, rfl⟩
abbrev main_v144 : Ref sig .tc := ⟨.hbm, 229, rfl⟩
abbrev main_v145 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_v152 : Ref sig .tc := ⟨.hbm, 237, rfl⟩
abbrev main_cst_22 : Ref sig .tc := ⟨.hbm, 238, rfl⟩
abbrev main_v153 : Ref sig .tc := ⟨.hbm, 239, rfl⟩
abbrev main_v154 : Ref sig .tc := ⟨.hbm, 240, rfl⟩
abbrev main_cst_23 : Ref sig .tc := ⟨.hbm, 241, rfl⟩
abbrev main_v155 : Ref sig .tc := ⟨.hbm, 242, rfl⟩
abbrev main_v156 : Ref sig .tc := ⟨.hbm, 243, rfl⟩
abbrev main_v157 : Ref sig .tc := ⟨.hbm, 244, rfl⟩
abbrev main_v158 : Ref sig .tc := ⟨.hbm, 245, rfl⟩
abbrev main_v159 : Ref sig .tc := ⟨.hbm, 246, rfl⟩
abbrev main_call5_cst : Ref sig .tc := ⟨.hbm, 247, rfl⟩
abbrev main_call5_v0 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_v163 : Ref sig .tc := ⟨.hbm, 252, rfl⟩
abbrev main_v164 : Ref sig .tc := ⟨.hbm, 253, rfl⟩
abbrev main_v165 : Ref sig .tc := ⟨.hbm, 254, rfl⟩
abbrev main_cst_24 : Ref sig .tc := ⟨.hbm, 255, rfl⟩
abbrev main_v166 : Ref sig .tc := ⟨.hbm, 256, rfl⟩
abbrev main_v167 : Ref sig .tc := ⟨.hbm, 257, rfl⟩
abbrev main_cst_25 : Ref sig .tc := ⟨.hbm, 258, rfl⟩
abbrev main_v168 : Ref sig .tc := ⟨.hbm, 259, rfl⟩
abbrev main_v169 : Ref sig .tc := ⟨.hbm, 260, rfl⟩
abbrev main_c_26 : Ref sig .tc := ⟨.hbm, 261, rfl⟩
abbrev main_call6_cst : Ref sig .tc := ⟨.hbm, 262, rfl⟩
abbrev main_call6_v0 : Ref sig .tc := ⟨.hbm, 263, rfl⟩
abbrev main_call6_v1 : Ref sig .tc := ⟨.hbm, 264, rfl⟩
abbrev main_call6_cst_0 : Ref sig .tc := ⟨.hbm, 265, rfl⟩
abbrev main_call6_v2 : Ref sig .tc := ⟨.hbm, 266, rfl⟩
abbrev main_call6_v3 : Ref sig .tc := ⟨.hbm, 267, rfl⟩
abbrev main_call6_v4 : Ref sig .tc := ⟨.hbm, 268, rfl⟩
abbrev main_call6_v5 : Ref sig .tc := ⟨.hbm, 269, rfl⟩
abbrev main_call6_v6 : Ref sig .tc := ⟨.hbm, 270, rfl⟩
abbrev main_call6_v7 : Ref sig .tc := ⟨.hbm, 271, rfl⟩
abbrev main_call6_cst_1 : Ref sig .tc := ⟨.hbm, 272, rfl⟩
abbrev main_call6_v8 : Ref sig .tc := ⟨.hbm, 273, rfl⟩
abbrev main_call6_cst_2 : Ref sig .tc := ⟨.hbm, 274, rfl⟩
abbrev main_call6_v9 : Ref sig .tc := ⟨.hbm, 275, rfl⟩
abbrev main_call6_v10 : Ref sig .tc := ⟨.hbm, 276, rfl⟩
abbrev main_call6_v11 : Ref sig .tc := ⟨.hbm, 277, rfl⟩
abbrev main_call6_v12 : Ref sig .tc := ⟨.hbm, 278, rfl⟩
abbrev main_call6_cst_3 : Ref sig .tc := ⟨.hbm, 279, rfl⟩
abbrev main_call6_v13 : Ref sig .tc := ⟨.hbm, 280, rfl⟩
abbrev main_call6_cst_4 : Ref sig .tc := ⟨.hbm, 281, rfl⟩
abbrev main_call6_call0_v0 : Ref sig .tc := ⟨.hbm, 282, rfl⟩
abbrev main_call6_call0_v1 : Ref sig .tc := ⟨.hbm, 283, rfl⟩
abbrev main_v170 : Ref sig .tc := ⟨.hbm, 284, rfl⟩
abbrev main_v171 : Ref sig .tc := ⟨.hbm, 285, rfl⟩
abbrev main_v172 : Ref sig .tc := ⟨.hbm, 286, rfl⟩
abbrev main_cst_27 : Ref sig .tc := ⟨.hbm, 287, rfl⟩
abbrev main_v173 : Ref sig .tc := ⟨.hbm, 288, rfl⟩
abbrev main_v174 : Ref sig .tc := ⟨.hbm, 289, rfl⟩
abbrev main_v175 : Ref sig .tc := ⟨.hbm, 290, rfl⟩
abbrev main_v176 : Ref sig .tc := ⟨.hbm, 291, rfl⟩
abbrev main_v177 : Ref sig .tc := ⟨.hbm, 292, rfl⟩
abbrev main_v178 : Ref sig .tc := ⟨.hbm, 293, rfl⟩
abbrev main_v179 : Ref sig .tc := ⟨.hbm, 294, rfl⟩
abbrev main_v180 : Ref sig .tc := ⟨.hbm, 295, rfl⟩
abbrev main_v181 : Ref sig .tc := ⟨.hbm, 296, rfl⟩
abbrev main_v182 : Ref sig .tc := ⟨.hbm, 297, rfl⟩
abbrev main_v183 : Ref sig .tc := ⟨.hbm, 298, rfl⟩
abbrev main_cst_28 : Ref sig .tc := ⟨.hbm, 299, rfl⟩
abbrev main_v184 : Ref sig .tc := ⟨.hbm, 300, rfl⟩
abbrev main_v185 : Ref sig .tc := ⟨.hbm, 301, rfl⟩
abbrev main_cst_29 : Ref sig .tc := ⟨.hbm, 302, rfl⟩
abbrev main_v186 : Ref sig .tc := ⟨.hbm, 303, rfl⟩
abbrev main_v187 : Ref sig .tc := ⟨.hbm, 304, rfl⟩
abbrev main_c_30 : Ref sig .tc := ⟨.hbm, 305, rfl⟩
abbrev main_call7_cst : Ref sig .tc := ⟨.hbm, 306, rfl⟩
abbrev main_call7_v0 : Ref sig .tc := ⟨.hbm, 307, rfl⟩
abbrev main_call7_v1 : Ref sig .tc := ⟨.hbm, 308, rfl⟩
abbrev main_call7_cst_0 : Ref sig .tc := ⟨.hbm, 309, rfl⟩
abbrev main_call7_v2 : Ref sig .tc := ⟨.hbm, 310, rfl⟩
abbrev main_call7_v3 : Ref sig .tc := ⟨.hbm, 311, rfl⟩
abbrev main_call7_v4 : Ref sig .tc := ⟨.hbm, 312, rfl⟩
abbrev main_call7_v5 : Ref sig .tc := ⟨.hbm, 313, rfl⟩
abbrev main_call7_v6 : Ref sig .tc := ⟨.hbm, 314, rfl⟩
abbrev main_call7_v7 : Ref sig .tc := ⟨.hbm, 315, rfl⟩
abbrev main_call7_cst_1 : Ref sig .tc := ⟨.hbm, 316, rfl⟩
abbrev main_call7_v8 : Ref sig .tc := ⟨.hbm, 317, rfl⟩
abbrev main_call7_cst_2 : Ref sig .tc := ⟨.hbm, 318, rfl⟩
abbrev main_call7_v9 : Ref sig .tc := ⟨.hbm, 319, rfl⟩
abbrev main_call7_v10 : Ref sig .tc := ⟨.hbm, 320, rfl⟩
abbrev main_call7_v11 : Ref sig .tc := ⟨.hbm, 321, rfl⟩
abbrev main_call7_v12 : Ref sig .tc := ⟨.hbm, 322, rfl⟩
abbrev main_call7_cst_3 : Ref sig .tc := ⟨.hbm, 323, rfl⟩
abbrev main_call7_v13 : Ref sig .tc := ⟨.hbm, 324, rfl⟩
abbrev main_call7_cst_4 : Ref sig .tc := ⟨.hbm, 325, rfl⟩
abbrev main_call7_call0_v0 : Ref sig .tc := ⟨.hbm, 326, rfl⟩
abbrev main_call7_call0_v1 : Ref sig .tc := ⟨.hbm, 327, rfl⟩
abbrev main_v188 : Ref sig .tc := ⟨.hbm, 328, rfl⟩
abbrev main_v189 : Ref sig .tc := ⟨.hbm, 329, rfl⟩
abbrev main_v190 : Ref sig .tc := ⟨.hbm, 330, rfl⟩
abbrev main_cst_31 : Ref sig .tc := ⟨.hbm, 331, rfl⟩
abbrev main_v191 : Ref sig .tc := ⟨.hbm, 332, rfl⟩
abbrev main_v192 : Ref sig .tc := ⟨.hbm, 333, rfl⟩
abbrev main_v193 : Ref sig .tc := ⟨.hbm, 334, rfl⟩
abbrev main_v194 : Ref sig .tc := ⟨.hbm, 335, rfl⟩
abbrev main_v195 : Ref sig .tc := ⟨.hbm, 336, rfl⟩
abbrev main_v196 : Ref sig .tc := ⟨.hbm, 337, rfl⟩
abbrev main_v197 : Ref sig .tc := ⟨.hbm, 338, rfl⟩
abbrev main_v198 : Ref sig .tc := ⟨.hbm, 339, rfl⟩
abbrev main_v199 : Ref sig .tc := ⟨.hbm, 340, rfl⟩
abbrev main_v200 : Ref sig .tc := ⟨.hbm, 341, rfl⟩
abbrev main_v201 : Ref sig .tc := ⟨.hbm, 342, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  reducesTo_S100000x64_S100000_d1 : S100000x64.ReducesTo [1] S100000
  h_S_ : 0 < S_.numel
  bcast_S_S100000x1 : S_.BroadcastsInDim S100000x1 (![] : Fin 0 → Fin S100000x1.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  dot_S100000x384_S384x64_S100000x64_1_0_0_1_n_n_wf : DotDims.WF S100000x384 S384x64 S100000x64 [1] [0] [0] [1] [] []
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def dot_S100000x384_S384x64_S100000x64_1_0_0_1_n_n : DotDims S100000x384 S384x64 S100000x64 where
  lhsContracting := [1]
  rhsContracting := [0]
  lhsNonContracting := [0]
  rhsNonContracting := [1]
  lhsBatch := []
  rhsBatch := []
  wf := dot_S100000x384_S384x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.RefSpec.lean ====
/-
  The reference's computation as whole-array functions. Each definition is a plain composition of the host
  operations of one stage of the reference, over the same records and literals the program prints:

  * `src`, `dst`: the two rows of the edge list as vectors; `srcCol` the source row with negative entries
    wrapped by the number of nodes, as a column of start indices; `degCol` the in-degree (a scatter-add of ones
    at the destinations) clamped below by one, as a column.
  * `proj x W b = relu (x · W + b)`, the bias laid along every row.
  * `agg h ei`: rows of `h` gathered at the sources, scatter-added at the destinations, divided by the degree.
  * `pre a h wl bl wr = (a · wl + bl) + h · wr`; `l2relu o = relu (o · rsqrt (max (Σ_k o², 1e-24)))` row by row;
    `lnorm y g b = (y − mean y) · rsqrt (var y + 1e-5) · g + b` row by row, the variance as jnp spells it
    (the divisor `64 − ddof` and the guard on its sign kept as printed).
  * `layer` one graph-convolution layer, `refOut` the three layers and the closing normalisation.
-/
import proofs.«182089_j86543591014918_2_alg».proof.Proof.Gen.ReferenceIdeal
import Idealize.ShloMosaic.PureOps.Ideal

noncomputable section

namespace Cert.Sage

open Idealize.ShloMosaic Cert.ReferenceIdeal Cert.ReferenceIdeal.Gen

variable {F : FTy → Type} [FloatOps F]

/-- The first row of the edge list (the sources), as a vector. -/
def src (ei : IVec S2x1600000 32) : IVec S1600000 32 :=
  shapeCast S1600000 (extractStridedSlice S1x1600000 ![0, 0] ei slices_S2x1600000_S1x1600000_0_0) shapeCasts_S1x1600000_S1600000

/-- The second row of the edge list (the destinations), as a vector. -/
def dst (ei : IVec S2x1600000 32) : IVec S1600000 32 :=
  shapeCast S1600000 (extractStridedSlice S1x1600000 ![1, 0] ei slices_S2x1600000_S1x1600000_1_0) shapeCasts_S1x1600000_S1600000

/-- The destinations as a column of start indices. -/
def dstCol (ei : IVec S2x1600000 32) : IVec S1600000x1 32 :=
  broadcastInDim S1600000x1 ![0] bcast_S1600000_S1600000x1_0 (dst ei)

/-- The sources, a negative one wrapped by the number of nodes, as a column of start indices. -/
def srcCol (ei : IVec S2x1600000 32) : IVec S1600000x1 32 :=
  broadcastInDim S1600000x1 ![0] bcast_S1600000_S1600000x1_0
    (select (cmpi .slt (src ei) (broadcastInDim S1600000 ![] bcast_S_S1600000 (constantI S_ 32 0#32)))
      (addi (src ei) (broadcastInDim S1600000 ![] bcast_S_S1600000 (constantI S_ 32 100000#32))) (src ei))

/-- The in-degree of every node, at least one, as a column. -/
def degCol (ei : IVec S2x1600000 32) : FVec F S100000x1 .f32 :=
  broadcastInDim S100000x1 ![0] bcast_S100000_S100000x1_0
    (maximumf
      (Host.scatterAdd scatter_S100000_S1600000x1_S1600000_n_0_0_1
        (broadcastInDim S100000 ![] bcast_S_S100000 (constant S_ .f32 0x00000000#32)) (dstCol ei)
        (broadcastInDim S1600000 ![] bcast_S_S1600000 (constant S_ .f32 0x3F800000#32)))
      (broadcastInDim S100000 ![] bcast_S_S100000 (constant S_ .f32 0x3F800000#32)))

/-- The maximum with zero. -/
def relu (x : FVec F S100000x64 .f32) : FVec F S100000x64 .f32 :=
  maximumf x (broadcastInDim S100000x64 ![] bcast_S_S100000x64 (constant S_ .f32 0x00000000#32))

/-- A vector of 64 entries laid along every row. -/
def rowBias (b : FVec F S64 .f32) : FVec F S100000x64 .f32 :=
  broadcastInDim S100000x64 ![0, 1] bcast_S1x64_S100000x64_0_1 (broadcastInDim S1x64 ![1] bcast_S64_S1x64_1 b)

/-- The input projection: `relu (x · W + b)`. -/
def proj (x : FVec F S100000x384 .f32) (W : FVec F S384x64 .f32) (b : FVec F S64 .f32) : FVec F S100000x64 .f32 :=
  relu (addf (Host.dotGeneral dot_S100000x384_S384x64_S100000x64_1_0_0_1_n_n none x W) (rowBias b))

/-- A column spread along every row. -/
def spread (c : FVec F S100000x1 .f32) : FVec F S100000x64 .f32 :=
  broadcastInDim S100000x64 ![0, 1] bcast_S100000x1_S100000x64_0_1 c

/-- The mean aggregation: rows gathered at the sources, added up at the destinations, divided by the degree. -/
def agg (h : FVec F S100000x64 .f32) (ei : IVec S2x1600000 32) : FVec F S100000x64 .f32 :=
  Host.divf
    (Host.scatterAdd scatter_S100000x64_S1600000x1_S1600000x64_1_0_0_1
      (broadcastInDim S100000x64 ![] bcast_S_S100000x64 (constant S_ .f32 0x00000000#32)) (dstCol ei)
      (Host.gather gather_S100000x64_S1600000x1_S1600000x64_1_0_n_n_0_1_164 h (srcCol ei)))
    (spread (degCol ei))

/-- Layer `0`, `1`, `2` of a stack of three 64×64 matrices. -/
def mat0 (W : FVec F S3x64x64 .f32) : FVec F S64x64 .f32 :=
  shapeCast S64x64 (extractStridedSlice S1x64x64 ![0, 0, 0] W slices_S3x64x64_S1x64x64_0_0_0) shapeCasts_S1x64x64_S64x64
def mat1 (W : FVec F S3x64x64 .f32) : FVec F S64x64 .f32 :=
  shapeCast S64x64 (extractStridedSlice S1x64x64 ![1, 0, 0] W slices_S3x64x64_S1x64x64_1_0_0) shapeCasts_S1x64x64_S64x64
def mat2 (W : FVec F S3x64x64 .f32) : FVec F S64x64 .f32 :=
  shapeCast S64x64 (extractStridedSlice S1x64x64 ![2, 0, 0] W slices_S3x64x64_S1x64x64_2_0_0) shapeCasts_S1x64x64_S64x64

/-- Layer `0`, `1`, `2` of a stack of three vectors of 64 entries. -/
def vec0 (v : FVec F S3x64 .f32) : FVec F S64 .f32 :=
  shapeCast S64 (extractStridedSlice S1x64 ![0, 0] v slices_S3x64_S1x64_0_0) shapeCasts_S1x64_S64
def vec1 (v : FVec F S3x64 .f32) : FVec F S64 .f32 :=
  shapeCast S64 (extractStridedSlice S1x64 ![1, 0] v slices_S3x64_S1x64_1_0) shapeCasts_S1x64_S64
def vec2 (v : FVec F S3x64 .f32) : FVec F S64 .f32 :=
  shapeCast S64 (extractStridedSlice S1x64 ![2, 0] v slices_S3x64_S1x64_2_0) shapeCasts_S1x64_S64

/-- The linear combination of a layer: `(a · wl + bl) + h · wr`. -/
def pre (a h : FVec F S100000x64 .f32) (wl : FVec F S64x64 .f32) (bl : FVec F S64 .f32) (wr : FVec F S64x64 .f32) :
    FVec F S100000x64 .f32 :=
  addf (addf (Host.dotGeneral dot_S100000x64_S64x64_S100000x64_1_0_0_1_n_n none a wl) (rowBias bl))
    (Host.dotGeneral dot_S100000x64_S64x64_S100000x64_1_0_0_1_n_n none h wr)

/-- The sum of every row, as a column. -/
def colSum (x : FVec F S100000x64 .f32) : FVec F S100000x1 .f32 :=
  broadcastInDim S100000x1 ![0] bcast_S100000_S100000x1_0
    (Host.reduceAdd x (constant S_ .f32 0x00000000#32) reducesTo_S100000x64_S100000_d1 h_S_)

/-- A scalar as a column. -/
def colOf (s : FVec F S_ .f32) : FVec F S100000x1 .f32 :=
  broadcastInDim S100000x1 ![] bcast_S_S100000x1 s

/-- Every row scaled to unit length (the squared length clamped below by `1e-24`), then the maximum with zero. -/
def l2relu (o : FVec F S100000x64 .f32) : FVec F S100000x64 .f32 :=
  relu (mulf o (spread (Host.rsqrt (maximumf (colSum (mulf o o)) (colOf (constant S_ .f32 0x179ABE15#32))))))

/-- The mean of every row, as a column. -/
def meanCol (y : FVec F S100000x64 .f32) : FVec F S100000x1 .f32 :=
  Host.divf (colSum y) (colOf (constant S_ .f32 0x42800000#32))

/-- Every row minus its mean. -/
def centred (y : FVec F S100000x64 .f32) : FVec F S100000x64 .f32 :=
  subf y (spread (meanCol y))

/-- The divisor of the variance: the row length minus the degrees of freedom given up. -/
def varDen (ddof : IVec S_ 32) : FVec F S_ .f32 :=
  subf (constant S_ .f32 0x42800000#32) (sitofp .f32 ddof)

/-- The variance of every row as jnp computes it: the centred squares' sum over the divisor where the divisor
    is positive, the not-a-number pattern elsewhere. -/
def varCol (y : FVec F S100000x64 .f32) (ddof : IVec S_ 32) : FVec F S100000x1 .f32 :=
  select (broadcastInDim S100000x1 ![] bcast_S_S100000x1 (cmpf .ogt (varDen (F := F) ddof) (constant S_ .f32 0x00000000#32)))
    (Host.divf (colSum (mulf (centred y) (centred y))) (colOf (varDen ddof)))
    (colOf (constant S_ .f32 0x7FC00000#32))

/-- The layer normalisation of every row with scale `g` and shift `b`. -/
def lnorm (y : FVec F S100000x64 .f32) (g b : FVec F S64 .f32) : FVec F S100000x64 .f32 :=
  addf (mulf (mulf (centred y)
      (spread (Host.rsqrt (addf (varCol y (constantI S_ 32 0#32)) (colOf (constant S_ .f32 0x3727C5AC#32))))))
    (rowBias g)) (rowBias b)

/-- One graph-convolution layer from the aggregated rows `a` and the node rows `h`. -/
def layer (a h : FVec F S100000x64 .f32) (wl : FVec F S64x64 .f32) (bl : FVec F S64 .f32) (wr : FVec F S64x64 .f32)
    (g b : FVec F S64 .f32) : FVec F S100000x64 .f32 :=
  lnorm (addf (l2relu (pre a h wl bl wr)) h) g b

/-- The node rows after the input projection and after each of the three layers. -/
def h0 (x : FVec F S100000x384 .f32) (W : FVec F S384x64 .f32) (b : FVec F S64 .f32) : FVec F S100000x64 .f32 := proj x W b
def h1 (x : FVec F S100000x384 .f32) (ei : IVec S2x1600000 32) (W : FVec F S384x64 .f32) (b : FVec F S64 .f32)
    (Wl : FVec F S3x64x64 .f32) (bl : FVec F S3x64 .f32) (Wr : FVec F S3x64x64 .f32) (g bb : FVec F S3x64 .f32) : FVec F S100000x64 .f32 :=
  layer (agg (h0 x W b) ei) (h0 x W b) (mat0 Wl) (vec0 bl) (mat0 Wr) (vec0 g) (vec0 bb)
def h2 (x : FVec F S100000x384 .f32) (ei : IVec S2x1600000 32) (W : FVec F S384x64 .f32) (b : FVec F S64 .f32)
    (Wl : FVec F S3x64x64 .f32) (bl : FVec F S3x64 .f32) (Wr : FVec F S3x64x64 .f32) (g bb : FVec F S3x64 .f32) : FVec F S100000x64 .f32 :=
  layer (agg (h1 x ei W b Wl bl Wr g bb) ei) (h1 x ei W b Wl bl Wr g bb) (mat1 Wl) (vec1 bl) (mat1 Wr) (vec1 g) (vec1 bb)
def h3 (x : FVec F S100000x384 .f32) (ei : IVec S2x1600000 32) (W : FVec F S384x64 .f32) (b : FVec F S64 .f32)
    (Wl : FVec F S3x64x64 .f32) (bl : FVec F S3x64 .f32) (Wr : FVec F S3x64x64 .f32) (g bb : FVec F S3x64 .f32) : FVec F S100000x64 .f32 :=
  layer (agg (h2 x ei W b Wl bl Wr g bb) ei) (h2 x ei W b Wl bl Wr g bb) (mat2 Wl) (vec2 bl) (mat2 Wr) (vec2 g) (vec2 bb)

/-- What the reference returns, from its eleven arguments in order. -/
def refOut (x : FVec F S100000x384 .f32) (ei : IVec S2x1600000 32) (W : FVec F S384x64 .f32) (b : FVec F S64 .f32)
    (Wl : FVec F S3x64x64 .f32) (bl : FVec F S3x64 .f32) (Wr : FVec F S3x64x64 .f32) (g bb : FVec F S3x64 .f32)
    (og ob : FVec F S64 .f32) : FVec F S100000x64 .f32 :=
  lnorm (h3 x ei W b Wl bl Wr g bb) og ob

end Cert.Sage

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.LibLreluRows.lean ====
/-
  Single entries of a leaky rectifier and of a bias laid along the rows of a matrix, at exact (extended real) values.

  lrelu with slope 0.2 of one value (lr), and of a vector in the two spellings a tiled body and a host program give it
  (a comparison with a splat zero, a product with a splat 0.2 and a select — the constants scalars splat, or rank-0
  arrays broadcast), read at an index as lr of the entry, by computation. A bias vector of n entries laid along every
  row of an [m, n] matrix, read at entry (P, k) as entry k of the vector, in the two spellings: the vector broadcast
  along axis 1 of a one-row matrix and that row broadcast down the rows (biasRows_apply), and a one-row matrix, cast
  to its own shape, broadcast down the rows (rowDown_apply); a vector cast to a one-row matrix read at (0, k)
  (rowCast_apply).
-/
import Idealize.ShloMosaic.PureOps.Ideal.Laws
import Idealize.ShloMosaic.Lib.Pipeline.Value
import Idealize.ShloMosaic.Lib.ValueIdx
import Idealize.ShloMosaic.Lib.ValueLayout
import Idealize.ShloMosaic.Lib.KernelVsHost

noncomputable section

namespace Cert.LibLreluRows

open Idealize.ShloMosaic Idealize.ShloMosaic.ValueIdx

/-- lrelu on one value: v where v ≥ 0, and 0.2·v elsewhere (0.2 as its single-precision pattern). -/
def lr (v : EReal) : EReal :=
  Scalar.select (FloatOps.cmpf (F := Ideal) (φ := .f32) .oge v (Ideal.ofBits .f32 0x00000000#32)) v
    (Ideal.ofBits .f32 0x3E4CCCCD#32 * v)

/-- lrelu of a vector as a comparison with a splat zero, a product with a splat 0.2 and a select, at one index. -/
theorem lrelu_splat_apply {s : Shape} (v : FVec Ideal s .f32) (i : s.Idx) :
    select (cmpf .oge v (broadcast s (Scalar.ofBits (F := Ideal) .f32 0x00000000#32))) v
      (mulf (broadcast s (Scalar.ofBits (F := Ideal) .f32 0x3E4CCCCD#32)) v) i = lr (v i) := rfl

/-- The same with the two constants rank-0 arrays broadcast to the shape. -/
theorem lrelu_bcast_apply {s : Shape} (h : (⟨0, ![]⟩ : Shape).BroadcastsInDim s ![]) (v : FVec Ideal s .f32) (i : s.Idx) :
    select (cmpf .oge v (broadcastInDim s ![] h (constant (F := Ideal) ⟨0, ![]⟩ .f32 0x00000000#32))) v
      (mulf (broadcastInDim s ![] h (id (constant (F := Ideal) ⟨0, ![]⟩ .f32 0x3E4CCCCD#32))) v) i = lr (v i) := rfl

/-- lrelu of a vector: a comparison with a splat zero, a product with a splat 0.2 and a select. -/
def lrv {s : Shape} (v : FVec Ideal s .f32) : FVec Ideal s .f32 :=
  select (cmpf .oge v (broadcast s (Scalar.ofBits (F := Ideal) .f32 0x00000000#32))) v
    (mulf (broadcast s (Scalar.ofBits (F := Ideal) .f32 0x3E4CCCCD#32)) v)

theorem lrv_apply {s : Shape} (v : FVec Ideal s .f32) (i : s.Idx) : lrv v i = lr (v i) := rfl

/-- A vector of n entries read as a one-row matrix: entry (0, k) is entry k. -/
theorem rowCast_apply {α : Type} {n : Nat} (h : (⟨1, ![n]⟩ : Shape).ShapeCasts ⟨2, ![1, n]⟩)
    (b : (⟨1, ![n]⟩ : Shape).Idx → α) (k : Fin n) :
    shapeCast ⟨2, ![1, n]⟩ b h (ix2 (0 : Fin 1) k) = b (ix1 k) :=
  (shapeCast_addUnit_apply ![n] b h (ix2 (0 : Fin 1) k)).trans
    (congrArg b (funext fun a => match a with | ⟨0, _⟩ => rfl))

/-- A vector broadcast along axis 1 of a one-row matrix and that row broadcast down m rows: entry (P, k) is entry k. -/
theorem biasRows_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α)
    (P : Fin m) (k : Fin n) :
    broadcastInDim ⟨2, ![m, n]⟩ ![0, 1] h2 (broadcastInDim ⟨2, ![1, n]⟩ ![1] h1 b) (ix2 P k) = b (ix1 k) := by
  rw [broadcastInDim_oneRow_apply]
  refine broadcastInDim_apply ![1] h1 b (ix2 (0 : Fin 1) k) (ix1 k) ?_
  intro a
  match a with
  | ⟨0, _⟩ =>
    show k.val = if n = 1 then 0 else k.val
    split
    · have := k.isLt; omega
    · rfl

/-- A one-row matrix (cast to its own shape) broadcast down m rows: entry (p, k) is the row's entry (0, k). -/
theorem rowDown_apply {α : Type} {m n : Nat} (hs : (⟨2, ![1, n]⟩ : Shape).ShapeCasts ⟨2, ![1, n]⟩)
    (hb : (⟨2, ![1, n]⟩ : Shape).Broadcasts ⟨2, ![m, n]⟩) (x : (⟨2, ![1, n]⟩ : Shape).Idx → α) (p : Fin m) (k : Fin n) :
    broadcastTo ⟨2, ![m, n]⟩ (shapeCast ⟨2, ![1, n]⟩ x hs) hb (ix2 p k) = x (ix2 (0 : Fin 1) k) := by
  rw [broadcastTo_1b_ab_apply, shapeCast_self]

end Cert.LibLreluRows

end
-- ==== Proof.LibDenseRows.lean ====
/-
  Dense stages of a graph network read entry by entry, at exact (extended real) values.

    mm X W       entry (p, q) = Σ_k X[p, k] · W[k, q]        the matrix product
    act A b      entry (p, k) = max(A[p, k] + b[k], 0)        a bias laid along every row, then the rectifier
    addRow A b   entry (p, k) = A[p, k] + b[k]                a bias laid along every row

  A tiled body multiplies one block of rows by a whole weight matrix on the matrix unit, its operands narrowed to half
  precision first (at exact values the narrowing changes nothing) and its accumulator zero; a host program takes the
  whole product by a dot product. Both are read here at one entry as the same sum over the contracted index. The bias
  reaches the tiled body as a one-row matrix broadcast down the rows and the host program as a vector broadcast twice.
-/
import Idealize.ShloMosaic.PureOps.Ideal.Laws
import Idealize.ShloMosaic.Lib.ValueIdx
import Idealize.ShloMosaic.Lib.ValueLayout
import Idealize.ShloMosaic.Lib.Pipeline.Value
import proofs.«182089_j86543591014918_2_alg».proof.Proof.LibPlainContract
import proofs.«182089_j86543591014918_2_alg».proof.Proof.LibLreluRows

noncomputable section

namespace Cert.Dense

open Idealize.ShloMosaic Idealize.ShloMosaic.ValueIdx

variable {N K C : Nat}

/-- An N-by-K array of extended reals. -/
abbrev Mat (N K : Nat) : Type := (⟨2, ![N, K]⟩ : Shape).Idx → EReal
/-- A vector of K extended reals. -/
abbrev Row (K : Nat) : Type := (⟨1, ![K]⟩ : Shape).Idx → EReal

/-- The row and the column of an entry. -/
abbrev rowOf (i : (⟨2, ![N, K]⟩ : Shape).Idx) : Fin N := ⟨(i 0).val, idx2_lt0 i⟩
abbrev colOf (i : (⟨2, ![N, K]⟩ : Shape).Idx) : Fin K := ⟨(i 1).val, idx2_lt1 i⟩

/-- The matrix product. -/
def mm (X : Mat N K) (W : Mat K C) : Mat N C := fun i => ∑ k : Fin K, X (ix2 (rowOf i) k) * W (ix2 k (colOf i))
/-- A bias along every row, then the rectifier. -/
def act (A : Mat N K) (b : Row K) : Mat N K := fun i => max (A i + b (ix1 (colOf i))) 0
/-- A bias along every row. -/
def addRow (A : Mat N K) (b : Row K) : Mat N K := fun i => A i + b (ix1 (colOf i))

/-- A one-row bias along every row, then the rectifier. -/
def actRow (A : Mat N K) (b : Mat 1 K) : Mat N K := fun i => max (A i + b (ix2 (0 : Fin 1) (colOf i))) 0
/-- A one-row bias along every row. -/
def addRowRow (A : Mat N K) (b : Mat 1 K) : Mat N K := fun i => A i + b (ix2 (0 : Fin 1) (colOf i))

/-- The one-row bias that is a vector cast to a one-row matrix acts as the vector. -/
theorem actRow_cast (A : Mat N K) (v : Row K) (h : (⟨1, ![K]⟩ : Shape).ShapeCasts ⟨2, ![1, K]⟩) :
    actRow A (shapeCast ⟨2, ![1, K]⟩ v h) = act A v := by
  funext i
  exact congrArg (fun z => max (A i + z) 0) (Cert.LibLreluRows.rowCast_apply h v (colOf i))
theorem addRowRow_cast (A : Mat N K) (v : Row K) (h : (⟨1, ![K]⟩ : Shape).ShapeCasts ⟨2, ![1, K]⟩) :
    addRowRow A (shapeCast ⟨2, ![1, K]⟩ v h) = addRow A v := by
  funext i
  exact congrArg (fun z => A i + z) (Cert.LibLreluRows.rowCast_apply h v (colOf i))

theorem mm_apply (X : Mat N K) (W : Mat K C) (p : Fin N) (q : Fin C) :
    mm X W (ix2 p q) = ∑ k : Fin K, X (ix2 p k) * W (ix2 k q) := rfl
theorem act_apply (A : Mat N K) (b : Row K) (p : Fin N) (k : Fin K) :
    act A b (ix2 p k) = max (A (ix2 p k) + b (ix1 k)) 0 := rfl
theorem addRow_apply (A : Mat N K) (b : Row K) (p : Fin N) (k : Fin K) :
    addRow A b (ix2 p k) = A (ix2 p k) + b (ix1 k) := rfl
theorem actRow_apply (A : Mat N K) (b : Mat 1 K) (p : Fin N) (k : Fin K) :
    actRow A b (ix2 p k) = max (A (ix2 p k) + b (ix2 (0 : Fin 1) k)) 0 := rfl
theorem addRowRow_apply (A : Mat N K) (b : Mat 1 K) (p : Fin N) (k : Fin K) :
    addRowRow A b (ix2 p k) = A (ix2 p k) + b (ix2 (0 : Fin 1) k) := rfl

/-! ## The tiled body's stages at one entry -/

/-- The matrix unit's product of two narrowed operands into the zero accumulator is the plain sum. -/
theorem tileProduct_apply (M K C : Nat) (prec : Option ContractPrecision)
    (h0 h1 : FTy.bf16.bits < FTy.f32.bits)
    (x : FVec Ideal ⟨2, ![M, K]⟩ .f32) (w : FVec Ideal ⟨2, ![K, C]⟩ .f32) (p : Fin M) (q : Fin C) :
    matmul (DotDims.plain M K C) prec (truncf .bf16 x h0) (truncf .bf16 w h1)
        (constant ⟨2, ![M, C]⟩ .f32 0x00000000#32) (ix2 p q)
      = ∑ k : Fin K, x (ix2 p k) * w (ix2 k q) :=
  Cert.LibPlainContract.matmul_plain_apply M K C prec (truncf .bf16 x h0) (truncf .bf16 w h1) p q

/-- A block of rows plus a one-row bias broadcast down the rows, rectified against a splat zero, at one entry. -/
theorem tileAct_apply (M K : Nat)
    (hs0 : (⟨2, ![M, K]⟩ : Shape).ShapeCasts ⟨2, ![M, K]⟩) (hs1 : (⟨2, ![1, K]⟩ : Shape).ShapeCasts ⟨2, ![1, K]⟩)
    (hb : (⟨2, ![1, K]⟩ : Shape).Broadcasts ⟨2, ![M, K]⟩)
    (x : FVec Ideal ⟨2, ![M, K]⟩ .f32) (b : FVec Ideal ⟨2, ![1, K]⟩ .f32) (p : Fin M) (k : Fin K) :
    maximumf (addf (shapeCast ⟨2, ![M, K]⟩ x hs0) (broadcastTo ⟨2, ![M, K]⟩ (shapeCast ⟨2, ![1, K]⟩ b hs1) hb))
        (broadcast ⟨2, ![M, K]⟩ (Scalar.ofBits (F := Ideal) .f32 0x00000000#32)) (ix2 p k)
      = max (x (ix2 p k) + b (ix2 (0 : Fin 1) k)) 0 := by
  show max (shapeCast ⟨2, ![M, K]⟩ x hs0 (ix2 p k) + broadcastTo ⟨2, ![M, K]⟩ (shapeCast ⟨2, ![1, K]⟩ b hs1) hb (ix2 p k))
      (Ideal.ofBits .f32 0x00000000#32) = _
  rw [shapeCast_self, Cert.LibLreluRows.rowDown_apply, Ideal.ofBits_zero_f32]

/-- A block of rows plus a one-row bias broadcast down the rows (no rectifier), at one entry. -/
theorem tileAddRow_apply (M K : Nat)
    (hs1 : (⟨2, ![1, K]⟩ : Shape).ShapeCasts ⟨2, ![1, K]⟩) (hb : (⟨2, ![1, K]⟩ : Shape).Broadcasts ⟨2, ![M, K]⟩)
    (x : FVec Ideal ⟨2, ![M, K]⟩ .f32) (b : FVec Ideal ⟨2, ![1, K]⟩ .f32) (p : Fin M) (k : Fin K) :
    addf x (broadcastTo ⟨2, ![M, K]⟩ (shapeCast ⟨2, ![1, K]⟩ b hs1) hb) (ix2 p k)
      = x (ix2 p k) + b (ix2 (0 : Fin 1) k) := by
  show x (ix2 p k) + broadcastTo ⟨2, ![M, K]⟩ (shapeCast ⟨2, ![1, K]⟩ b hs1) hb (ix2 p k) = _
  rw [Cert.LibLreluRows.rowDown_apply]

/-- The rectifier against a splat zero, at one entry. -/
theorem tileRelu_apply (M K : Nat) (x : FVec Ideal ⟨2, ![M, K]⟩ .f32) (i : (⟨2, ![M, K]⟩ : Shape).Idx) :
    maximumf x (broadcast ⟨2, ![M, K]⟩ (Scalar.ofBits (F := Ideal) .f32 0x00000000#32)) i = max (x i) 0 := by
  show max (x i) (Ideal.ofBits .f32 0x00000000#32) = _
  rw [Ideal.ofBits_zero_f32]

/-! ## The host program's stages at one entry -/

/-- The host's dot product of two matrices is the plain sum. -/
theorem hostProduct_apply (M K C : Nat) (prec : Option ContractPrecision)
    (x : FVec Ideal ⟨2, ![M, K]⟩ .f32) (w : FVec Ideal ⟨2, ![K, C]⟩ .f32) (p : Fin M) (q : Fin C) :
    Host.dotGeneral (DotDims.plain M K C) prec x w (ix2 p q) = ∑ k : Fin K, x (ix2 p k) * w (ix2 k q) := by
  simp only [Host.dotGeneral]
  exact Cert.LibPlainContract.dotGeneral_plain_apply M K C prec _ x w p q

/-- A bias vector broadcast to a one-row matrix and down the rows, added, at one entry. -/
theorem hostAddRow_apply (M K : Nat) (h1 : (⟨1, ![K]⟩ : Shape).BroadcastsInDim ⟨2, ![1, K]⟩ ![1])
    (h2 : (⟨2, ![1, K]⟩ : Shape).BroadcastsInDim ⟨2, ![M, K]⟩ ![0, 1])
    (x : FVec Ideal ⟨2, ![M, K]⟩ .f32) (b : FVec Ideal ⟨1, ![K]⟩ .f32) (p : Fin M) (k : Fin K) :
    addf x (broadcastInDim ⟨2, ![M, K]⟩ ![0, 1] h2 (broadcastInDim ⟨2, ![1, K]⟩ ![1] h1 b)) (ix2 p k)
      = x (ix2 p k) + b (ix1 k) := by
  show x (ix2 p k) + broadcastInDim ⟨2, ![M, K]⟩ ![0, 1] h2 (broadcastInDim ⟨2, ![1, K]⟩ ![1] h1 b) (ix2 p k) = _
  rw [Cert.LibLreluRows.biasRows_apply]

/-- The rectifier against a rank-0 zero broadcast over the array, at one entry. -/
theorem hostRelu_apply (M K : Nat) (h : (⟨0, ![]⟩ : Shape).BroadcastsInDim ⟨2, ![M, K]⟩ ![])
    (x : FVec Ideal ⟨2, ![M, K]⟩ .f32) (i : (⟨2, ![M, K]⟩ : Shape).Idx) :
    maximumf x (broadcastInDim ⟨2, ![M, K]⟩ ![] h (constant (F := Ideal) ⟨0, ![]⟩ .f32 0x00000000#32)) i = max (x i) 0 := by
  show max (x i) (Ideal.ofBits .f32 0x00000000#32) = _
  rw [Ideal.ofBits_zero_f32]

end Cert.Dense

end
-- ==== Proof.LibKeepdims.lean ====
/-
  Layout operations of a row reduction kept as a column, read at an index given by coordinates.

  A reduction over the columns of an [a, b] array gives an [a] vector. Keeping the reduced axis makes it an [a, 1]
  column (a shape cast on the kernel's side, a broadcast along the axes [0] on the host's), and the column is then
  spread over the b columns (a broadcast [a, 1] → [a, b]). Read at (p, c) the spread column is the vector at p.
-/
import Idealize.ShloMosaic.Lib.ValueLayout

namespace Cert.Lib.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's form of the first: an `[a]` array broadcast along the axes `[0]` to `[a, 1]`. -/
theorem broadcastInDim_a_a1_apply {a : ℕ} (v : (⟨1, ![a]⟩ : Shape).Idx → α)
    (h : (⟨1, ![a]⟩ : Shape).BroadcastsInDim ⟨2, ![a, 1]⟩ (![0] : Fin 1 → Fin (⟨2, ![a, 1]⟩ : Shape).rank))
    (p : Fin a) (u : Fin 1) : broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- The host's form of the second: an `[a, 1]` column broadcast along the axes `[0, 1]` to `[a, b]`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.LibRowFold.lean ====
import Idealize.ShloMosaic.PureOps.Ideal.Laws
import Idealize.ShloMosaic.Lib.ValueIdx
import Idealize.ShloMosaic.PureOps.Reduce

open scoped BigOperators

namespace Cert.Lib.RowFold
open Idealize.ShloMosaic Idealize.ShloMosaic.ValueIdx

/-- Over a rank-2 array reduced along its columns, the source index over row `p` with column coordinate
    `k` inserted is the index `(p, k)`. -/
theorem lift_ix1 {R C : Nat} (h : (⟨2, ![R, C]⟩ : Shape).Reduces [1] ⟨1, ![R]⟩) (p : Fin R) (k : Fin C) :
    h.lift (ix1 p) k = ix2 p k := by
  funext a
  match a with
  | ⟨0, _⟩ => rfl
  | ⟨1, _⟩ => rfl

/-- At the extended reals, a minimum-reduction over the columns of a rank-2 array, read at row `p`, is the
    fold of `min` from the accumulator's value over the column coordinates `k` of the entries `(p, k)`. -/
theorem multiReduction_minimumf_row {R C : Nat} (x : FVec Ideal ⟨2, ![R, C]⟩ .f32) (acc : BitVec 32)
    (h : (⟨2, ![R, C]⟩ : Shape).Reduces [1] ⟨1, ![R]⟩) (hφ : FKind.Formats .f32)
    (hacc : acc = FKind.minimumf.neutral .f32 hφ) (p : Fin R) :
    multiReduction .minimumf [1] ⟨1, ![R]⟩ x acc h hφ hacc (ix1 p)
      = (Finset.univ : Finset (Fin C)).fold min (Ideal.ofBits .f32 acc) (fun k => x (ix2 p k)) := by
  rw [multiReduction_minimumf_eq_fold]
  refine (h.fold_filter_drop_single _ _ x (ix1 p)).trans ?_
  have e : (x ∘ h.lift (ix1 p)) = fun k : Fin C => x (ix2 p k) :=
    funext fun k => congrArg x (lift_ix1 h p k)
  rw [e]
  rfl

/-- At the extended reals, a maximum-reduction over the columns of a rank-2 array, read at row `p`, is the
    fold of `max` from the accumulator's value over the column coordinates `k` of the entries `(p, k)`. -/
theorem multiReduction_maximumf_row {R C : Nat} (x : FVec Ideal ⟨2, ![R, C]⟩ .f32) (acc : BitVec 32)
    (h : (⟨2, ![R, C]⟩ : Shape).Reduces [1] ⟨1, ![R]⟩) (hφ : FKind.Formats .f32)
    (hacc : acc = FKind.maximumf.neutral .f32 hφ) (p : Fin R) :
    multiReduction .maximumf [1] ⟨1, ![R]⟩ x acc h hφ hacc (ix1 p)
      = (Finset.univ : Finset (Fin C)).fold max (Ideal.ofBits .f32 acc) (fun k => x (ix2 p k)) := by
  rw [multiReduction_maximumf_eq_fold]
  refine (h.fold_filter_drop_single _ _ x (ix1 p)).trans ?_
  have e : (x ∘ h.lift (ix1 p)) = fun k : Fin C => x (ix2 p k) :=
    funext fun k => congrArg x (lift_ix1 h p k)
  rw [e]
  rfl

/-- At the extended reals, a sum-reduction over the columns of a rank-2 array, read at row `p`, is the sum
    over the column coordinates `k` of the entries `(p, k)`. -/
theorem multiReduction_add_row {R C : Nat} (x : FVec Ideal ⟨2, ![R, C]⟩ .f32) (acc : BitVec 32)
    (h : (⟨2, ![R, C]⟩ : Shape).Reduces [1] ⟨1, ![R]⟩) (hφ : FKind.Formats .f32)
    (hacc : acc = FKind.add.neutral .f32 hφ) (p : Fin R) :
    multiReduction .add [1] ⟨1, ![R]⟩ x acc h hφ hacc (ix1 p) = ∑ k : Fin C, x (ix2 p k) := by
  refine (Ideal.multiReduction_add_single x acc h hφ hacc (ix1 p)).trans ?_
  exact Finset.sum_congr rfl fun k _ => congrArg x (lift_ix1 h p k)

/-- The host's reduction with the minimum as its body over the columns of a rank-2 array of extended reals,
    read at row `p`: the fold of `min` from the initial value over the column coordinates `k` of the entries
    `(p, k)`. -/
theorem hostReduce_minimumf_row {R C : Nat} {u : Shape} (x : (⟨2, ![R, C]⟩ : Shape).Idx → EReal)
    (init : u.Idx → EReal) (h' : (⟨2, ![R, C]⟩ : Shape).ReducesTo [1] ⟨1, ![R]⟩)
    (h : (⟨2, ![R, C]⟩ : Shape).Reduces [1] ⟨1, ![R]⟩) (hu : 0 < u.numel) (p : Fin R) :
    Host.reduce (FloatOps.minimumf (F := Ideal) (φ := .f32)) x init h' hu (ix1 p)
      = (Finset.univ : Finset (Fin C)).fold min (init (Shape.Idx.first hu)) (fun k => x (ix2 p k)) := by
  refine (Host.reduce_eq_fold_single _ x init h' h hu (ix1 p)).trans ?_
  have e : (x ∘ h.lift (ix1 p)) = fun k : Fin C => x (ix2 p k) :=
    funext fun k => congrArg x (lift_ix1 h p k)
  rw [e]
  rfl

/-- The host's reduction with the maximum as its body over the columns of a rank-2 array of extended reals,
    read at row `p`: the fold of `max` from the initial value over the column coordinates `k` of the entries
    `(p, k)`. -/
theorem hostReduce_maximumf_row {R C : Nat} {u : Shape} (x : (⟨2, ![R, C]⟩ : Shape).Idx → EReal)
    (init : u.Idx → EReal) (h' : (⟨2, ![R, C]⟩ : Shape).ReducesTo [1] ⟨1, ![R]⟩)
    (h : (⟨2, ![R, C]⟩ : Shape).Reduces [1] ⟨1, ![R]⟩) (hu : 0 < u.numel) (p : Fin R) :
    Host.reduce (FloatOps.maximumf (F := Ideal) (φ := .f32)) x init h' hu (ix1 p)
      = (Finset.univ : Finset (Fin C)).fold max (init (Shape.Idx.first hu)) (fun k => x (ix2 p k)) := by
  refine (Host.reduce_eq_fold_single _ x init h' h hu (ix1 p)).trans ?_
  have e : (x ∘ h.lift (ix1 p)) = fun k : Fin C => x (ix2 p k) :=
    funext fun k => congrArg x (lift_ix1 h p k)
  rw [e]
  rfl

/-- The host's float sum over the columns of a rank-2 array, at the extended reals and read at row `p`: the
    initial value plus the sum over the column coordinates `k` of the entries `(p, k)`. -/
theorem hostReduceAdd_row {R C : Nat} {u : Shape} (x : FVec Ideal ⟨2, ![R, C]⟩ .f32)
    (init : FVec Ideal u .f32) (h' : (⟨2, ![R, C]⟩ : Shape).ReducesTo [1] ⟨1, ![R]⟩)
    (h : (⟨2, ![R, C]⟩ : Shape).Reduces [1] ⟨1, ![R]⟩) (hu : 0 < u.numel) (p : Fin R) :
    Host.reduceAdd x init h' hu (ix1 p) = init (Shape.Idx.first hu) + ∑ k : Fin C, x (ix2 p k) := by
  show Ideal.hostReduceAdd h' x (init (Shape.Idx.first hu)) (ix1 p) = _
  rw [Ideal.hostReduceAdd_single h' h]
  exact congrArg (init (Shape.Idx.first hu) + ·)
    (Finset.sum_congr rfl fun k _ => congrArg x (lift_ix1 h p k))

end Cert.Lib.RowFold
-- ==== Proof.LibColumn.lean ====
/-
  Column-shaped arrays read at one entry.

  A vector of length a and the a-by-1 column and the 1-by-a row with the same entries are one list of numbers in
  row-major order, so a reshape between any two of them reads the same entry: the column's entry (p, 0) is the
  vector's entry p, and the row's entry (0, j) is the column's entry (j, 0). The last lemma reads a sum along the
  second axis of an n-by-b array, taken from the zero accumulator, at row p: it is the sum over j < b of the entries
  (p, j), at the exact (extended real) reading of floats.
-/
import Idealize.ShloMosaic.Lib.ValueLayout
import Idealize.ShloMosaic.PureOps.Ideal.Laws

noncomputable section

namespace Cert.LibColumn

open Idealize.ShloMosaic Idealize.ShloMosaic.ValueIdx

variable {α : Type}

/-- A vector of length a reshaped to an a-by-1 column reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An a-by-1 column reshaped to a vector of length a reads, at p, the column at (p, 0). -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- An a-by-1 column reshaped to a 1-by-a row reads, at (u, j), the column at (j, 0). -/
theorem shapeCast_a1_1a_apply {a : ℕ} (x : (⟨2, ![a, 1]⟩ : Shape).Idx → α) (h : (⟨2, ![a, 1]⟩ : Shape).ShapeCasts ⟨2, ![1, a]⟩)
    (u : Fin 1) (j : Fin a) : shapeCast ⟨2, ![1, a]⟩ x h (ix2 u j) = x (ix2 j (0 : Fin 1)) :=
  shapeCast_apply x h _ _ (by
    have hu : u.val = 0 := by omega
    rw [Shape.rowMajor_val_two, Shape.rowMajor_val_two]
    show j.val * 1 + 0 = u.val * a + j.val
    rw [hu, Nat.mul_one, Nat.add_zero, Nat.zero_mul, Nat.zero_add])

/-- The sum along the second axis of an n-by-b array, from the zero accumulator, at row p: the sum of that row. -/
theorem laneSum_apply {n b : ℕ} (src : FVec Ideal ⟨2, ![n, b]⟩ .f32) (h : Shape.Reduces ⟨2, ![n, b]⟩ [1] ⟨1, ![n]⟩)
    (hφ : FKind.Formats .f32) (hacc : (0x00000000#32 : BitVec 32) = 0x00000000#32) (p : Fin n) :
    multiReduction .add [1] ⟨1, ![n]⟩ src 0x00000000#32 h hφ hacc (ix1 p) = ∑ j : Fin b, src (ix2 p j) := by
  refine (Ideal.multiReduction_add_single src 0x00000000#32 h hφ hacc (ix1 p)).trans ?_
  refine Finset.sum_congr rfl fun j _ => congrArg src ?_
  funext a
  exact Fin.ext (by match a with | ⟨0, _⟩ => rfl | ⟨1, _⟩ => rfl)

end Cert.LibColumn

end
-- ==== Proof.LibSageRows.lean ====
/-
  One layer of a mean-aggregating graph network, row by row, at exact (extended real) values.

  For a row `a` of aggregated neighbour features and the node's own row `h` (C entries each):

    linRow   o_q = ((Σ_k a_k · wl[k,q]) + bl_q) + Σ_k h_k · wr[k,q]
    unitRow  u_q = max (o_q · rsqrt (max (Σ_k o_k², 1e-24)), 0)          the row scaled to unit length, rectified
    lnRow    z_q = ((y_q − μ) · rsqrt (σ² + 1e-5)) · g_q + b_q           with μ = (Σ_k y_k) / n, σ² = (Σ_k (y_k − μ)²) / n
    layerRow     = lnRow of (unitRow o + h)
    projRow  max ((Σ_k x_k · W[k,q]) + b_q, 0)

  (`n` is the literal the programs divide by; the three literals are kept as their single-precision patterns.)
  Every output entry depends on one row of each matrix operand only, so a tile of rows computes the same entries
  as the whole array. The lemmas read the stages at one entry in the two spellings programs give them: a tiled
  body's (lane sums kept as columns by a shape cast and spread by a broadcast, splat scalars) and a host
  program's (reductions, rank-0 constants and columns placed by broadcast_in_dim).
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import proofs.«182089_j86543591014918_2_alg».proof.Proof.LibPlainContract
import proofs.«182089_j86543591014918_2_alg».proof.Proof.LibLreluRows
import proofs.«182089_j86543591014918_2_alg».proof.Proof.LibDenseRows
import proofs.«182089_j86543591014918_2_alg».proof.Proof.LibKeepdims
import proofs.«182089_j86543591014918_2_alg».proof.Proof.LibRowFold
import proofs.«182089_j86543591014918_2_alg».proof.Proof.LibColumn

noncomputable section

namespace Cert.SageRows

open Idealize.ShloMosaic Idealize.ShloMosaic.ValueIdx

variable {M C K : Nat}

/-- An M-by-C array and a vector of C extended reals. -/
abbrev Mat (M C : Nat) : Type := (⟨2, ![M, C]⟩ : Shape).Idx → EReal
abbrev Vec1 (C : Nat) : Type := (⟨1, ![C]⟩ : Shape).Idx → EReal

/-- Row `p` of a matrix. -/
abbrev row (A : Mat M C) (p : Fin M) : Fin C → EReal := fun k => A (ix2 p k)
/-- The row and the column of an entry. -/
abbrev rowOf (i : (⟨2, ![M, C]⟩ : Shape).Idx) : Fin M := ⟨(i 0).val, idx2_lt0 i⟩
abbrev colOf (i : (⟨2, ![M, C]⟩ : Shape).Idx) : Fin C := ⟨(i 1).val, idx2_lt1 i⟩

/-- The three literals, as the extended reals their patterns denote: 1e-24, 1e-5 and the row length 64. -/
def e24 : EReal := Ideal.ofBits .f32 0x179ABE15#32
def e5 : EReal := Ideal.ofBits .f32 0x3727C5AC#32
def cnt : EReal := Ideal.ofBits .f32 0x42800000#32

def linRow (a h : Fin C → EReal) (wl : Mat C C) (bl : Vec1 C) (wr : Mat C C) (q : Fin C) : EReal :=
  ((∑ k : Fin C, a k * wl (ix2 k q)) + bl (ix1 q)) + ∑ k : Fin C, h k * wr (ix2 k q)
def unitRow (o : Fin C → EReal) (q : Fin C) : EReal := max (o q * Ideal.rsqrt (max (∑ k : Fin C, o k * o k) e24)) 0
def meanRow (y : Fin C → EReal) : EReal := Ideal.div (∑ k : Fin C, y k) cnt
def varRow (y : Fin C → EReal) : EReal := Ideal.div (∑ k : Fin C, (y k - meanRow y) * (y k - meanRow y)) cnt
def lnRow (y : Fin C → EReal) (g b : Vec1 C) (q : Fin C) : EReal :=
  ((y q - meanRow y) * Ideal.rsqrt (varRow y + e5)) * g (ix1 q) + b (ix1 q)
def layerRow (a h : Fin C → EReal) (wl : Mat C C) (bl : Vec1 C) (wr : Mat C C) (g b : Vec1 C) (q : Fin C) : EReal :=
  lnRow (fun k => unitRow (linRow a h wl bl wr) k + h k) g b q
def projRow (x : Fin K → EReal) (W : Mat K C) (b : Vec1 C) (q : Fin C) : EReal :=
  max ((∑ k : Fin K, x k * W (ix2 k q)) + b (ix1 q)) 0

/-- The same, every row of an array at once. -/
def layerT (A H : Mat M C) (wl : Mat C C) (bl : Vec1 C) (wr : Mat C C) (g b : Vec1 C) : Mat M C :=
  fun i => layerRow (row A (rowOf i)) (row H (rowOf i)) wl bl wr g b (colOf i)
def lnT (Y : Mat M C) (g b : Vec1 C) : Mat M C := fun i => lnRow (row Y (rowOf i)) g b (colOf i)
def projT (X : Mat M K) (W : Mat K C) (b : Vec1 C) : Mat M C := fun i => projRow (row X (rowOf i)) W b (colOf i)

theorem layerT_apply (A H : Mat M C) (wl : Mat C C) (bl : Vec1 C) (wr : Mat C C) (g b : Vec1 C) (p : Fin M) (q : Fin C) :
    layerT A H wl bl wr g b (ix2 p q) = layerRow (row A p) (row H p) wl bl wr g b q := rfl
theorem lnT_apply (Y : Mat M C) (g b : Vec1 C) (p : Fin M) (q : Fin C) : lnT Y g b (ix2 p q) = lnRow (row Y p) g b q := rfl
theorem projT_apply (X : Mat M K) (W : Mat K C) (b : Vec1 C) (p : Fin M) (q : Fin C) :
    projT X W b (ix2 p q) = projRow (row X p) W b q := rfl

/-! ## A tiled body's spellings -/

/-- A lane sum from the zero accumulator kept as a column: entry (p, u) is the sum of row p. -/
theorem laneCol_apply (x : FVec Ideal ⟨2, ![M, C]⟩ .f32) (hr : Shape.Reduces ⟨2, ![M, C]⟩ [1] ⟨1, ![M]⟩)
    (hφ : FKind.Formats .f32) (hacc : (0x00000000#32 : BitVec 32) = 0x00000000#32)
    (hc : (⟨1, ![M]⟩ : Shape).ShapeCasts ⟨2, ![M, 1]⟩) (p : Fin M) (u : Fin 1) :
    shapeCast ⟨2, ![M, 1]⟩ (multiReduction .add [1] ⟨1, ![M]⟩ x 0x00000000#32 hr hφ hacc) hc (ix2 p u)
      = ∑ k : Fin C, x (ix2 p k) :=
  (Cert.Lib.Keepdims.shapeCast_a_a1_apply _ hc p u).trans (Cert.LibColumn.laneSum_apply x hr hφ hacc p)

/-- A vector cast to a one-row matrix and broadcast down the rows: entry (p, q) is entry q. -/
theorem rowSpread_apply (v : FVec Ideal ⟨1, ![C]⟩ .f32) (hs : (⟨1, ![C]⟩ : Shape).ShapeCasts ⟨2, ![1, C]⟩)
    (hb : (⟨2, ![1, C]⟩ : Shape).Broadcasts ⟨2, ![M, C]⟩) (p : Fin M) (q : Fin C) :
    broadcastTo ⟨2, ![M, C]⟩ (shapeCast ⟨2, ![1, C]⟩ v hs) hb (ix2 p q) = v (ix1 q) := by
  rw [broadcastTo_1b_ab_apply, Cert.LibLreluRows.rowCast_apply]

/-- The linear combination of a tile: two matrix-unit products of narrowed operands into zero accumulators, the
    bias row between them. -/
theorem tileLin_apply (prec : Option ContractPrecision) (h0 h1 h2 h3 : FTy.bf16.bits < FTy.f32.bits)
    (x0 x1 : FVec Ideal ⟨2, ![M, C]⟩ .f32) (wl wr : FVec Ideal ⟨2, ![C, C]⟩ .f32) (bl : FVec Ideal ⟨1, ![C]⟩ .f32)
    (hs : (⟨1, ![C]⟩ : Shape).ShapeCasts ⟨2, ![1, C]⟩) (hb : (⟨2, ![1, C]⟩ : Shape).Broadcasts ⟨2, ![M, C]⟩)
    (p : Fin M) (q : Fin C) :
    addf (addf (matmul (DotDims.plain M C C) prec (truncf .bf16 x0 h0) (truncf .bf16 wl h1)
          (constant ⟨2, ![M, C]⟩ .f32 0x00000000#32))
        (broadcastTo ⟨2, ![M, C]⟩ (shapeCast ⟨2, ![1, C]⟩ bl hs) hb))
      (matmul (DotDims.plain M C C) prec (truncf .bf16 x1 h2) (truncf .bf16 wr h3)
        (constant ⟨2, ![M, C]⟩ .f32 0x00000000#32)) (ix2 p q)
      = linRow (row x0 p) (row x1 p) wl bl wr q := by
  show (matmul (DotDims.plain M C C) prec (truncf .bf16 x0 h0) (truncf .bf16 wl h1)
          (constant ⟨2, ![M, C]⟩ .f32 0x00000000#32) (ix2 p q)
        + broadcastTo ⟨2, ![M, C]⟩ (shapeCast ⟨2, ![1, C]⟩ bl hs) hb (ix2 p q))
      + matmul (DotDims.plain M C C) prec (truncf .bf16 x1 h2) (truncf .bf16 wr h3)
        (constant ⟨2, ![M, C]⟩ .f32 0x00000000#32) (ix2 p q) = _
  rw [Cert.Dense.tileProduct_apply, Cert.Dense.tileProduct_apply, rowSpread_apply]
  rfl

/-- The input projection of a tile: one product, the bias row, the rectifier. -/
theorem tileProj_apply (prec : Option ContractPrecision) (h0 h1 : FTy.bf16.bits < FTy.f32.bits)
    (x : FVec Ideal ⟨2, ![M, K]⟩ .f32) (W : FVec Ideal ⟨2, ![K, C]⟩ .f32) (b : FVec Ideal ⟨1, ![C]⟩ .f32)
    (hs : (⟨1, ![C]⟩ : Shape).ShapeCasts ⟨2, ![1, C]⟩) (hb : (⟨2, ![1, C]⟩ : Shape).Broadcasts ⟨2, ![M, C]⟩)
    (p : Fin M) (q : Fin C) :
    maximumf (addf (matmul (DotDims.plain M K C) prec (truncf .bf16 x h0) (truncf .bf16 W h1)
          (constant ⟨2, ![M, C]⟩ .f32 0x00000000#32))
        (broadcastTo ⟨2, ![M, C]⟩ (shapeCast ⟨2, ![1, C]⟩ b hs) hb))
      (broadcast ⟨2, ![M, C]⟩ (Scalar.ofBits (F := Ideal) .f32 0x00000000#32)) (ix2 p q)
      = projRow (row x p) W b q := by
  show max (matmul (DotDims.plain M K C) prec (truncf .bf16 x h0) (truncf .bf16 W h1)
          (constant ⟨2, ![M, C]⟩ .f32 0x00000000#32) (ix2 p q)
        + broadcastTo ⟨2, ![M, C]⟩ (shapeCast ⟨2, ![1, C]⟩ b hs) hb (ix2 p q)) (Ideal.ofBits .f32 0x00000000#32) = _
  rw [Cert.Dense.tileProduct_apply, rowSpread_apply, Ideal.ofBits_zero_f32]
  rfl

/-- A tile's rows scaled to unit length and rectified, plus the residual. -/
theorem tileUnit_apply (o h : FVec Ideal ⟨2, ![M, C]⟩ .f32) (hr : Shape.Reduces ⟨2, ![M, C]⟩ [1] ⟨1, ![M]⟩)
    (hφ : FKind.Formats .f32) (hacc : (0x00000000#32 : BitVec 32) = 0x00000000#32)
    (hc : (⟨1, ![M]⟩ : Shape).ShapeCasts ⟨2, ![M, 1]⟩) (hb : (⟨2, ![M, 1]⟩ : Shape).Broadcasts ⟨2, ![M, C]⟩)
    (p : Fin M) (q : Fin C) :
    addf (maximumf (mulf o (broadcastTo ⟨2, ![M, C]⟩ (rsqrt (maximumf
            (shapeCast ⟨2, ![M, 1]⟩ (multiReduction .add [1] ⟨1, ![M]⟩ (mulf o o) 0x00000000#32 hr hφ hacc) hc)
            (broadcast ⟨2, ![M, 1]⟩ (Scalar.ofBits (F := Ideal) .f32 0x179ABE15#32)))) hb))
        (broadcast ⟨2, ![M, C]⟩ (Scalar.ofBits (F := Ideal) .f32 0x00000000#32))) h (ix2 p q)
      = unitRow (row o p) q + h (ix2 p q) := by
  show max (o (ix2 p q) * broadcastTo ⟨2, ![M, C]⟩ (rsqrt (maximumf
            (shapeCast ⟨2, ![M, 1]⟩ (multiReduction .add [1] ⟨1, ![M]⟩ (mulf o o) 0x00000000#32 hr hφ hacc) hc)
            (broadcast ⟨2, ![M, 1]⟩ (Scalar.ofBits (F := Ideal) .f32 0x179ABE15#32)))) hb (ix2 p q))
        (Ideal.ofBits .f32 0x00000000#32) + h (ix2 p q) = _
  rw [Cert.Lib.Keepdims.broadcastTo_a1_ab_apply, Ideal.ofBits_zero_f32]
  show max (o (ix2 p q) * Ideal.rsqrt (max
      (shapeCast ⟨2, ![M, 1]⟩ (multiReduction .add [1] ⟨1, ![M]⟩ (mulf o o) 0x00000000#32 hr hφ hacc) hc (ix2 p (0 : Fin 1)))
      (Ideal.ofBits .f32 0x179ABE15#32))) 0 + h (ix2 p q) = _
  rw [laneCol_apply]
  rfl

/-- A tile's rows minus their means. -/
theorem tileCentre_apply (y : FVec Ideal ⟨2, ![M, C]⟩ .f32) (hr : Shape.Reduces ⟨2, ![M, C]⟩ [1] ⟨1, ![M]⟩)
    (hφ : FKind.Formats .f32) (hacc : (0x00000000#32 : BitVec 32) = 0x00000000#32)
    (hc : (⟨1, ![M]⟩ : Shape).ShapeCasts ⟨2, ![M, 1]⟩) (hb : (⟨2, ![M, 1]⟩ : Shape).Broadcasts ⟨2, ![M, C]⟩)
    (p : Fin M) (q : Fin C) :
    subf y (broadcastTo ⟨2, ![M, C]⟩ (divf
        (shapeCast ⟨2, ![M, 1]⟩ (multiReduction .add [1] ⟨1, ![M]⟩ y 0x00000000#32 hr hφ hacc) hc)
        (broadcast ⟨2, ![M, 1]⟩ (Scalar.ofBits (F := Ideal) .f32 0x42800000#32))) hb) (ix2 p q)
      = y (ix2 p q) - meanRow (row y p) := by
  show y (ix2 p q) - broadcastTo ⟨2, ![M, C]⟩ (divf
        (shapeCast ⟨2, ![M, 1]⟩ (multiReduction .add [1] ⟨1, ![M]⟩ y 0x00000000#32 hr hφ hacc) hc)
        (broadcast ⟨2, ![M, 1]⟩ (Scalar.ofBits (F := Ideal) .f32 0x42800000#32))) hb (ix2 p q) = _
  rw [Cert.Lib.Keepdims.broadcastTo_a1_ab_apply]
  show y (ix2 p q) - Ideal.div
      (shapeCast ⟨2, ![M, 1]⟩ (multiReduction .add [1] ⟨1, ![M]⟩ y 0x00000000#32 hr hφ hacc) hc (ix2 p (0 : Fin 1)))
      (Ideal.ofBits .f32 0x42800000#32) = _
  rw [laneCol_apply]
  rfl

/-- The scale and shift that close the normalisation of a tile, from its centred rows `d`, the column `ss` of their
    squares' sums and the column `n` of the row length. -/
theorem tileScaleShift_apply (d : FVec Ideal ⟨2, ![M, C]⟩ .f32) (ss n : FVec Ideal ⟨2, ![M, 1]⟩ .f32)
    (g b : FVec Ideal ⟨1, ![C]⟩ .f32) (hb : (⟨2, ![M, 1]⟩ : Shape).Broadcasts ⟨2, ![M, C]⟩)
    (hs hs' : (⟨1, ![C]⟩ : Shape).ShapeCasts ⟨2, ![1, C]⟩) (hb1 hb1' : (⟨2, ![1, C]⟩ : Shape).Broadcasts ⟨2, ![M, C]⟩)
    (p : Fin M) (q : Fin C) :
    addf (mulf (mulf d (broadcastTo ⟨2, ![M, C]⟩ (rsqrt (addf (divf ss n)
            (broadcast ⟨2, ![M, 1]⟩ (Scalar.ofBits (F := Ideal) .f32 0x3727C5AC#32)))) hb))
          (broadcastTo ⟨2, ![M, C]⟩ (shapeCast ⟨2, ![1, C]⟩ g hs) hb1))
        (broadcastTo ⟨2, ![M, C]⟩ (shapeCast ⟨2, ![1, C]⟩ b hs') hb1') (ix2 p q)
      = (d (ix2 p q) * Ideal.rsqrt (Ideal.div (ss (ix2 p (0 : Fin 1))) (n (ix2 p (0 : Fin 1))) + e5)) * g (ix1 q)
        + b (ix1 q) := by
  show (d (ix2 p q) * broadcastTo ⟨2, ![M, C]⟩ (rsqrt (addf (divf ss n)
            (broadcast ⟨2, ![M, 1]⟩ (Scalar.ofBits (F := Ideal) .f32 0x3727C5AC#32)))) hb (ix2 p q))
          * broadcastTo ⟨2, ![M, C]⟩ (shapeCast ⟨2, ![1, C]⟩ g hs) hb1 (ix2 p q)
        + broadcastTo ⟨2, ![M, C]⟩ (shapeCast ⟨2, ![1, C]⟩ b hs') hb1' (ix2 p q) = _
  rw [Cert.Lib.Keepdims.broadcastTo_a1_ab_apply, rowSpread_apply, rowSpread_apply]
  rfl

/-! ## A host program's spellings -/

/-- A float sum over the columns from a rank-0 zero, kept as a column by a broadcast: entry (p, u) is the sum of row p. -/
theorem hostColSum_apply (x : FVec Ideal ⟨2, ![M, C]⟩ .f32) (h' : (⟨2, ![M, C]⟩ : Shape).ReducesTo [1] ⟨1, ![M]⟩)
    (hr : (⟨2, ![M, C]⟩ : Shape).Reduces [1] ⟨1, ![M]⟩) (hu : 0 < (⟨0, ![]⟩ : Shape).numel)
    (hbc : (⟨1, ![M]⟩ : Shape).BroadcastsInDim ⟨2, ![M, 1]⟩ (![0] : Fin 1 → Fin (⟨2, ![M, 1]⟩ : Shape).rank))
    (p : Fin M) (u : Fin 1) :
    broadcastInDim ⟨2, ![M, 1]⟩ ![0] hbc
        (Host.reduceAdd x (constant (F := Ideal) ⟨0, ![]⟩ .f32 0x00000000#32) h' hu) (ix2 p u)
      = ∑ k : Fin C, x (ix2 p k) := by
  rw [Cert.Lib.Keepdims.broadcastInDim_a_a1_apply, Cert.Lib.RowFold.hostReduceAdd_row x _ h' hr hu p]
  show Ideal.ofBits .f32 0x00000000#32 + _ = _
  rw [Ideal.ofBits_zero_f32, zero_add]

/-- A rank-0 array placed as a column: every entry is the scalar. -/
theorem hostColOf_apply {α : Type} (s : (⟨0, ![]⟩ : Shape).Idx → α)
    (h : (⟨0, ![]⟩ : Shape).BroadcastsInDim ⟨2, ![M, 1]⟩ (![] : Fin 0 → Fin (⟨2, ![M, 1]⟩ : Shape).rank))
    (i : (⟨2, ![M, 1]⟩ : Shape).Idx) : broadcastInDim ⟨2, ![M, 1]⟩ ![] h s i = s ix0 :=
  broadcastInDim_apply ![] h s i ix0 fun a => a.elim0

end Cert.SageRows

end
-- ==== Proof.ChainBase.lean ====
/-
  The idealized kernel's boundary contents, named. `A0 … A10` are the eleven arguments as launched; `H0 … H3` the node
  rows after the input projection and after each layer, as the reference's functions of the arguments. `Base W`
  collects what every later stage reads of a boundary's contents `W` besides the node rows: the two rows of the
  edge list and the layers' parameters, none of which any host stretch or region writes.
-/
import proofs.«182089_j86543591014918_2_alg».proof.Proof.Gen.KernelIdeal.Frame
import proofs.«182089_j86543591014918_2_alg».proof.Proof.RefSpec
import proofs.«182089_j86543591014918_2_alg».proof.Proof.LibSageRows
import Idealize.ShloMosaic.Lib.StableHlo.Run

noncomputable section

namespace Cert.Sage.Chain

open Idealize.ShloMosaic Idealize.ShloMosaic.TcCoe Idealize.SL.Sem Idealize.ShloMosaic.StableHlo
open Cert.KernelIdeal Cert.KernelIdeal.Gen Cert.SageRows

variable (m : (ℓ : Loc nD τ sig) → Buf (Elt Ideal) ℓ) (ρ : Dev nD → PrngReg) (c : Dev nD)

/-- The arguments' launch contents. -/
abbrev A0 : FVec Ideal Cert.ReferenceIdeal.S100000x384 .f32 := m ((c : Thread nD τ).loc main_arg0)
abbrev A1 : IVec Cert.ReferenceIdeal.S2x1600000 32 := m ((c : Thread nD τ).loc main_arg1)
abbrev A2 : FVec Ideal Cert.ReferenceIdeal.S384x64 .f32 := m ((c : Thread nD τ).loc main_arg2)
abbrev A3 : FVec Ideal Cert.ReferenceIdeal.S64 .f32 := m ((c : Thread nD τ).loc main_arg3)
abbrev A4 : FVec Ideal Cert.ReferenceIdeal.S3x64x64 .f32 := m ((c : Thread nD τ).loc main_arg4)
abbrev A5 : FVec Ideal Cert.ReferenceIdeal.S3x64 .f32 := m ((c : Thread nD τ).loc main_arg5)
abbrev A6 : FVec Ideal Cert.ReferenceIdeal.S3x64x64 .f32 := m ((c : Thread nD τ).loc main_arg6)
abbrev A7 : FVec Ideal Cert.ReferenceIdeal.S3x64 .f32 := m ((c : Thread nD τ).loc main_arg7)
abbrev A8 : FVec Ideal Cert.ReferenceIdeal.S3x64 .f32 := m ((c : Thread nD τ).loc main_arg8)
abbrev A9 : FVec Ideal Cert.ReferenceIdeal.S64 .f32 := m ((c : Thread nD τ).loc main_arg9)
abbrev A10 : FVec Ideal Cert.ReferenceIdeal.S64 .f32 := m ((c : Thread nD τ).loc main_arg10)

/-- The node rows after the input projection and after each layer. -/
abbrev H0 : FVec Ideal Cert.ReferenceIdeal.S100000x64 .f32 := Cert.Sage.h0 (A0 m c) (A2 m c) (A3 m c)
abbrev H1 : FVec Ideal Cert.ReferenceIdeal.S100000x64 .f32 := Cert.Sage.h1 (A0 m c) (A1 m c) (A2 m c) (A3 m c) (A4 m c) (A5 m c) (A6 m c) (A7 m c) (A8 m c)
abbrev H2 : FVec Ideal Cert.ReferenceIdeal.S100000x64 .f32 := Cert.Sage.h2 (A0 m c) (A1 m c) (A2 m c) (A3 m c) (A4 m c) (A5 m c) (A6 m c) (A7 m c) (A8 m c)
abbrev H3 : FVec Ideal Cert.ReferenceIdeal.S100000x64 .f32 := Cert.Sage.h3 (A0 m c) (A1 m c) (A2 m c) (A3 m c) (A4 m c) (A5 m c) (A6 m c) (A7 m c) (A8 m c)

/-- What later stages read of a boundary's contents besides the node rows. -/
structure Base (W : Valuation τ sig (Elt Ideal)) : Prop where
  v1 : W (Proc.devRef .tc main_v1) = Cert.Sage.src (A1 m c)
  v3 : W (Proc.devRef .tc main_v3) = Cert.Sage.dst (A1 m c)
  g4 : W (Proc.devRef .tc main_arg4) = A4 m c
  g5 : W (Proc.devRef .tc main_arg5) = A5 m c
  g6 : W (Proc.devRef .tc main_arg6) = A6 m c
  g7 : W (Proc.devRef .tc main_arg7) = A7 m c
  g8 : W (Proc.devRef .tc main_arg8) = A8 m c
  g9 : W (Proc.devRef .tc main_arg9) = A9 m c
  g10 : W (Proc.devRef .tc main_arg10) = A10 m c

end Cert.Sage.Chain

end
-- ==== Proof.TileStages.lean ====
/-
  What each kernel body leaves in its output block, read at one entry, at exact (extended real) values.

  The bodies' pure terms are cut into their stages (the linear combination `tLin`, the unit-length scaling with the
  residual `tY`, the centring `tD`, the column of squares' sums `tSS`, the column of the row length `tN`, the
  closing scale and shift `tOut`), each stage read at entry (p, q) as the row formula of LibSageRows applied to row
  `p` of the block operands. The three layer bodies are one term, the last body the normalisation alone, the
  first the input projection.
-/
import proofs.«182089_j86543591014918_2_alg».proof.Proof.Gen.KernelIdeal.Frame
import proofs.«182089_j86543591014918_2_alg».proof.Proof.LibSageRows

noncomputable section

namespace Cert.Sage.Tile

open Idealize.ShloMosaic Idealize.ShloMosaic.ValueIdx Cert.KernelIdeal Cert.KernelIdeal.Gen Cert.SageRows

theorem hz2 : (![0, 0] : Fin 2 → Nat) = fun _ => 0 := funext fun a => by fin_cases a <;> rfl
theorem hz1 : (![0] : Fin 1 → Nat) = fun _ => 0 := funext fun a => by fin_cases a <;> rfl

/-- The linear combination of a tile, as the layer bodies spell it. -/
def tLin (x0 x1 : Vec Ideal S2000x64 .f32) (wl wr : Vec Ideal S64x64 .f32) (bl : Vec Ideal S64 .f32) : FVec Ideal S2000x64 .f32 :=
  addf (addf (matmul dot_S2000x64_S64x64_S2000x64_1_0_0_1_n_n none
        (truncf .bf16 (shapeCast S2000x64 x0 shapeCasts_S2000x64_S2000x64) bitsLt_bf16_f32)
        (truncf .bf16 (shapeCast S64x64 wl shapeCasts_S64x64_S64x64) bitsLt_bf16_f32)
        (constant S2000x64 .f32 0x00000000#32))
      (broadcastTo S2000x64 (shapeCast S1x64 (shapeCast S64 bl shapeCasts_S64_S64) shapeCasts_S64_S1x64) broadcasts_S1x64_S2000x64))
    (matmul dot_S2000x64_S64x64_S2000x64_1_0_0_1_n_n none
      (truncf .bf16 (shapeCast S2000x64 x1 shapeCasts_S2000x64_S2000x64) bitsLt_bf16_f32)
      (truncf .bf16 (shapeCast S64x64 wr shapeCasts_S64x64_S64x64) bitsLt_bf16_f32)
      (constant S2000x64 .f32 0x00000000#32))

/-- The rows scaled to unit length and rectified, plus the residual. -/
def tY (o h : FVec Ideal S2000x64 .f32) : FVec Ideal S2000x64 .f32 :=
  addf (maximumf (mulf o (broadcastTo S2000x64 (rsqrt (maximumf
        (shapeCast S2000x1 (multiReduction .add [1] S2000 (mulf o o) 0x00000000#32 reduces_S2000x64_S2000 (.inl rfl) rfl) shapeCasts_S2000_S2000x1)
        (broadcast S2000x1 (Scalar.ofBits (F := Ideal) .f32 0x179ABE15#32)))) broadcasts_S2000x1_S2000x64))
      (broadcast S2000x64 (Scalar.ofBits (F := Ideal) .f32 0x00000000#32))) h

/-- The rows minus their means. -/
def tD (y : FVec Ideal S2000x64 .f32) : FVec Ideal S2000x64 .f32 :=
  subf y (broadcastTo S2000x64 (divf
      (shapeCast S2000x1 (multiReduction .add [1] S2000 y 0x00000000#32 reduces_S2000x64_S2000 (.inl rfl) rfl) shapeCasts_S2000_S2000x1)
      (broadcast S2000x1 (Scalar.ofBits (F := Ideal) .f32 0x42800000#32))) broadcasts_S2000x1_S2000x64)

/-- The column of the rows' sums of squares. -/
def tSS (d : FVec Ideal S2000x64 .f32) : FVec Ideal S2000x1 .f32 :=
  shapeCast S2000x1 (multiReduction .add [1] S2000 (mulf d d) 0x00000000#32 reduces_S2000x64_S2000 (.inl rfl) rfl) shapeCasts_S2000_S2000x1

/-- The column of the row length. -/
def tN : FVec Ideal S2000x1 .f32 := broadcast S2000x1 (Scalar.ofBits (F := Ideal) .f32 0x42800000#32)

/-- The closing scale and shift. -/
def tOut (d : FVec Ideal S2000x64 .f32) (ss n : FVec Ideal S2000x1 .f32) (g b : FVec Ideal S64 .f32) : FVec Ideal S2000x64 .f32 :=
  addf (mulf (mulf d (broadcastTo S2000x64 (rsqrt (addf (divf ss n)
          (broadcast S2000x1 (Scalar.ofBits (F := Ideal) .f32 0x3727C5AC#32)))) broadcasts_S2000x1_S2000x64))
        (broadcastTo S2000x64 (shapeCast S1x64 g shapeCasts_S64_S1x64) broadcasts_S1x64_S2000x64))
      (broadcastTo S2000x64 (shapeCast S1x64 b shapeCasts_S64_S1x64) broadcasts_S1x64_S2000x64)

/-! ## The stages at one entry -/

theorem tLin_apply (x0 x1 : Vec Ideal S2000x64 .f32) (wl wr : Vec Ideal S64x64 .f32) (bl : Vec Ideal S64 .f32)
    (p : Fin 2000) (q : Fin 64) : tLin x0 x1 wl wr bl (ix2 p q) = linRow (row x0 p) (row x1 p) wl bl wr q := by
  unfold tLin
  simp only [shapeCast_self]
  exact tileLin_apply none _ _ _ _ x0 x1 wl wr bl _ _ p q

theorem tY_apply (o h : FVec Ideal S2000x64 .f32) (p : Fin 2000) (q : Fin 64) :
    tY o h (ix2 p q) = unitRow (row o p) q + h (ix2 p q) :=
  tileUnit_apply o h _ _ _ _ _ p q

theorem tD_apply (y : FVec Ideal S2000x64 .f32) (p : Fin 2000) (q : Fin 64) :
    tD y (ix2 p q) = y (ix2 p q) - meanRow (row y p) :=
  tileCentre_apply y _ _ _ _ _ p q

theorem tSS_apply (d : FVec Ideal S2000x64 .f32) (p : Fin 2000) (u : Fin 1) :
    tSS d (ix2 p u) = ∑ k : Fin 64, d (ix2 p k) * d (ix2 p k) :=
  laneCol_apply (mulf d d) _ _ _ _ p u

theorem tN_apply (i : S2000x1.Idx) : tN i = cnt := rfl

theorem tOut_apply (d : FVec Ideal S2000x64 .f32) (ss n : FVec Ideal S2000x1 .f32) (g b : FVec Ideal S64 .f32)
    (p : Fin 2000) (q : Fin 64) :
    tOut d ss n g b (ix2 p q)
      = (d (ix2 p q) * Ideal.rsqrt (Ideal.div (ss (ix2 p (0 : Fin 1))) (n (ix2 p (0 : Fin 1))) + e5)) * g (ix1 q) + b (ix1 q) :=
  tileScaleShift_apply d ss n g b _ _ _ _ _ p q

/-- The normalisation of a tile's rows: centring, then the scale and shift from the centred rows' own statistics. -/
theorem tNorm_apply (y : FVec Ideal S2000x64 .f32) (g b : FVec Ideal S64 .f32) (p : Fin 2000) (q : Fin 64) :
    tOut (tD y) (tSS (tD y)) tN g b (ix2 p q) = lnRow (row y p) g b q := by
  rw [tOut_apply, tSS_apply, tN_apply, tD_apply]
  unfold lnRow varRow
  refine congrArg (fun z => ((y (ix2 p q) - meanRow (row y p)) * Ideal.rsqrt (Ideal.div z cnt + e5)) * g (ix1 q) + b (ix1 q))
    (Finset.sum_congr rfl fun k _ => ?_)
  rw [tD_apply]

/-- The layer of a tile. -/
theorem tLayer_apply (x0 x1 : Vec Ideal S2000x64 .f32) (x2 : Vec Ideal S64x64 .f32) (x3 : Vec Ideal S64 .f32) (x4 : Vec Ideal S64x64 .f32) (x5 x6 : Vec Ideal S64 .f32)
    (p : Fin 2000) (q : Fin 64) :
    tOut (tD (tY (tLin x0 x1 x2 x4 x3) x1)) (tSS (tD (tY (tLin x0 x1 x2 x4 x3) x1))) tN x5 x6 (ix2 p q)
      = layerRow (row x0 p) (row x1 p) x2 x3 x4 x5 x6 q := by
  rw [tNorm_apply]
  unfold layerRow
  refine congrArg (fun y => lnRow y x5 x6 q) (funext fun k => ?_)
  show tY (tLin x0 x1 x2 x4 x3) x1 (ix2 p k) = _
  rw [tY_apply]
  refine congrArg (fun o => unitRow o k + x1 (ix2 p k)) (funext fun k' => ?_)
  exact tLin_apply x0 x1 x2 x4 x3 p k'

/-! ## The bodies' pure terms are those stages -/

theorem pay1_eq (x0 x1 : Vec Ideal S2000x64 .f32) (x2 : Vec Ideal S64x64 .f32) (x3 : Vec Ideal S64 .f32) (x4 : Vec Ideal S64x64 .f32) (x5 x6 : Vec Ideal S64 .f32) :
    k1_pay1 (k1_pay2 x0 x1 x2 x4 x3) (k1_pay3 x0 x1 x2 x4 x3) (k1_pay4 (F := Ideal)) x5 x6
      = tOut (tD (tY (tLin x0 x1 x2 x4 x3) x1)) (tSS (tD (tY (tLin x0 x1 x2 x4 x3) x1))) tN x5 x6 := by
  unfold k1_pay1 k1_pay3 k1_pay2 k1_pay4 tOut tSS tD tY tLin tN
  simp only [shapeCast_self]

theorem pay2_eq (x0 x1 : Vec Ideal S2000x64 .f32) (x2 : Vec Ideal S64x64 .f32) (x3 : Vec Ideal S64 .f32) (x4 : Vec Ideal S64x64 .f32) (x5 x6 : Vec Ideal S64 .f32) :
    k2_pay1 (k2_pay2 x0 x1 x2 x4 x3) (k2_pay3 x0 x1 x2 x4 x3) (k2_pay4 (F := Ideal)) x5 x6
      = tOut (tD (tY (tLin x0 x1 x2 x4 x3) x1)) (tSS (tD (tY (tLin x0 x1 x2 x4 x3) x1))) tN x5 x6 := by
  unfold k2_pay1 k2_pay3 k2_pay2 k2_pay4 tOut tSS tD tY tLin tN
  simp only [shapeCast_self]

theorem pay3_eq (x0 x1 : Vec Ideal S2000x64 .f32) (x2 : Vec Ideal S64x64 .f32) (x3 : Vec Ideal S64 .f32) (x4 : Vec Ideal S64x64 .f32) (x5 x6 : Vec Ideal S64 .f32) :
    k3_pay1 (k3_pay2 x0 x1 x2 x4 x3) (k3_pay3 x0 x1 x2 x4 x3) (k3_pay4 (F := Ideal)) x5 x6
      = tOut (tD (tY (tLin x0 x1 x2 x4 x3) x1)) (tSS (tD (tY (tLin x0 x1 x2 x4 x3) x1))) tN x5 x6 := by
  unfold k3_pay1 k3_pay3 k3_pay2 k3_pay4 tOut tSS tD tY tLin tN
  simp only [shapeCast_self]

theorem pay4_eq (x : Vec Ideal S2000x64 .f32) (g b : Vec Ideal S64 .f32) :
    k4_pay1 x g b = tOut (tD x) (tSS (tD x)) tN g b := by
  unfold k4_pay1 tOut tSS tD tN
  simp only [shapeCast_self]

/-! ## What each body leaves in its output block, at one entry -/

theorem out1_7_apply (x0 x1 : Vec Ideal S2000x64 .f32) (x2 : Vec Ideal S64x64 .f32) (x3 : Vec Ideal S64 .f32) (x4 : Vec Ideal S64x64 .f32) (x5 x6 : Vec Ideal S64 .f32)
    (p : Fin 2000) (q : Fin 64) :
    out1_7 x0 x1 x2 x3 x4 x5 x6 (ix2 p q) = layerRow (row x0 p) (row x1 p) x2 x3 x4 x5 x6 q := by
  unfold out1_7
  rw [View.canon_unit_zero hz2]
  simp only [View.ld_unit_zero (S := S2000x64) hz2, View.ld_unit_zero (S := S64x64) hz2, View.ld_unit_zero (S := S64) hz1]
  rw [pay1_eq]
  exact tLayer_apply x0 x1 x2 x3 x4 x5 x6 p q

theorem out2_7_apply (x0 x1 : Vec Ideal S2000x64 .f32) (x2 : Vec Ideal S64x64 .f32) (x3 : Vec Ideal S64 .f32) (x4 : Vec Ideal S64x64 .f32) (x5 x6 : Vec Ideal S64 .f32)
    (p : Fin 2000) (q : Fin 64) :
    out2_7 x0 x1 x2 x3 x4 x5 x6 (ix2 p q) = layerRow (row x0 p) (row x1 p) x2 x3 x4 x5 x6 q := by
  unfold out2_7
  rw [View.canon_unit_zero hz2]
  simp only [View.ld_unit_zero (S := S2000x64) hz2, View.ld_unit_zero (S := S64x64) hz2, View.ld_unit_zero (S := S64) hz1]
  rw [pay2_eq]
  exact tLayer_apply x0 x1 x2 x3 x4 x5 x6 p q

theorem out3_7_apply (x0 x1 : Vec Ideal S2000x64 .f32) (x2 : Vec Ideal S64x64 .f32) (x3 : Vec Ideal S64 .f32) (x4 : Vec Ideal S64x64 .f32) (x5 x6 : Vec Ideal S64 .f32)
    (p : Fin 2000) (q : Fin 64) :
    out3_7 x0 x1 x2 x3 x4 x5 x6 (ix2 p q) = layerRow (row x0 p) (row x1 p) x2 x3 x4 x5 x6 q := by
  unfold out3_7
  rw [View.canon_unit_zero hz2]
  simp only [View.ld_unit_zero (S := S2000x64) hz2, View.ld_unit_zero (S := S64x64) hz2, View.ld_unit_zero (S := S64) hz1]
  rw [pay3_eq]
  exact tLayer_apply x0 x1 x2 x3 x4 x5 x6 p q

theorem out4_3_apply (x : Vec Ideal S2000x64 .f32) (g b : Vec Ideal S64 .f32) (p : Fin 2000) (q : Fin 64) :
    out4_3 x g b (ix2 p q) = lnRow (row x p) g b q := by
  unfold out4_3
  rw [View.canon_unit_zero hz2]
  simp only [View.ld_unit_zero (S := S2000x64) hz2, View.ld_unit_zero (S := S64) hz1]
  rw [pay4_eq]
  exact tNorm_apply x g b p q

theorem out0_3_apply (x : Vec Ideal S2000x384 .f32) (W : Vec Ideal S384x64 .f32) (b : Vec Ideal S64 .f32)
    (p : Fin 2000) (q : Fin 64) : out0_3 x W b (ix2 p q) = projRow (row x p) W b q := by
  unfold out0_3
  rw [View.canon_unit_zero hz2]
  simp only [View.ld_unit_zero (S := S2000x384) hz2, View.ld_unit_zero (S := S384x64) hz2, View.ld_unit_zero (S := S64) hz1]
  unfold k0_pay1
  exact tileProj_apply none _ _ x W b _ _ p q

end Cert.Sage.Tile

end
-- ==== Proof.Region0.lean ====
/-
  Region 0 of the idealized kernel (the input projection tiled over 2000-row blocks), from blocks to the array.
  At any contents `V` of the buffers when the region is entered, the result array after the region's write-backs is
  `max (x · W + b, 0)` row by row of the arrays as `V` holds them: point `t` writes back rows `2000·t … 2000·t + 1999`
  (the input read at the same rows, the weights whole), and the fifty blocks tile the 100000 rows.
-/
import proofs.«182089_j86543591014918_2_alg».proof.Proof.TileStages

noncomputable section

namespace Cert.Sage.Region0

open Idealize.ShloMosaic Idealize.ShloMosaic.TcCoe Idealize.ShloMosaic.ValueIdx Idealize.SL.Sem
open Idealize.ShloMosaic.Pipeline (Dat)
open Cert.KernelIdeal Cert.KernelIdeal.Gen Cert.SageRows Cert.Sage.Tile

variable (V : (c : Dev nD) → (b : Ref sig .tc) → Buf (Elt Ideal) ((c : Thread nD τ).loc b))

/-- The printed index maps at a point: the row-blocked windows move with the point, the others stay on block zero. -/
structure IdxFacts (t : Fin grid0.N) : Prop where
  w0 : win0_0.index t (0 : Fin 2) = t.val ∧ win0_0.index t (1 : Fin 2) = 0
  w1 : win0_1.index t (0 : Fin 2) = 0 ∧ win0_1.index t (1 : Fin 2) = 0
  w2 : win0_2.index t (0 : Fin 1) = 0
  w3 : win0_3.index t (0 : Fin 2) = t.val ∧ win0_3.index t (1 : Fin 2) = 0

theorem idx : ∀ t : Fin cfg0.N, IdxFacts t := fun t => by
  have h := (by decide +kernel : ∀ t : Fin grid0.N, (win0_0.index t (0 : Fin 2) = t.val ∧ win0_0.index t (1 : Fin 2) = 0) ∧ (win0_1.index t (0 : Fin 2) = 0 ∧ win0_1.index t (1 : Fin 2) = 0) ∧ (win0_2.index t (0 : Fin 1) = 0) ∧ (win0_3.index t (0 : Fin 2) = t.val ∧ win0_3.index t (1 : Fin 2) = 0)) t
  obtain ⟨h0, h1, h2, h3⟩ := h
  exact ⟨h0, h1, h2, h3⟩

/-- Input window 0's block at point `t` is rows `2000·t … 2000·t + 1999` of its array. -/
theorem rows0 (c : Dev nD) (t : Fin cfg0.N) (p : Fin 2000) (P : Fin 100000) (hP : P.val = t.val * 2000 + p.val) (k : Fin 384) :
    (iblk0 V c 0 t : Vec Ideal S2000x384 .f32) (ix2 p k) = (V c main_arg0 : S100000x384.Idx → Elt Ideal .f32) (ix2 P k) := by
  have e := idx t
  unfold iblk0
  rw [View.read_apply]
  refine congrArg (V c main_arg0 : S100000x384.Idx → Elt Ideal .f32) (funext fun a => Fin.ext ?_)
  match a with
  | ⟨0, _⟩ => show win0_0.index t (0 : Fin 2) * 2000 + 1 * p.val = P.val; rw [(e.w0).1, hP]; omega
  | ⟨1, _⟩ => show win0_0.index t (1 : Fin 2) * 384 + 1 * k.val = k.val; rw [(e.w0).2]; omega

/-- Input window 1's block at every point is its whole array. -/
theorem whole1 (c : Dev nD) (t : Fin cfg0.N) : (iblk0 V c 1 t : Vec Ideal S384x64 .f32) = (V c main_arg2 : S384x64.Idx → Elt Ideal .f32) := by
  have e := idx t
  funext j
  unfold iblk0
  rw [View.read_apply]
  refine congrArg (V c main_arg2 : S384x64.Idx → Elt Ideal .f32) (funext fun a => Fin.ext ?_)
  match a with
  | ⟨0, _⟩ => show win0_1.index t (0 : Fin 2) * 384 + 1 * (j 0).val = (j 0).val; rw [(e.w1).1]; omega
  | ⟨1, _⟩ => show win0_1.index t (1 : Fin 2) * 64 + 1 * (j 1).val = (j 1).val; rw [(e.w1).2]; omega

/-- Input window 2's block at every point is its whole array. -/
theorem whole2 (c : Dev nD) (t : Fin cfg0.N) : (iblk0 V c 2 t : Vec Ideal S64 .f32) = (V c main_arg3 : S64.Idx → Elt Ideal .f32) := by
  have e := idx t
  funext j
  unfold iblk0
  rw [View.read_apply]
  refine congrArg (V c main_arg3 : S64.Idx → Elt Ideal .f32) (funext fun a => Fin.ext ?_)
  match a with
  | ⟨0, _⟩ => show win0_2.index t (0 : Fin 1) * 64 + 1 * (j 0).val = (j 0).val; rw [e.w2]; omega

/-- WHAT POINT `t` WRITES BACK is block `t` of the projection's rows over the arrays as the region finds them. -/
theorem flushed_eq (c : Dev nD) (t : Fin cfg0.N) :
    (dat0 V c).flushed 3 t = ((cfg0.win 3).blk t).view.read (Elt Ideal)
      (projT (V c main_arg0 : S100000x384.Idx → Elt Ideal .f32) (V c main_arg2 : S384x64.Idx → Elt Ideal .f32) (V c main_arg3 : S64.Idx → Elt Ideal .f32)) := by
  have e := idx t
  have ht : t.val < 50 := Nat.lt_of_lt_of_eq t.isLt (show cfg0.N = 50 from N_0)
  show (cfg0.win 3).cut (grid0.coords t) ((dat0 V c).after 3 t) = _
  rw [after0_3]
  funext y
  obtain ⟨p, q, rfl⟩ : ∃ (p : Fin 2000) (q : Fin 64), y = ix2 p q := ⟨y 0, y 1, eq_ix2 y⟩
  have hp : t.val * 2000 + p.val < 100000 := by have := p.isLt; omega
  have hemb : ((cfg0.win 3).blk t).view.emb (ix2 p q) = (ix2 (⟨t.val * 2000 + p.val, hp⟩ : Fin 100000) q : S100000x64.Idx) :=
    funext fun a => Fin.ext (by
      match a with
      | ⟨0, _⟩ => show win0_3.index t (0 : Fin 2) * 2000 + 1 * p.val = t.val * 2000 + p.val; rw [(e.w3).1]; omega
      | ⟨1, _⟩ => show win0_3.index t (1 : Fin 2) * 64 + 1 * q.val = q.val; rw [(e.w3).2]; omega)
  show out0_3 (iblk0 V c 0 t) (iblk0 V c 1 t) (iblk0 V c 2 t) (ix2 p q)
    = (projT (V c main_arg0 : S100000x384.Idx → Elt Ideal .f32) (V c main_arg2 : S384x64.Idx → Elt Ideal .f32) (V c main_arg3 : S64.Idx → Elt Ideal .f32)) (((cfg0.win 3).blk t).view.emb (ix2 p q))
  rw [hemb, projT_apply]
  refine (out0_3_apply _ _ _ p q).trans ?_
  rw [whole1 V c t, whole2 V c t]
  have h0 : row (iblk0 V c 0 t : Vec Ideal S2000x384 .f32) p = row (V c main_arg0 : S100000x384.Idx → Elt Ideal .f32) ⟨t.val * 2000 + p.val, hp⟩ :=
    funext fun k => rows0 V c t p _ rfl k
  rw [h0]

/-- An index of the result array is in point `t`'s block iff each coordinate is in the block's range on its axis. -/
theorem mem_blk (t : Fin cfg0.N) (i : S100000x64.Idx) :
    i ∈ ((cfg0.win 3).blk t).view.set ↔ ∀ a : Fin 2, win0_3.index t a * S2000x64.size a ≤ (i a).val ∧ (i a).val < win0_3.index t a * S2000x64.size a + S2000x64.size a := by
  show i ∈ ((View.whole main_v4).slice (win0_3.rect t)).set ↔ _
  rw [View.set_slice_whole, Rect.mem_set_unit]
  exact Iff.rfl

/-- Every row of the result array is in the block of the point its number divided by 2000 names. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : grid0.N = 50 := N_0
  have ht : (i 0).val / 2000 < grid0.N := by rw [hN]; omega
  have e := idx ⟨(i 0).val / 2000, ht⟩
  refine ⟨⟨(i 0).val / 2000, ht⟩, flush0_3 _, ?_⟩
  rw [mem_blk]
  intro a
  match a with
  | ⟨0, _⟩ =>
    show win0_3.index ⟨(i 0).val / 2000, ht⟩ (0 : Fin 2) * 2000 ≤ (i 0).val ∧ (i 0).val < win0_3.index ⟨(i 0).val / 2000, ht⟩ (0 : Fin 2) * 2000 + 2000
    rw [(e.w3).1]; show (i 0).val / 2000 * 2000 ≤ (i 0).val ∧ (i 0).val < (i 0).val / 2000 * 2000 + 2000; omega
  | ⟨1, _⟩ =>
    show win0_3.index ⟨(i 0).val / 2000, ht⟩ (1 : Fin 2) * 64 ≤ (i 1).val ∧ (i 1).val < win0_3.index ⟨(i 0).val / 2000, ht⟩ (1 : Fin 2) * 64 + 64
    rw [(e.w3).2]; omega

/-- THE ARRAY after the region: the projection's rows of the arrays as the region finds them. -/
theorem final (c : Dev nD) : (dat0 V c).arrAt 3 cfg0.N = (projT (V c main_arg0 : S100000x384.Idx → Elt Ideal .f32) (V c main_arg2 : S384x64.Idx → Elt Ideal .f32) (V c main_arg3 : S64.Idx → Elt Ideal .f32)) :=
  (dat0 V c).arrAt_eq_of_cover 3 _ (fun t _ => flushed_eq V c t) (fun i => cover i)

end Cert.Sage.Region0

end
-- ==== Proof.RefStages.lean ====
/-
  The reference's stages read at one entry, at exact (extended real) values: each is the row formula of
  the same name applied to row `p` of its matrix operands.
-/
import proofs.«182089_j86543591014918_2_alg».proof.Proof.RefSpec
import proofs.«182089_j86543591014918_2_alg».proof.Proof.LibSageRows

noncomputable section

namespace Cert.Sage

open Idealize.ShloMosaic Idealize.ShloMosaic.ValueIdx Cert.ReferenceIdeal Cert.ReferenceIdeal.Gen Cert.SageRows

/-- The row length `64.0` denotes the real 64. -/
theorem cnt_eq : cnt = ((64 : ℝ) : EReal) := by
  unfold cnt
  simp [Ideal.ofBits, Ideal.ieee, -EReal.coe_mul]; norm_num

/-- The host's reciprocal square root of an array, at one entry. -/
theorem hostRsqrt_apply {s : Shape} (v : FVec Ideal s .f32) (i : s.Idx) : Host.rsqrt v i = Ideal.rsqrt (v i) := rfl

theorem rowBias_apply (b : FVec Ideal S64 .f32) (p : Fin 100000) (q : Fin 64) : rowBias b (ix2 p q) = b (ix1 q) :=
  Cert.LibLreluRows.biasRows_apply _ _ b p q

theorem spread_apply (c : FVec Ideal S100000x1 .f32) (p : Fin 100000) (q : Fin 64) :
    spread c (ix2 p q) = c (ix2 p (0 : Fin 1)) :=
  Cert.Lib.Keepdims.broadcastInDim_a1_ab_apply c _ p q

theorem colSum_apply (x : FVec Ideal S100000x64 .f32) (p : Fin 100000) (u : Fin 1) :
    colSum x (ix2 p u) = ∑ k : Fin 64, x (ix2 p k) :=
  hostColSum_apply x _ (by decide) _ _ p u

theorem colOf_apply (s : FVec Ideal S_ .f32) (i : S100000x1.Idx) : colOf s i = s ix0 :=
  hostColOf_apply s _ i

theorem relu_apply (x : FVec Ideal S100000x64 .f32) (i : S100000x64.Idx) : relu x i = max (x i) 0 :=
  Cert.Dense.hostRelu_apply 100000 64 _ x i

theorem proj_apply (x : FVec Ideal S100000x384 .f32) (W : FVec Ideal S384x64 .f32) (b : FVec Ideal S64 .f32)
    (p : Fin 100000) (q : Fin 64) : proj x W b (ix2 p q) = projRow (row x p) W b q := by
  unfold proj
  rw [relu_apply]
  show max (Host.dotGeneral dot_S100000x384_S384x64_S100000x64_1_0_0_1_n_n none x W (ix2 p q) + rowBias b (ix2 p q)) 0 = _
  rw [rowBias_apply]
  refine congrArg (fun z => max (z + b (ix1 q)) 0) ?_
  exact Cert.Dense.hostProduct_apply 100000 384 64 none x W p q

theorem pre_apply (a h : FVec Ideal S100000x64 .f32) (wl : FVec Ideal S64x64 .f32) (bl : FVec Ideal S64 .f32)
    (wr : FVec Ideal S64x64 .f32) (p : Fin 100000) (q : Fin 64) :
    pre a h wl bl wr (ix2 p q) = linRow (row a p) (row h p) wl bl wr q := by
  unfold pre
  show (Host.dotGeneral dot_S100000x64_S64x64_S100000x64_1_0_0_1_n_n none a wl (ix2 p q) + rowBias bl (ix2 p q))
      + Host.dotGeneral dot_S100000x64_S64x64_S100000x64_1_0_0_1_n_n none h wr (ix2 p q) = _
  rw [rowBias_apply]
  have e1 := Cert.Dense.hostProduct_apply 100000 64 64 none a wl p q
  have e2 := Cert.Dense.hostProduct_apply 100000 64 64 none h wr p q
  exact (congrArg₂ (fun z w => (z + bl (ix1 q)) + w) e1 e2)

theorem l2relu_apply (o : FVec Ideal S100000x64 .f32) (p : Fin 100000) (q : Fin 64) :
    l2relu o (ix2 p q) = unitRow (row o p) q := by
  unfold l2relu
  rw [relu_apply]
  show max (o (ix2 p q) * spread _ (ix2 p q)) 0 = _
  rw [spread_apply]
  rw [hostRsqrt_apply, maximumf_apply, colSum_apply, colOf_apply]
  rfl

theorem meanCol_apply (y : FVec Ideal S100000x64 .f32) (p : Fin 100000) (u : Fin 1) :
    meanCol y (ix2 p u) = meanRow (row y p) := by
  unfold meanCol
  show Ideal.div (colSum y (ix2 p u)) (colOf (F := Ideal) (constant S_ .f32 0x42800000#32) (ix2 p u)) = _
  rw [colSum_apply, colOf_apply]
  rfl

theorem centred_apply (y : FVec Ideal S100000x64 .f32) (p : Fin 100000) (q : Fin 64) :
    centred y (ix2 p q) = y (ix2 p q) - meanRow (row y p) := by
  unfold centred
  show y (ix2 p q) - spread (meanCol y) (ix2 p q) = _
  rw [spread_apply, meanCol_apply]

/-- With no degree of freedom given up the divisor is the row length, which is positive. -/
theorem varDen_zero : varDen (F := Ideal) (constantI S_ 32 0#32) ix0 = cnt := by
  show Ideal.ofBits .f32 0x42800000#32 - ((((0#32 : BitVec 32).toInt : ℝ)) : EReal) = cnt
  have : (((0#32 : BitVec 32).toInt : ℝ) : EReal) = 0 := by norm_num
  rw [this, sub_zero]
  rfl

theorem cnt_pos : (0 : EReal) < cnt := by
  rw [cnt_eq]; exact_mod_cast (by norm_num : (0 : ℝ) < 64)

theorem varCol_apply (y : FVec Ideal S100000x64 .f32) (p : Fin 100000) (u : Fin 1) :
    varCol y (constantI S_ 32 0#32) (ix2 p u) = varRow (row y p) := by
  unfold varCol
  show Scalar.select (broadcastInDim S100000x1 ![] bcast_S_S100000x1
        (cmpf .ogt (varDen (F := Ideal) (constantI S_ 32 0#32)) (constant (F := Ideal) S_ .f32 0x00000000#32)) (ix2 p u))
      (Ideal.div (colSum (mulf (centred y) (centred y)) (ix2 p u))
        (colOf (F := Ideal) (varDen (constantI S_ 32 0#32)) (ix2 p u)))
      (colOf (F := Ideal) (constant S_ .f32 0x7FC00000#32) (ix2 p u)) = _
  rw [hostColOf_apply, colOf_apply, colSum_apply]
  show Scalar.select (FloatOps.cmpf .ogt (varDen (F := Ideal) (constantI S_ 32 0#32) ix0) (Ideal.ofBits .f32 0x00000000#32))
      (Ideal.div (∑ k : Fin 64, mulf (centred y) (centred y) (ix2 p k)) (varDen (F := Ideal) (constantI S_ 32 0#32) ix0))
      (colOf (F := Ideal) (constant S_ .f32 0x7FC00000#32) (ix2 p u)) = _
  rw [varDen_zero, Ideal.ofBits_zero_f32, Ideal.cmpf_def]
  have hc : Ideal.cmp .ogt cnt 0 = 1#1 := by simp [Ideal.cmp, cnt_pos]
  rw [hc, select_one]
  unfold varRow
  refine congrArg (fun z => Ideal.div z cnt) (Finset.sum_congr rfl fun k _ => ?_)
  show centred y (ix2 p k) * centred y (ix2 p k) = _
  rw [centred_apply]

theorem lnorm_apply (y : FVec Ideal S100000x64 .f32) (g b : FVec Ideal S64 .f32) (p : Fin 100000) (q : Fin 64) :
    lnorm y g b (ix2 p q) = lnRow (row y p) g b q := by
  unfold lnorm
  show (centred y (ix2 p q) * spread (Host.rsqrt (addf (varCol y (constantI S_ 32 0#32))
      (colOf (F := Ideal) (constant S_ .f32 0x3727C5AC#32)))) (ix2 p q)) * rowBias g (ix2 p q) + rowBias b (ix2 p q) = _
  rw [spread_apply, rowBias_apply, rowBias_apply, centred_apply]
  rw [hostRsqrt_apply, addf_apply, varCol_apply, colOf_apply]
  rfl

theorem layer_apply (a h : FVec Ideal S100000x64 .f32) (wl : FVec Ideal S64x64 .f32) (bl : FVec Ideal S64 .f32)
    (wr : FVec Ideal S64x64 .f32) (g b : FVec Ideal S64 .f32) (p : Fin 100000) (q : Fin 64) :
    layer a h wl bl wr g b (ix2 p q) = layerRow (row a p) (row h p) wl bl wr g b q := by
  unfold layer
  rw [lnorm_apply]
  unfold layerRow
  refine congrArg (fun y => lnRow y g b q) (funext fun k => ?_)
  show l2relu (pre a h wl bl wr) (ix2 p k) + h (ix2 p k) = _
  rw [l2relu_apply]
  refine congrArg (fun o => unitRow o k + h (ix2 p k)) (funext fun k' => ?_)
  exact pre_apply a h wl bl wr p k'

/-! ## The stages as whole arrays -/

theorem layer_eq (a h : FVec Ideal S100000x64 .f32) (wl : FVec Ideal S64x64 .f32) (bl : FVec Ideal S64 .f32)
    (wr : FVec Ideal S64x64 .f32) (g b : FVec Ideal S64 .f32) : layer a h wl bl wr g b = layerT a h wl bl wr g b :=
  funext fun i => by
    obtain ⟨p, q, rfl⟩ : ∃ (p : Fin 100000) (q : Fin 64), i = ix2 p q := ⟨i 0, i 1, eq_ix2 i⟩
    exact layer_apply a h wl bl wr g b p q

theorem lnorm_eq (y : FVec Ideal S100000x64 .f32) (g b : FVec Ideal S64 .f32) : lnorm y g b = lnT y g b :=
  funext fun i => by
    obtain ⟨p, q, rfl⟩ : ∃ (p : Fin 100000) (q : Fin 64), i = ix2 p q := ⟨i 0, i 1, eq_ix2 i⟩
    exact lnorm_apply y g b p q

theorem proj_eq (x : FVec Ideal S100000x384 .f32) (W : FVec Ideal S384x64 .f32) (b : FVec Ideal S64 .f32) :
    proj x W b = projT x W b :=
  funext fun i => by
    obtain ⟨p, q, rfl⟩ : ∃ (p : Fin 100000) (q : Fin 64), i = ix2 p q := ⟨i 0, i 1, eq_ix2 i⟩
    exact proj_apply x W b p q

end Cert.Sage

end
-- ==== Proof.Chain0.lean ====
/-
  From the launch to the first region's exit: the two rows of the edge list are sliced out of the argument, the
  parameters are untouched, and the first region leaves the input projection of the argument rows.
-/
import proofs.«182089_j86543591014918_2_alg».proof.Proof.ChainBase
import proofs.«182089_j86543591014918_2_alg».proof.Proof.Region0
import proofs.«182089_j86543591014918_2_alg».proof.Proof.RefStages
import Idealize.ShloMosaic.Lib.StableHlo.Run

noncomputable section

namespace Cert.Sage.Chain

open Idealize.ShloMosaic Idealize.ShloMosaic.TcCoe Idealize.SL.Sem Idealize.ShloMosaic.StableHlo
open Cert.KernelIdeal Cert.KernelIdeal.Gen Cert.SageRows

variable (m : (ℓ : Loc nD τ sig) → Buf (Elt Ideal) ℓ) (ρ : Dev nD → PrngReg) (c : Dev nD)

/-- After the first host stretch. -/
theorem baseW1 : Base m c (W1 m ρ c) where
  v1 := by show StableHlo.after hostOps0 (W0 m ρ c) (Proc.devRef .tc main_v1) = _; after_results <;> rfl
  v3 := by show StableHlo.after hostOps0 (W0 m ρ c) (Proc.devRef .tc main_v3) = _; after_results <;> rfl
  g4 := by show StableHlo.after hostOps0 (W0 m ρ c) (Proc.devRef .tc main_arg4) = _; after_results <;> rfl
  g5 := by show StableHlo.after hostOps0 (W0 m ρ c) (Proc.devRef .tc main_arg5) = _; after_results <;> rfl
  g6 := by show StableHlo.after hostOps0 (W0 m ρ c) (Proc.devRef .tc main_arg6) = _; after_results <;> rfl
  g7 := by show StableHlo.after hostOps0 (W0 m ρ c) (Proc.devRef .tc main_arg7) = _; after_results <;> rfl
  g8 := by show StableHlo.after hostOps0 (W0 m ρ c) (Proc.devRef .tc main_arg8) = _; after_results <;> rfl
  g9 := by show StableHlo.after hostOps0 (W0 m ρ c) (Proc.devRef .tc main_arg9) = _; after_results <;> rfl
  g10 := by show StableHlo.after hostOps0 (W0 m ρ c) (Proc.devRef .tc main_arg10) = _; after_results <;> rfl

theorem w1_a0 : W1 m ρ c (Proc.devRef .tc main_arg0) = A0 m c := by
  show StableHlo.after hostOps0 (W0 m ρ c) (Proc.devRef .tc main_arg0) = _; after_results <;> rfl
theorem w1_a2 : W1 m ρ c (Proc.devRef .tc main_arg2) = A2 m c := by
  show StableHlo.after hostOps0 (W0 m ρ c) (Proc.devRef .tc main_arg2) = _; after_results <;> rfl
theorem w1_a3 : W1 m ρ c (Proc.devRef .tc main_arg3) = A3 m c := by
  show StableHlo.after hostOps0 (W0 m ρ c) (Proc.devRef .tc main_arg3) = _; after_results <;> rfl

/-- The first region writes none of them. -/
theorem baseW2 : Base m c (W2 m ρ c) where
  v1 := (W2_of_ne m ρ c main_v1 (by decide)).trans (baseW1 m ρ c).v1
  v3 := (W2_of_ne m ρ c main_v3 (by decide)).trans (baseW1 m ρ c).v3
  g4 := (W2_of_ne m ρ c main_arg4 (by decide)).trans (baseW1 m ρ c).g4
  g5 := (W2_of_ne m ρ c main_arg5 (by decide)).trans (baseW1 m ρ c).g5
  g6 := (W2_of_ne m ρ c main_arg6 (by decide)).trans (baseW1 m ρ c).g6
  g7 := (W2_of_ne m ρ c main_arg7 (by decide)).trans (baseW1 m ρ c).g7
  g8 := (W2_of_ne m ρ c main_arg8 (by decide)).trans (baseW1 m ρ c).g8
  g9 := (W2_of_ne m ρ c main_arg9 (by decide)).trans (baseW1 m ρ c).g9
  g10 := (W2_of_ne m ρ c main_arg10 (by decide)).trans (baseW1 m ρ c).g10

/-- The first region leaves the input projection. -/
theorem w2_v4 : W2 m ρ c (Proc.devRef .tc main_v4) = H0 m c := by
  refine (W2_arr m ρ c 3).trans ((Cert.Sage.Region0.final (V1 m ρ) c).trans ?_)
  show projT (W1 m ρ c (Proc.devRef .tc main_arg0)) (W1 m ρ c (Proc.devRef .tc main_arg2)) (W1 m ρ c (Proc.devRef .tc main_arg3)) = _
  rw [w1_a0, w1_a2, w1_a3]
  exact (Cert.Sage.proj_eq _ _ _).symm

end Cert.Sage.Chain

end
-- ==== Proof.Region1.lean ====
/-
  Region 1 of the idealized kernel (a graph-convolution layer tiled over 2000-row blocks), from blocks to the array.
  At any contents `V` of the buffers when the region is entered, the result array after the region's write-backs is the
  layer's row formula applied to every row of the aggregated rows and the node rows as `V` holds them: point `t`
  writes back rows `2000·t … 2000·t + 1999` (the two row-blocked inputs read at the same rows, the weights whole),
  and the fifty blocks tile the 100000 rows.
-/
import proofs.«182089_j86543591014918_2_alg».proof.Proof.TileStages

noncomputable section

namespace Cert.Sage.Region1

open Idealize.ShloMosaic Idealize.ShloMosaic.TcCoe Idealize.ShloMosaic.ValueIdx Idealize.SL.Sem
open Idealize.ShloMosaic.Pipeline (Dat)
open Cert.KernelIdeal Cert.KernelIdeal.Gen Cert.SageRows Cert.Sage.Tile

variable (V : (c : Dev nD) → (b : Ref sig .tc) → Buf (Elt Ideal) ((c : Thread nD τ).loc b))

/-- The printed index maps at a point: the row-blocked windows move with the point, the others stay on block zero. -/
structure IdxFacts (t : Fin grid1.N) : Prop where
  w0 : win1_0.index t (0 : Fin 2) = t.val ∧ win1_0.index t (1 : Fin 2) = 0
  w1 : win1_1.index t (0 : Fin 2) = t.val ∧ win1_1.index t (1 : Fin 2) = 0
  w2 : win1_2.index t (0 : Fin 2) = 0 ∧ win1_2.index t (1 : Fin 2) = 0
  w3 : win1_3.index t (0 : Fin 1) = 0
  w4 : win1_4.index t (0 : Fin 2) = 0 ∧ win1_4.index t (1 : Fin 2) = 0
  w5 : win1_5.index t (0 : Fin 1) = 0
  w6 : win1_6.index t (0 : Fin 1) = 0
  w7 : win1_7.index t (0 : Fin 2) = t.val ∧ win1_7.index t (1 : Fin 2) = 0

theorem idx : ∀ t : Fin cfg1.N, IdxFacts t := fun t => by
  have h := (by decide +kernel : ∀ t : Fin grid1.N, (win1_0.index t (0 : Fin 2) = t.val ∧ win1_0.index t (1 : Fin 2) = 0) ∧ (win1_1.index t (0 : Fin 2) = t.val ∧ win1_1.index t (1 : Fin 2) = 0) ∧ (win1_2.index t (0 : Fin 2) = 0 ∧ win1_2.index t (1 : Fin 2) = 0) ∧ (win1_3.index t (0 : Fin 1) = 0) ∧ (win1_4.index t (0 : Fin 2) = 0 ∧ win1_4.index t (1 : Fin 2) = 0) ∧ (win1_5.index t (0 : Fin 1) = 0) ∧ (win1_6.index t (0 : Fin 1) = 0) ∧ (win1_7.index t (0 : Fin 2) = t.val ∧ win1_7.index t (1 : Fin 2) = 0)) t
  obtain ⟨h0, h1, h2, h3, h4, h5, h6, h7⟩ := h
  exact ⟨h0, h1, h2, h3, h4, h5, h6, h7⟩

/-- Input window 0's block at point `t` is rows `2000·t … 2000·t + 1999` of its array. -/
theorem rows0 (c : Dev nD) (t : Fin cfg1.N) (p : Fin 2000) (P : Fin 100000) (hP : P.val = t.val * 2000 + p.val) (k : Fin 64) :
    (iblk1 V c 0 t : Vec Ideal S2000x64 .f32) (ix2 p k) = (V c main_v23 : S100000x64.Idx → Elt Ideal .f32) (ix2 P k) := by
  have e := idx t
  unfold iblk1
  rw [View.read_apply]
  refine congrArg (V c main_v23 : S100000x64.Idx → Elt Ideal .f32) (funext fun a => Fin.ext ?_)
  match a with
  | ⟨0, _⟩ => show win1_0.index t (0 : Fin 2) * 2000 + 1 * p.val = P.val; rw [(e.w0).1, hP]; omega
  | ⟨1, _⟩ => show win1_0.index t (1 : Fin 2) * 64 + 1 * k.val = k.val; rw [(e.w0).2]; omega

/-- Input window 1's block at point `t` is rows `2000·t … 2000·t + 1999` of its array. -/
theorem rows1 (c : Dev nD) (t : Fin cfg1.N) (p : Fin 2000) (P : Fin 100000) (hP : P.val = t.val * 2000 + p.val) (k : Fin 64) :
    (iblk1 V c 1 t : Vec Ideal S2000x64 .f32) (ix2 p k) = (V c main_v4 : S100000x64.Idx → Elt Ideal .f32) (ix2 P k) := by
  have e := idx t
  unfold iblk1
  rw [View.read_apply]
  refine congrArg (V c main_v4 : S100000x64.Idx → Elt Ideal .f32) (funext fun a => Fin.ext ?_)
  match a with
  | ⟨0, _⟩ => show win1_1.index t (0 : Fin 2) * 2000 + 1 * p.val = P.val; rw [(e.w1).1, hP]; omega
  | ⟨1, _⟩ => show win1_1.index t (1 : Fin 2) * 64 + 1 * k.val = k.val; rw [(e.w1).2]; omega

/-- Input window 2's block at every point is its whole array. -/
theorem whole2 (c : Dev nD) (t : Fin cfg1.N) : (iblk1 V c 2 t : Vec Ideal S64x64 .f32) = (V c main_v25 : S64x64.Idx → Elt Ideal .f32) := by
  have e := idx t
  funext j
  unfold iblk1
  rw [View.read_apply]
  refine congrArg (V c main_v25 : S64x64.Idx → Elt Ideal .f32) (funext fun a => Fin.ext ?_)
  match a with
  | ⟨0, _⟩ => show win1_2.index t (0 : Fin 2) * 64 + 1 * (j 0).val = (j 0).val; rw [(e.w2).1]; omega
  | ⟨1, _⟩ => show win1_2.index t (1 : Fin 2) * 64 + 1 * (j 1).val = (j 1).val; rw [(e.w2).2]; omega

/-- Input window 3's block at every point is its whole array. -/
theorem whole3 (c : Dev nD) (t : Fin cfg1.N) : (iblk1 V c 3 t : Vec Ideal S64 .f32) = (V c main_v27 : S64.Idx → Elt Ideal .f32) := by
  have e := idx t
  funext j
  unfold iblk1
  rw [View.read_apply]
  refine congrArg (V c main_v27 : S64.Idx → Elt Ideal .f32) (funext fun a => Fin.ext ?_)
  match a with
  | ⟨0, _⟩ => show win1_3.index t (0 : Fin 1) * 64 + 1 * (j 0).val = (j 0).val; rw [e.w3]; omega

/-- Input window 4's block at every point is its whole array. -/
theorem whole4 (c : Dev nD) (t : Fin cfg1.N) : (iblk1 V c 4 t : Vec Ideal S64x64 .f32) = (V c main_v29 : S64x64.Idx → Elt Ideal .f32) := by
  have e := idx t
  funext j
  unfold iblk1
  rw [View.read_apply]
  refine congrArg (V c main_v29 : S64x64.Idx → Elt Ideal .f32) (funext fun a => Fin.ext ?_)
  match a with
  | ⟨0, _⟩ => show win1_4.index t (0 : Fin 2) * 64 + 1 * (j 0).val = (j 0).val; rw [(e.w4).1]; omega
  | ⟨1, _⟩ => show win1_4.index t (1 : Fin 2) * 64 + 1 * (j 1).val = (j 1).val; rw [(e.w4).2]; omega

/-- Input window 5's block at every point is its whole array. -/
theorem whole5 (c : Dev nD) (t : Fin cfg1.N) : (iblk1 V c 5 t : Vec Ideal S64 .f32) = (V c main_v31 : S64.Idx → Elt Ideal .f32) := by
  have e := idx t
  funext j
  unfold iblk1
  rw [View.read_apply]
  refine congrArg (V c main_v31 : S64.Idx → Elt Ideal .f32) (funext fun a => Fin.ext ?_)
  match a with
  | ⟨0, _⟩ => show win1_5.index t (0 : Fin 1) * 64 + 1 * (j 0).val = (j 0).val; rw [e.w5]; omega

/-- Input window 6's block at every point is its whole array. -/
theorem whole6 (c : Dev nD) (t : Fin cfg1.N) : (iblk1 V c 6 t : Vec Ideal S64 .f32) = (V c main_v33 : S64.Idx → Elt Ideal .f32) := by
  have e := idx t
  funext j
  unfold iblk1
  rw [View.read_apply]
  refine congrArg (V c main_v33 : S64.Idx → Elt Ideal .f32) (funext fun a => Fin.ext ?_)
  match a with
  | ⟨0, _⟩ => show win1_6.index t (0 : Fin 1) * 64 + 1 * (j 0).val = (j 0).val; rw [e.w6]; omega

/-- WHAT POINT `t` WRITES BACK is block `t` of the layer's rows over the arrays as the region finds them. -/
theorem flushed_eq (c : Dev nD) (t : Fin cfg1.N) :
    (dat1 V c).flushed 7 t = ((cfg1.win 7).blk t).view.read (Elt Ideal)
      (layerT (V c main_v23 : S100000x64.Idx → Elt Ideal .f32) (V c main_v4 : S100000x64.Idx → Elt Ideal .f32) (V c main_v25 : S64x64.Idx → Elt Ideal .f32) (V c main_v27 : S64.Idx → Elt Ideal .f32) (V c main_v29 : S64x64.Idx → Elt Ideal .f32) (V c main_v31 : S64.Idx → Elt Ideal .f32) (V c main_v33 : S64.Idx → Elt Ideal .f32)) := by
  have e := idx t
  have hN : grid1.N = 50 := N_1
  have ht : t.val < 50 := Nat.lt_of_lt_of_eq t.isLt (show cfg1.N = 50 from N_1)
  show (cfg1.win 7).cut (grid1.coords t) ((dat1 V c).after 7 t) = _
  rw [after1_7]
  funext y
  obtain ⟨p, q, rfl⟩ : ∃ (p : Fin 2000) (q : Fin 64), y = ix2 p q := ⟨y 0, y 1, eq_ix2 y⟩
  have hp : t.val * 2000 + p.val < 100000 := by have := p.isLt; omega
  have hemb : ((cfg1.win 7).blk t).view.emb (ix2 p q) = (ix2 (⟨t.val * 2000 + p.val, hp⟩ : Fin 100000) q : S100000x64.Idx) :=
    funext fun a => Fin.ext (by
      match a with
      | ⟨0, _⟩ => show win1_7.index t (0 : Fin 2) * 2000 + 1 * p.val = t.val * 2000 + p.val; rw [(e.w7).1]; omega
      | ⟨1, _⟩ => show win1_7.index t (1 : Fin 2) * 64 + 1 * q.val = q.val; rw [(e.w7).2]; omega)
  show out1_7 (iblk1 V c 0 t) (iblk1 V c 1 t) (iblk1 V c 2 t) (iblk1 V c 3 t) (iblk1 V c 4 t) (iblk1 V c 5 t) (iblk1 V c 6 t) (ix2 p q)
    = (layerT (V c main_v23 : S100000x64.Idx → Elt Ideal .f32) (V c main_v4 : S100000x64.Idx → Elt Ideal .f32) (V c main_v25 : S64x64.Idx → Elt Ideal .f32) (V c main_v27 : S64.Idx → Elt Ideal .f32) (V c main_v29 : S64x64.Idx → Elt Ideal .f32) (V c main_v31 : S64.Idx → Elt Ideal .f32) (V c main_v33 : S64.Idx → Elt Ideal .f32)) (((cfg1.win 7).blk t).view.emb (ix2 p q))
  rw [hemb, layerT_apply]
  refine (out1_7_apply _ _ _ _ _ _ _ p q).trans ?_
  rw [whole2 V c t, whole3 V c t, whole4 V c t, whole5 V c t, whole6 V c t]
  have h0 : row (iblk1 V c 0 t : Vec Ideal S2000x64 .f32) p = row (V c main_v23 : S100000x64.Idx → Elt Ideal .f32) ⟨t.val * 2000 + p.val, hp⟩ :=
    funext fun k => rows0 V c t p _ rfl k
  have h1 : row (iblk1 V c 1 t : Vec Ideal S2000x64 .f32) p = row (V c main_v4 : S100000x64.Idx → Elt Ideal .f32) ⟨t.val * 2000 + p.val, hp⟩ :=
    funext fun k => rows1 V c t p _ rfl k
  rw [h0, h1]

/-- An index of the result array is in point `t`'s block iff each coordinate is in the block's range on its axis. -/
theorem mem_blk (t : Fin cfg1.N) (i : S100000x64.Idx) :
    i ∈ ((cfg1.win 7).blk t).view.set ↔ ∀ a : Fin 2, win1_7.index t a * S2000x64.size a ≤ (i a).val ∧ (i a).val < win1_7.index t a * S2000x64.size a + S2000x64.size a := by
  show i ∈ ((View.whole main_v34).slice (win1_7.rect t)).set ↔ _
  rw [View.set_slice_whole, Rect.mem_set_unit]
  exact Iff.rfl

/-- Every row of the result array is in the block of the point its number divided by 2000 names. -/
theorem cover (i : S100000x64.Idx) : ∃ t : Fin cfg1.N, (cfg1.win 7).flush t = true ∧ i ∈ ((cfg1.win 7).blk t).view.set := by
  have hi0 : (i 0).val < 100000 := (i 0).isLt
  have hi1 : (i 1).val < 64 := (i 1).isLt
  have hN : grid1.N = 50 := N_1
  have ht : (i 0).val / 2000 < grid1.N := by rw [hN]; omega
  have e := idx ⟨(i 0).val / 2000, ht⟩
  refine ⟨⟨(i 0).val / 2000, ht⟩, flush1_7 _, ?_⟩
  rw [mem_blk]
  intro a
  match a with
  | ⟨0, _⟩ =>
    show win1_7.index ⟨(i 0).val / 2000, ht⟩ (0 : Fin 2) * 2000 ≤ (i 0).val ∧ (i 0).val < win1_7.index ⟨(i 0).val / 2000, ht⟩ (0 : Fin 2) * 2000 + 2000
    rw [(e.w7).1]; show (i 0).val / 2000 * 2000 ≤ (i 0).val ∧ (i 0).val < (i 0).val / 2000 * 2000 + 2000; omega
  | ⟨1, _⟩ =>
    show win1_7.index ⟨(i 0).val / 2000, ht⟩ (1 : Fin 2) * 64 ≤ (i 1).val ∧ (i 1).val < win1_7.index ⟨(i 0).val / 2000, ht⟩ (1 : Fin 2) * 64 + 64
    rw [(e.w7).2]; omega

/-- THE ARRAY after the region: the layer's rows of the arrays as the region finds them. -/
theorem final (c : Dev nD) : (dat1 V c).arrAt 7 cfg1.N = (layerT (V c main_v23 : S100000x64.Idx → Elt Ideal .f32) (V c main_v4 : S100000x64.Idx → Elt Ideal .f32) (V c main_v25 : S64x64.Idx → Elt Ideal .f32) (V c main_v27 : S64.Idx → Elt Ideal .f32) (V c main_v29 : S64x64.Idx → Elt Ideal .f32) (V c main_v31 : S64.Idx → Elt Ideal .f32) (V c main_v33 : S64.Idx → Elt Ideal .f32)) :=
  (dat1 V c).arrAt_eq_of_cover 7 _ (fun t _ => flushed_eq V c t) (fun i => cover i)

end Cert.Sage.Region1

end
-- ==== Proof.Chain1.lean ====
/-
  Layer 1 of the idealized kernel, from the exit of the region before it to its own region's exit: the host stretch
  gathers the node rows at the sources, adds them up at the destinations and divides by the degree, and slices the
  layer's parameters out of the arguments; the region then leaves the layer's rows. Stated from what the boundary
  before holds.
-/
import proofs.«182089_j86543591014918_2_alg».proof.Proof.ChainBase
import proofs.«182089_j86543591014918_2_alg».proof.Proof.Region1
import proofs.«182089_j86543591014918_2_alg».proof.Proof.RefStages
import Idealize.ShloMosaic.Lib.StableHlo.Run

noncomputable section

namespace Cert.Sage.Chain

open Idealize.ShloMosaic Idealize.ShloMosaic.TcCoe Idealize.SL.Sem Idealize.ShloMosaic.StableHlo
open Cert.KernelIdeal Cert.KernelIdeal.Gen Cert.SageRows

variable (m : (ℓ : Loc nD τ sig) → Buf (Elt Ideal) ℓ) (ρ : Dev nD → PrngReg) (c : Dev nD)

set_option maxHeartbeats 2000000

/-! ## The host stretch -/

theorem keep1 (hb : Base m c (W2 m ρ c)) (hh : W2 m ρ c (Proc.devRef .tc main_v4) = H0 m c) : Base m c (W3 m ρ c) where
  v1 := by
    refine Eq.trans ?_ hb.v1
    show StableHlo.after hostOps1 (W2 m ρ c) (Proc.devRef .tc main_v1) = _
    after_results_simp
  v3 := by
    refine Eq.trans ?_ hb.v3
    show StableHlo.after hostOps1 (W2 m ρ c) (Proc.devRef .tc main_v3) = _
    after_results_simp
  g4 := by
    refine Eq.trans ?_ hb.g4
    show StableHlo.after hostOps1 (W2 m ρ c) (Proc.devRef .tc main_arg4) = _
    after_results_simp
  g5 := by
    refine Eq.trans ?_ hb.g5
    show StableHlo.after hostOps1 (W2 m ρ c) (Proc.devRef .tc main_arg5) = _
    after_results_simp
  g6 := by
    refine Eq.trans ?_ hb.g6
    show StableHlo.after hostOps1 (W2 m ρ c) (Proc.devRef .tc main_arg6) = _
    after_results_simp
  g7 := by
    refine Eq.trans ?_ hb.g7
    show StableHlo.after hostOps1 (W2 m ρ c) (Proc.devRef .tc main_arg7) = _
    after_results_simp
  g8 := by
    refine Eq.trans ?_ hb.g8
    show StableHlo.after hostOps1 (W2 m ρ c) (Proc.devRef .tc main_arg8) = _
    after_results_simp
  g9 := by
    refine Eq.trans ?_ hb.g9
    show StableHlo.after hostOps1 (W2 m ρ c) (Proc.devRef .tc main_arg9) = _
    after_results_simp
  g10 := by
    refine Eq.trans ?_ hb.g10
    show StableHlo.after hostOps1 (W2 m ρ c) (Proc.devRef .tc main_arg10) = _
    after_results_simp

theorem h1_prev (hb : Base m c (W2 m ρ c)) (hh : W2 m ρ c (Proc.devRef .tc main_v4) = H0 m c) : W3 m ρ c (Proc.devRef .tc main_v4) = H0 m c := by
  refine Eq.trans ?_ hh
  show StableHlo.after hostOps1 (W2 m ρ c) (Proc.devRef .tc main_v4) = _
  after_results_simp

theorem h1_deg (hb : Base m c (W2 m ρ c)) (hh : W2 m ρ c (Proc.devRef .tc main_v4) = H0 m c) : W3 m ρ c (Proc.devRef .tc main_v11) = Cert.Sage.degCol (F := Ideal) (A1 m c) := by
  show StableHlo.after hostOps1 (W2 m ρ c) (Proc.devRef .tc main_v11) = _
  after_results_simp
  rw [hb.v3]
  rfl

theorem h1_agg (hb : Base m c (W2 m ρ c)) (hh : W2 m ρ c (Proc.devRef .tc main_v4) = H0 m c) : W3 m ρ c (Proc.devRef .tc main_v23) = Cert.Sage.agg (H0 m c) (A1 m c) := by
  show StableHlo.after hostOps1 (W2 m ρ c) (Proc.devRef .tc main_v23) = _
  after_results_simp
  rw [hb.v1, hb.v3, hh]
  rfl

theorem h1_v25 (hb : Base m c (W2 m ρ c)) (hh : W2 m ρ c (Proc.devRef .tc main_v4) = H0 m c) : W3 m ρ c (Proc.devRef .tc main_v25) = Cert.Sage.mat0 (A4 m c) := by
  show StableHlo.after hostOps1 (W2 m ρ c) (Proc.devRef .tc main_v25) = _
  after_results_simp
  rw [hb.g4]
  rfl

theorem h1_v27 (hb : Base m c (W2 m ρ c)) (hh : W2 m ρ c (Proc.devRef .tc main_v4) = H0 m c) : W3 m ρ c (Proc.devRef .tc main_v27) = Cert.Sage.vec0 (A5 m c) := by
  show StableHlo.after hostOps1 (W2 m ρ c) (Proc.devRef .tc main_v27) = _
  after_results_simp
  rw [hb.g5]
  rfl

theorem h1_v29 (hb : Base m c (W2 m ρ c)) (hh : W2 m ρ c (Proc.devRef .tc main_v4) = H0 m c) : W3 m ρ c (Proc.devRef .tc main_v29) = Cert.Sage.mat0 (A6 m c) := by
  show StableHlo.after hostOps1 (W2 m ρ c) (Proc.devRef .tc main_v29) = _
  after_results_simp
  rw [hb.g6]
  rfl

theorem h1_v31 (hb : Base m c (W2 m ρ c)) (hh : W2 m ρ c (Proc.devRef .tc main_v4) = H0 m c) : W3 m ρ c (Proc.devRef .tc main_v31) = Cert.Sage.vec0 (A7 m c) := by
  show StableHlo.after hostOps1 (W2 m ρ c) (Proc.devRef .tc main_v31) = _
  after_results_simp
  rw [hb.g7]
  rfl

theorem h1_v33 (hb : Base m c (W2 m ρ c)) (hh : W2 m ρ c (Proc.devRef .tc main_v4) = H0 m c) : W3 m ρ c (Proc.devRef .tc main_v33) = Cert.Sage.vec0 (A8 m c) := by
  show StableHlo.after hostOps1 (W2 m ρ c) (Proc.devRef .tc main_v33) = _
  after_results_simp
  rw [hb.g8]
  rfl

/-! ## The region -/

theorem baseOut1 (hb : Base m c (W2 m ρ c)) (hh : W2 m ρ c (Proc.devRef .tc main_v4) = H0 m c) : Base m c (W4 m ρ c) where
  v1 := (W4_of_ne m ρ c main_v1 (by decide)).trans (keep1 m ρ c hb hh).v1
  v3 := (W4_of_ne m ρ c main_v3 (by decide)).trans (keep1 m ρ c hb hh).v3
  g4 := (W4_of_ne m ρ c main_arg4 (by decide)).trans (keep1 m ρ c hb hh).g4
  g5 := (W4_of_ne m ρ c main_arg5 (by decide)).trans (keep1 m ρ c hb hh).g5
  g6 := (W4_of_ne m ρ c main_arg6 (by decide)).trans (keep1 m ρ c hb hh).g6
  g7 := (W4_of_ne m ρ c main_arg7 (by decide)).trans (keep1 m ρ c hb hh).g7
  g8 := (W4_of_ne m ρ c main_arg8 (by decide)).trans (keep1 m ρ c hb hh).g8
  g9 := (W4_of_ne m ρ c main_arg9 (by decide)).trans (keep1 m ρ c hb hh).g9
  g10 := (W4_of_ne m ρ c main_arg10 (by decide)).trans (keep1 m ρ c hb hh).g10

theorem deg1 (hb : Base m c (W2 m ρ c)) (hh : W2 m ρ c (Proc.devRef .tc main_v4) = H0 m c) : W4 m ρ c (Proc.devRef .tc main_v11) = Cert.Sage.degCol (F := Ideal) (A1 m c) :=
  (W4_of_ne m ρ c main_v11 (by decide)).trans (h1_deg m ρ c hb hh)

/-- The region leaves the layer's rows. -/
theorem out1 (hb : Base m c (W2 m ρ c)) (hh : W2 m ρ c (Proc.devRef .tc main_v4) = H0 m c) : W4 m ρ c (Proc.devRef .tc main_v34) = H1 m c := by
  refine (W4_arr m ρ c 7).trans ((Cert.Sage.Region1.final (V3 m ρ) c).trans ?_)
  show layerT (W3 m ρ c (Proc.devRef .tc main_v23)) (W3 m ρ c (Proc.devRef .tc main_v4)) (W3 m ρ c (Proc.devRef .tc main_v25)) (W3 m ρ c (Proc.devRef .tc main_v27)) (W3 m ρ c (Proc.devRef .tc main_v29)) (W3 m ρ c (Proc.devRef .tc main_v31)) (W3 m ρ c (Proc.devRef .tc main_v33)) = _
  rw [h1_agg m ρ c hb hh, h1_prev m ρ c hb hh, h1_v25 m ρ c hb hh, h1_v27 m ρ c hb hh, h1_v29 m ρ c hb hh, h1_v31 m ρ c hb hh, h1_v33 m ρ c hb hh]
  exact (Cert.Sage.layer_eq _ _ _ _ _ _ _).symm

end Cert.Sage.Chain

end
-- ==== Proof.Region2.lean ====
/-
  Region 2 of the idealized kernel (a graph-convolution layer tiled over 2000-row blocks), from blocks to the array.
  At any contents `V` of the buffers when the region is entered, the result array after the region's write-backs is the
  layer's row formula applied to every row of the aggregated rows and the node rows as `V` holds them: point `t`
  writes back rows `2000·t … 2000·t + 1999` (the two row-blocked inputs read at the same rows, the weights whole),
  and the fifty blocks tile the 100000 rows.
-/
import proofs.«182089_j86543591014918_2_alg».proof.Proof.TileStages

noncomputable section

namespace Cert.Sage.Region2

open Idealize.ShloMosaic Idealize.ShloMosaic.TcCoe Idealize.ShloMosaic.ValueIdx Idealize.SL.Sem
open Idealize.ShloMosaic.Pipeline (Dat)
open Cert.KernelIdeal Cert.KernelIdeal.Gen Cert.SageRows Cert.Sage.Tile

variable (V : (c : Dev nD) → (b : Ref sig .tc) → Buf (Elt Ideal) ((c : Thread nD τ).loc b))

/-- The printed index maps at a point: the row-blocked windows move with the point, the others stay on block zero. -/
structure IdxFacts (t : Fin grid2.N) : Prop where
  w0 : win2_0.index t (0 : Fin 2) = t.val ∧ win2_0.index t (1 : Fin 2) = 0
  w1 : win2_1.index t (0 : Fin 2) = t.val ∧ win2_1.index t (1 : Fin 2) = 0
  w2 : win2_2.index t (0 : Fin 2) = 0 ∧ win2_2.index t (1 : Fin 2) = 0
  w3 : win2_3.index t (0 : Fin 1) = 0
  w4 : win2_4.index t (0 : Fin 2) = 0 ∧ win2_4.index t (1 : Fin 2) = 0
  w5 : win2_5.index t (0 : Fin 1) = 0
  w6 : win2_6.index t (0 : Fin 1) = 0
  w7 : win2_7.index t (0 : Fin 2) = t.val ∧ win2_7.index t (1 : Fin 2) = 0

theorem idx : ∀ t : Fin cfg2.N, IdxFacts t := fun t => by
  have h := (by decide +kernel : ∀ t : Fin grid2.N, (win2_0.index t (0 : Fin 2) = t.val ∧ win2_0.index t (1 : Fin 2) = 0) ∧ (win2_1.index t (0 : Fin 2) = t.val ∧ win2_1.index t (1 : Fin 2) = 0) ∧ (win2_2.index t (0 : Fin 2) = 0 ∧ win2_2.index t (1 : Fin 2) = 0) ∧ (win2_3.index t (0 : Fin 1) = 0) ∧ (win2_4.index t (0 : Fin 2) = 0 ∧ win2_4.index t (1 : Fin 2) = 0) ∧ (win2_5.index t (0 : Fin 1) = 0) ∧ (win2_6.index t (0 : Fin 1) = 0) ∧ (win2_7.index t (0 : Fin 2) = t.val ∧ win2_7.index t (1 : Fin 2) = 0)) t
  obtain ⟨h0, h1, h2, h3, h4, h5, h6, h7⟩ := h
  exact ⟨h0, h1, h2, h3, h4, h5, h6, h7⟩

/-- Input window 0's block at point `t` is rows `2000·t … 2000·t + 1999` of its array. -/
theorem rows0 (c : Dev nD) (t : Fin cfg2.N) (p : Fin 2000) (P : Fin 100000) (hP : P.val = t.val * 2000 + p.val) (k : Fin 64) :
    (iblk2 V c 0 t : Vec Ideal S2000x64 .f32) (ix2 p k) = (V c main_v46 : S100000x64.Idx → Elt Ideal .f32) (ix2 P k) := by
  have e := idx t
  unfold iblk2
  rw [View.read_apply]
  refine congrArg (V c main_v46 : S100000x64.Idx → Elt Ideal .f32) (funext fun a => Fin.ext ?_)
  match a with
  | ⟨0, _⟩ => show win2_0.index t (0 : Fin 2) * 2000 + 1 * p.val = P.val; rw [(e.w0).1, hP]; omega
  | ⟨1, _⟩ => show win2_0.index t (1 : Fin 2) * 64 + 1 * k.val = k.val; rw [(e.w0).2]; omega

/-- Input window 1's block at point `t` is rows `2000·t … 2000·t + 1999` of its array. -/
theorem rows1 (c : Dev nD) (t : Fin cfg2.N) (p : Fin 2000) (P : Fin 100000) (hP : P.val = t.val * 2000 + p.val) (k : Fin 64) :
    (iblk2 V c 1 t : Vec Ideal S2000x64 .f32) (ix2 p k) = (V c main_v34 : S100000x64.Idx → Elt Ideal .f32) (ix2 P k) := by
  have e := idx t
  unfold iblk2
  rw [View.read_apply]
  refine congrArg (V c main_v34 : S100000x64.Idx → Elt Ideal .f32) (funext fun a => Fin.ext ?_)
  match a with
  | ⟨0, _⟩ => show win2_1.index t (0 : Fin 2) * 2000 + 1 * p.val = P.val; rw [(e.w1).1, hP]; omega
  | ⟨1, _⟩ => show win2_1.index t (1 : Fin 2) * 64 + 1 * k.val = k.val; rw [(e.w1).2]; omega

/-- Input window 2's block at every point is its whole array. -/
theorem whole2 (c : Dev nD) (t : Fin cfg2.N) : (iblk2 V c 2 t : Vec Ideal S64x64 .f32) = (V c main_v48 : S64x64.Idx → Elt Ideal .f32) := by
  have e := idx t
  funext j
  unfold iblk2
  rw [View.read_apply]
  refine congrArg (V c main_v48 : S64x64.Idx → Elt Ideal .f32) (funext fun a => Fin.ext ?_)
  match a with
  | ⟨0, _⟩ => show win2_2.index t (0 : Fin 2) * 64 + 1 * (j 0).val = (j 0).val; rw [(e.w2).1]; omega
  | ⟨1, _⟩ => show win2_2.index t (1 : Fin 2) * 64 + 1 * (j 1).val = (j 1).val; rw [(e.w2).2]; omega

/-- Input window 3's block at every point is its whole array. -/
theorem whole3 (c : Dev nD) (t : Fin cfg2.N) : (iblk2 V c 3 t : Vec Ideal S64 .f32) = (V c main_v50 : S64.Idx → Elt Ideal .f32) := by
  have e := idx t
  funext j
  unfold iblk2
  rw [View.read_apply]
  refine congrArg (V c main_v50 : S64.Idx → Elt Ideal .f32) (funext fun a => Fin.ext ?_)
  match a with
  | ⟨0, _⟩ => show win2_3.index t (0 : Fin 1) * 64 + 1 * (j 0).val = (j 0).val; rw [e.w3]; omega

/-- Input window 4's block at every point is its whole array. -/
theorem whole4 (c : Dev nD) (t : Fin cfg2.N) : (iblk2 V c 4 t : Vec Ideal S64x64 .f32) = (V c main_v52 : S64x64.Idx → Elt Ideal .f32) := by
  have e := idx t
  funext j
  unfold iblk2
  rw [View.read_apply]
  refine congrArg (V c main_v52 : S64x64.Idx → Elt Ideal .f32) (funext fun a => Fin.ext ?_)
  match a with
  | ⟨0, _⟩ => show win2_4.index t (0 : Fin 2) * 64 + 1 * (j 0).val = (j 0).val; rw [(e.w4).1]; omega
  | ⟨1, _⟩ => show win2_4.index t (1 : Fin 2) * 64 + 1 * (j 1).val = (j 1).val; rw [(e.w4).2]; omega

/-- Input window 5's block at every point is its whole array. -/
theorem whole5 (c : Dev nD) (t : Fin cfg2.N) : (iblk2 V c 5 t : Vec Ideal S64 .f32) = (V c main_v54 : S64.Idx → Elt Ideal .f32) := by
  have e := idx t
  funext j
  unfold iblk2
  rw [View.read_apply]
  refine congrArg (V c main_v54 : S64.Idx → Elt Ideal .f32) (funext fun a => Fin.ext ?_)
  match a with
  | ⟨0, _⟩ => show win2_5.index t (0 : Fin 1) * 64 + 1 * (j 0).val = (j 0).val; rw [e.w5]; omega

/-- Input window 6's block at every point is its whole array. -/
theorem whole6 (c : Dev nD) (t : Fin cfg2.N) : (iblk2 V c 6 t : Vec Ideal S64 .f32) = (V c main_v56 : S64.Idx → Elt Ideal .f32) := by
  have e := idx t
  funext j
  unfold iblk2
  rw [View.read_apply]
  refine congrArg (V c main_v56 : S64.Idx → Elt Ideal .f32) (funext fun a => Fin.ext ?_)
  match a with
  | ⟨0, _⟩ => show win2_6.index t (0 : Fin 1) * 64 + 1 * (j 0).val = (j 0).val; rw [e.w6]; omega

/-- WHAT POINT `t` WRITES BACK is block `t` of the layer's rows over the arrays as the region finds them. -/
theorem flushed_eq (c : Dev nD) (t : Fin cfg2.N) :
    (dat2 V c).flushed 7 t = ((cfg2.win 7).blk t).view.read (Elt Ideal)
      (layerT (V c main_v46 : S100000x64.Idx → Elt Ideal .f32) (V c main_v34 : S100000x64.Idx → Elt Ideal .f32) (V c main_v48 : S64x64.Idx → Elt Ideal .f32) (V c main_v50 : S64.Idx → Elt Ideal .f32) (V c main_v52 : S64x64.Idx → Elt Ideal .f32) (V c main_v54 : S64.Idx → Elt Ideal .f32) (V c main_v56 : S64.Idx → Elt Ideal .f32)) := by
  have e := idx t
  have hN : grid2.N = 50 := N_2
  have ht : t.val < 50 := Nat.lt_of_lt_of_eq t.isLt (show cfg2.N = 50 from N_2)
  show (cfg2.win 7).cut (grid2.coords t) ((dat2 V c).after 7 t) = _
  rw [after2_7]
  funext y
  obtain ⟨p, q, rfl⟩ : ∃ (p : Fin 2000) (q : Fin 64), y = ix2 p q := ⟨y 0, y 1, eq_ix2 y⟩
  have hp : t.val * 2000 + p.val < 100000 := by have := p.isLt; omega
  have hemb : ((cfg2.win 7).blk t).view.emb (ix2 p q) = (ix2 (⟨t.val * 2000 + p.val, hp⟩ : Fin 100000) q : S100000x64.Idx) :=
    funext fun a => Fin.ext (by
      match a with
      | ⟨0, _⟩ => show win2_7.index t (0 : Fin 2) * 2000 + 1 * p.val = t.val * 2000 + p.val; rw [(e.w7).1]; omega
      | ⟨1, _⟩ => show win2_7.index t (1 : Fin 2) * 64 + 1 * q.val = q.val; rw [(e.w7).2]; omega)
  show out2_7 (iblk2 V c 0 t) (iblk2 V c 1 t) (iblk2 V c 2 t) (iblk2 V c 3 t) (iblk2 V c 4 t) (iblk2 V c 5 t) (iblk2 V c 6 t) (ix2 p q)
    = (layerT (V c main_v46 : S100000x64.Idx → Elt Ideal .f32) (V c main_v34 : S100000x64.Idx → Elt Ideal .f32) (V c main_v48 : S64x64.Idx → Elt Ideal .f32) (V c main_v50 : S64.Idx → Elt Ideal .f32) (V c main_v52 : S64x64.Idx → Elt Ideal .f32) (V c main_v54 : S64.Idx → Elt Ideal .f32) (V c main_v56 : S64.Idx → Elt Ideal .f32)) (((cfg2.win 7).blk t).view.emb (ix2 p q))
  rw [hemb, layerT_apply]
  refine (out2_7_apply _ _ _ _ _ _ _ p q).trans ?_
  rw [whole2 V c t, whole3 V c t, whole4 V c t, whole5 V c t, whole6 V c t]
  have h0 : row (iblk2 V c 0 t : Vec Ideal S2000x64 .f32) p = row (V c main_v46 : S100000x64.Idx → Elt Ideal .f32) ⟨t.val * 2000 + p.val, hp⟩ :=
    funext fun k => rows0 V c t p _ rfl k
  have h1 : row (iblk2 V c 1 t : Vec Ideal S2000x64 .f32) p = row (V c main_v34 : S100000x64.Idx → Elt Ideal .f32) ⟨t.val * 2000 + p.val, hp⟩ :=
    funext fun k => rows1 V c t p _ rfl k
  rw [h0, h1]

/-- An index of the result array is in point `t`'s block iff each coordinate is in the block's range on its axis. -/
theorem mem_blk (t : Fin cfg2.N) (i : S100000x64.Idx) :
    i ∈ ((cfg2.win 7).blk t).view.set ↔ ∀ a : Fin 2, win2_7.index t a * S2000x64.size a ≤ (i a).val ∧ (i a).val < win2_7.index t a * S2000x64.size a + S2000x64.size a := by
  show i ∈ ((View.whole main_v57).slice (win2_7.rect t)).set ↔ _
  rw [View.set_slice_whole, Rect.mem_set_unit]
  exact Iff.rfl

/-- Every row of the result array is in the block of the point its number divided by 2000 names. -/
theorem cover (i : S100000x64.Idx) : ∃ t : Fin cfg2.N, (cfg2.win 7).flush t = true ∧ i ∈ ((cfg2.win 7).blk t).view.set := by
  have hi0 : (i 0).val < 100000 := (i 0).isLt
  have hi1 : (i 1).val < 64 := (i 1).isLt
  have hN : grid2.N = 50 := N_2
  have ht : (i 0).val / 2000 < grid2.N := by rw [hN]; omega
  have e := idx ⟨(i 0).val / 2000, ht⟩
  refine ⟨⟨(i 0).val / 2000, ht⟩, flush2_7 _, ?_⟩
  rw [mem_blk]
  intro a
  match a with
  | ⟨0, _⟩ =>
    show win2_7.index ⟨(i 0).val / 2000, ht⟩ (0 : Fin 2) * 2000 ≤ (i 0).val ∧ (i 0).val < win2_7.index ⟨(i 0).val / 2000, ht⟩ (0 : Fin 2) * 2000 + 2000
    rw [(e.w7).1]; show (i 0).val / 2000 * 2000 ≤ (i 0).val ∧ (i 0).val < (i 0).val / 2000 * 2000 + 2000; omega
  | ⟨1, _⟩ =>
    show win2_7.index ⟨(i 0).val / 2000, ht⟩ (1 : Fin 2) * 64 ≤ (i 1).val ∧ (i 1).val < win2_7.index ⟨(i 0).val / 2000, ht⟩ (1 : Fin 2) * 64 + 64
    rw [(e.w7).2]; omega

/-- THE ARRAY after the region: the layer's rows of the arrays as the region finds them. -/
theorem final (c : Dev nD) : (dat2 V c).arrAt 7 cfg2.N = (layerT (V c main_v46 : S100000x64.Idx → Elt Ideal .f32) (V c main_v34 : S100000x64.Idx → Elt Ideal .f32) (V c main_v48 : S64x64.Idx → Elt Ideal .f32) (V c main_v50 : S64.Idx → Elt Ideal .f32) (V c main_v52 : S64x64.Idx → Elt Ideal .f32) (V c main_v54 : S64.Idx → Elt Ideal .f32) (V c main_v56 : S64.Idx → Elt Ideal .f32)) :=
  (dat2 V c).arrAt_eq_of_cover 7 _ (fun t _ => flushed_eq V c t) (fun i => cover i)

end Cert.Sage.Region2

end
-- ==== Proof.Chain2.lean ====
/-
  Layer 2 of the idealized kernel, from the exit of the region before it to its own region's exit: the host stretch
  gathers the node rows at the sources, adds them up at the destinations and divides by the degree, and slices the
  layer's parameters out of the arguments; the region then leaves the layer's rows. Stated from what the boundary
  before holds.
-/
import proofs.«182089_j86543591014918_2_alg».proof.Proof.ChainBase
import proofs.«182089_j86543591014918_2_alg».proof.Proof.Region2
import proofs.«182089_j86543591014918_2_alg».proof.Proof.RefStages
import Idealize.ShloMosaic.Lib.StableHlo.Run

noncomputable section

namespace Cert.Sage.Chain

open Idealize.ShloMosaic Idealize.ShloMosaic.TcCoe Idealize.SL.Sem Idealize.ShloMosaic.StableHlo
open Cert.KernelIdeal Cert.KernelIdeal.Gen Cert.SageRows

variable (m : (ℓ : Loc nD τ sig) → Buf (Elt Ideal) ℓ) (ρ : Dev nD → PrngReg) (c : Dev nD)

set_option maxHeartbeats 2000000

/-! ## The host stretch -/

theorem keep2 (hb : Base m c (W4 m ρ c)) (hh : W4 m ρ c (Proc.devRef .tc main_v34) = H1 m c) (hd : W4 m ρ c (Proc.devRef .tc main_v11) = Cert.Sage.degCol (F := Ideal) (A1 m c)) : Base m c (W5 m ρ c) where
  v1 := by
    refine Eq.trans ?_ hb.v1
    show StableHlo.after hostOps2 (W4 m ρ c) (Proc.devRef .tc main_v1) = _
    after_results_simp
  v3 := by
    refine Eq.trans ?_ hb.v3
    show StableHlo.after hostOps2 (W4 m ρ c) (Proc.devRef .tc main_v3) = _
    after_results_simp
  g4 := by
    refine Eq.trans ?_ hb.g4
    show StableHlo.after hostOps2 (W4 m ρ c) (Proc.devRef .tc main_arg4) = _
    after_results_simp
  g5 := by
    refine Eq.trans ?_ hb.g5
    show StableHlo.after hostOps2 (W4 m ρ c) (Proc.devRef .tc main_arg5) = _
    after_results_simp
  g6 := by
    refine Eq.trans ?_ hb.g6
    show StableHlo.after hostOps2 (W4 m ρ c) (Proc.devRef .tc main_arg6) = _
    after_results_simp
  g7 := by
    refine Eq.trans ?_ hb.g7
    show StableHlo.after hostOps2 (W4 m ρ c) (Proc.devRef .tc main_arg7) = _
    after_results_simp
  g8 := by
    refine Eq.trans ?_ hb.g8
    show StableHlo.after hostOps2 (W4 m ρ c) (Proc.devRef .tc main_arg8) = _
    after_results_simp
  g9 := by
    refine Eq.trans ?_ hb.g9
    show StableHlo.after hostOps2 (W4 m ρ c) (Proc.devRef .tc main_arg9) = _
    after_results_simp
  g10 := by
    refine Eq.trans ?_ hb.g10
    show StableHlo.after hostOps2 (W4 m ρ c) (Proc.devRef .tc main_arg10) = _
    after_results_simp

theorem h2_prev (hb : Base m c (W4 m ρ c)) (hh : W4 m ρ c (Proc.devRef .tc main_v34) = H1 m c) (hd : W4 m ρ c (Proc.devRef .tc main_v11) = Cert.Sage.degCol (F := Ideal) (A1 m c)) : W5 m ρ c (Proc.devRef .tc main_v34) = H1 m c := by
  refine Eq.trans ?_ hh
  show StableHlo.after hostOps2 (W4 m ρ c) (Proc.devRef .tc main_v34) = _
  after_results_simp

theorem h2_deg (hb : Base m c (W4 m ρ c)) (hh : W4 m ρ c (Proc.devRef .tc main_v34) = H1 m c) (hd : W4 m ρ c (Proc.devRef .tc main_v11) = Cert.Sage.degCol (F := Ideal) (A1 m c)) : W5 m ρ c (Proc.devRef .tc main_v11) = Cert.Sage.degCol (F := Ideal) (A1 m c) := by
  refine Eq.trans ?_ hd
  show StableHlo.after hostOps2 (W4 m ρ c) (Proc.devRef .tc main_v11) = _
  after_results_simp

theorem h2_agg (hb : Base m c (W4 m ρ c)) (hh : W4 m ρ c (Proc.devRef .tc main_v34) = H1 m c) (hd : W4 m ρ c (Proc.devRef .tc main_v11) = Cert.Sage.degCol (F := Ideal) (A1 m c)) : W5 m ρ c (Proc.devRef .tc main_v46) = Cert.Sage.agg (H1 m c) (A1 m c) := by
  show StableHlo.after hostOps2 (W4 m ρ c) (Proc.devRef .tc main_v46) = _
  after_results_simp
  rw [hb.v1, hb.v3, hh, hd]
  rfl

theorem h2_v48 (hb : Base m c (W4 m ρ c)) (hh : W4 m ρ c (Proc.devRef .tc main_v34) = H1 m c) (hd : W4 m ρ c (Proc.devRef .tc main_v11) = Cert.Sage.degCol (F := Ideal) (A1 m c)) : W5 m ρ c (Proc.devRef .tc main_v48) = Cert.Sage.mat1 (A4 m c) := by
  show StableHlo.after hostOps2 (W4 m ρ c) (Proc.devRef .tc main_v48) = _
  after_results_simp
  rw [hb.g4]
  rfl

theorem h2_v50 (hb : Base m c (W4 m ρ c)) (hh : W4 m ρ c (Proc.devRef .tc main_v34) = H1 m c) (hd : W4 m ρ c (Proc.devRef .tc main_v11) = Cert.Sage.degCol (F := Ideal) (A1 m c)) : W5 m ρ c (Proc.devRef .tc main_v50) = Cert.Sage.vec1 (A5 m c) := by
  show StableHlo.after hostOps2 (W4 m ρ c) (Proc.devRef .tc main_v50) = _
  after_results_simp
  rw [hb.g5]
  rfl

theorem h2_v52 (hb : Base m c (W4 m ρ c)) (hh : W4 m ρ c (Proc.devRef .tc main_v34) = H1 m c) (hd : W4 m ρ c (Proc.devRef .tc main_v11) = Cert.Sage.degCol (F := Ideal) (A1 m c)) : W5 m ρ c (Proc.devRef .tc main_v52) = Cert.Sage.mat1 (A6 m c) := by
  show StableHlo.after hostOps2 (W4 m ρ c) (Proc.devRef .tc main_v52) = _
  after_results_simp
  rw [hb.g6]
  rfl

theorem h2_v54 (hb : Base m c (W4 m ρ c)) (hh : W4 m ρ c (Proc.devRef .tc main_v34) = H1 m c) (hd : W4 m ρ c (Proc.devRef .tc main_v11) = Cert.Sage.degCol (F := Ideal) (A1 m c)) : W5 m ρ c (Proc.devRef .tc main_v54) = Cert.Sage.vec1 (A7 m c) := by
  show StableHlo.after hostOps2 (W4 m ρ c) (Proc.devRef .tc main_v54) = _
  after_results_simp
  rw [hb.g7]
  rfl

theorem h2_v56 (hb : Base m c (W4 m ρ c)) (hh : W4 m ρ c (Proc.devRef .tc main_v34) = H1 m c) (hd : W4 m ρ c (Proc.devRef .tc main_v11) = Cert.Sage.degCol (F := Ideal) (A1 m c)) : W5 m ρ c (Proc.devRef .tc main_v56) = Cert.Sage.vec1 (A8 m c) := by
  show StableHlo.after hostOps2 (W4 m ρ c) (Proc.devRef .tc main_v56) = _
  after_results_simp
  rw [hb.g8]
  rfl

/-! ## The region -/

theorem baseOut2 (hb : Base m c (W4 m ρ c)) (hh : W4 m ρ c (Proc.devRef .tc main_v34) = H1 m c) (hd : W4 m ρ c (Proc.devRef .tc main_v11) = Cert.Sage.degCol (F := Ideal) (A1 m c)) : Base m c (W6 m ρ c) where
  v1 := (W6_of_ne m ρ c main_v1 (by decide)).trans (keep2 m ρ c hb hh hd).v1
  v3 := (W6_of_ne m ρ c main_v3 (by decide)).trans (keep2 m ρ c hb hh hd).v3
  g4 := (W6_of_ne m ρ c main_arg4 (by decide)).trans (keep2 m ρ c hb hh hd).g4
  g5 := (W6_of_ne m ρ c main_arg5 (by decide)).trans (keep2 m ρ c hb hh hd).g5
  g6 := (W6_of_ne m ρ c main_arg6 (by decide)).trans (keep2 m ρ c hb hh hd).g6
  g7 := (W6_of_ne m ρ c main_arg7 (by decide)).trans (keep2 m ρ c hb hh hd).g7
  g8 := (W6_of_ne m ρ c main_arg8 (by decide)).trans (keep2 m ρ c hb hh hd).g8
  g9 := (W6_of_ne m ρ c main_arg9 (by decide)).trans (keep2 m ρ c hb hh hd).g9
  g10 := (W6_of_ne m ρ c main_arg10 (by decide)).trans (keep2 m ρ c hb hh hd).g10

theorem deg2 (hb : Base m c (W4 m ρ c)) (hh : W4 m ρ c (Proc.devRef .tc main_v34) = H1 m c) (hd : W4 m ρ c (Proc.devRef .tc main_v11) = Cert.Sage.degCol (F := Ideal) (A1 m c)) : W6 m ρ c (Proc.devRef .tc main_v11) = Cert.Sage.degCol (F := Ideal) (A1 m c) :=
  (W6_of_ne m ρ c main_v11 (by decide)).trans (h2_deg m ρ c hb hh hd)

/-- The region leaves the layer's rows. -/
theorem out2 (hb : Base m c (W4 m ρ c)) (hh : W4 m ρ c (Proc.devRef .tc main_v34) = H1 m c) (hd : W4 m ρ c (Proc.devRef .tc main_v11) = Cert.Sage.degCol (F := Ideal) (A1 m c)) : W6 m ρ c (Proc.devRef .tc main_v57) = H2 m c := by
  refine (W6_arr m ρ c 7).trans ((Cert.Sage.Region2.final (V5 m ρ) c).trans ?_)
  show layerT (W5 m ρ c (Proc.devRef .tc main_v46)) (W5 m ρ c (Proc.devRef .tc main_v34)) (W5 m ρ c (Proc.devRef .tc main_v48)) (W5 m ρ c (Proc.devRef .tc main_v50)) (W5 m ρ c (Proc.devRef .tc main_v52)) (W5 m ρ c (Proc.devRef .tc main_v54)) (W5 m ρ c (Proc.devRef .tc main_v56)) = _
  rw [h2_agg m ρ c hb hh hd, h2_prev m ρ c hb hh hd, h2_v48 m ρ c hb hh hd, h2_v50 m ρ c hb hh hd, h2_v52 m ρ c hb hh hd, h2_v54 m ρ c hb hh hd, h2_v56 m ρ c hb hh hd]
  exact (Cert.Sage.layer_eq _ _ _ _ _ _ _).symm

end Cert.Sage.Chain

end
-- ==== Proof.Region3.lean ====
/-
  Region 3 of the idealized kernel (a graph-convolution layer tiled over 2000-row blocks), from blocks to the array.
  At any contents `V` of the buffers when the region is entered, the result array after the region's write-backs is the
  layer's row formula applied to every row of the aggregated rows and the node rows as `V` holds them: point `t`
  writes back rows `2000·t … 2000·t + 1999` (the two row-blocked inputs read at the same rows, the weights whole),
  and the fifty blocks tile the 100000 rows.
-/
import proofs.«182089_j86543591014918_2_alg».proof.Proof.TileStages

noncomputable section

namespace Cert.Sage.Region3

open Idealize.ShloMosaic Idealize.ShloMosaic.TcCoe Idealize.ShloMosaic.ValueIdx Idealize.SL.Sem
open Idealize.ShloMosaic.Pipeline (Dat)
open Cert.KernelIdeal Cert.KernelIdeal.Gen Cert.SageRows Cert.Sage.Tile

variable (V : (c : Dev nD) → (b : Ref sig .tc) → Buf (Elt Ideal) ((c : Thread nD τ).loc b))

/-- The printed index maps at a point: the row-blocked windows move with the point, the others stay on block zero. -/
structure IdxFacts (t : Fin grid3.N) : Prop where
  w0 : win3_0.index t (0 : Fin 2) = t.val ∧ win3_0.index t (1 : Fin 2) = 0
  w1 : win3_1.index t (0 : Fin 2) = t.val ∧ win3_1.index t (1 : Fin 2) = 0
  w2 : win3_2.index t (0 : Fin 2) = 0 ∧ win3_2.index t (1 : Fin 2) = 0
  w3 : win3_3.index t (0 : Fin 1) = 0
  w4 : win3_4.index t (0 : Fin 2) = 0 ∧ win3_4.index t (1 : Fin 2) = 0
  w5 : win3_5.index t (0 : Fin 1) = 0
  w6 : win3_6.index t (0 : Fin 1) = 0
  w7 : win3_7.index t (0 : Fin 2) = t.val ∧ win3_7.index t (1 : Fin 2) = 0

theorem idx : ∀ t : Fin cfg3.N, IdxFacts t := fun t => by
  have h := (by decide +kernel : ∀ t : Fin grid3.N, (win3_0.index t (0 : Fin 2) = t.val ∧ win3_0.index t (1 : Fin 2) = 0) ∧ (win3_1.index t (0 : Fin 2) = t.val ∧ win3_1.index t (1 : Fin 2) = 0) ∧ (win3_2.index t (0 : Fin 2) = 0 ∧ win3_2.index t (1 : Fin 2) = 0) ∧ (win3_3.index t (0 : Fin 1) = 0) ∧ (win3_4.index t (0 : Fin 2) = 0 ∧ win3_4.index t (1 : Fin 2) = 0) ∧ (win3_5.index t (0 : Fin 1) = 0) ∧ (win3_6.index t (0 : Fin 1) = 0) ∧ (win3_7.index t (0 : Fin 2) = t.val ∧ win3_7.index t (1 : Fin 2) = 0)) t
  obtain ⟨h0, h1, h2, h3, h4, h5, h6, h7⟩ := h
  exact ⟨h0, h1, h2, h3, h4, h5, h6, h7⟩

/-- Input window 0's block at point `t` is rows `2000·t … 2000·t + 1999` of its array. -/
theorem rows0 (c : Dev nD) (t : Fin cfg3.N) (p : Fin 2000) (P : Fin 100000) (hP : P.val = t.val * 2000 + p.val) (k : Fin 64) :
    (iblk3 V c 0 t : Vec Ideal S2000x64 .f32) (ix2 p k) = (V c main_v69 : S100000x64.Idx → Elt Ideal .f32) (ix2 P k) := by
  have e := idx t
  unfold iblk3
  rw [View.read_apply]
  refine congrArg (V c main_v69 : S100000x64.Idx → Elt Ideal .f32) (funext fun a => Fin.ext ?_)
  match a with
  | ⟨0, _⟩ => show win3_0.index t (0 : Fin 2) * 2000 + 1 * p.val = P.val; rw [(e.w0).1, hP]; omega
  | ⟨1, _⟩ => show win3_0.index t (1 : Fin 2) * 64 + 1 * k.val = k.val; rw [(e.w0).2]; omega

/-- Input window 1's block at point `t` is rows `2000·t … 2000·t + 1999` of its array. -/
theorem rows1 (c : Dev nD) (t : Fin cfg3.N) (p : Fin 2000) (P : Fin 100000) (hP : P.val = t.val * 2000 + p.val) (k : Fin 64) :
    (iblk3 V c 1 t : Vec Ideal S2000x64 .f32) (ix2 p k) = (V c main_v57 : S100000x64.Idx → Elt Ideal .f32) (ix2 P k) := by
  have e := idx t
  unfold iblk3
  rw [View.read_apply]
  refine congrArg (V c main_v57 : S100000x64.Idx → Elt Ideal .f32) (funext fun a => Fin.ext ?_)
  match a with
  | ⟨0, _⟩ => show win3_1.index t (0 : Fin 2) * 2000 + 1 * p.val = P.val; rw [(e.w1).1, hP]; omega
  | ⟨1, _⟩ => show win3_1.index t (1 : Fin 2) * 64 + 1 * k.val = k.val; rw [(e.w1).2]; omega

/-- Input window 2's block at every point is its whole array. -/
theorem whole2 (c : Dev nD) (t : Fin cfg3.N) : (iblk3 V c 2 t : Vec Ideal S64x64 .f32) = (V c main_v71 : S64x64.Idx → Elt Ideal .f32) := by
  have e := idx t
  funext j
  unfold iblk3
  rw [View.read_apply]
  refine congrArg (V c main_v71 : S64x64.Idx → Elt Ideal .f32) (funext fun a => Fin.ext ?_)
  match a with
  | ⟨0, _⟩ => show win3_2.index t (0 : Fin 2) * 64 + 1 * (j 0).val = (j 0).val; rw [(e.w2).1]; omega
  | ⟨1, _⟩ => show win3_2.index t (1 : Fin 2) * 64 + 1 * (j 1).val = (j 1).val; rw [(e.w2).2]; omega

/-- Input window 3's block at every point is its whole array. -/
theorem whole3 (c : Dev nD) (t : Fin cfg3.N) : (iblk3 V c 3 t : Vec Ideal S64 .f32) = (V c main_v73 : S64.Idx → Elt Ideal .f32) := by
  have e := idx t
  funext j
  unfold iblk3
  rw [View.read_apply]
  refine congrArg (V c main_v73 : S64.Idx → Elt Ideal .f32) (funext fun a => Fin.ext ?_)
  match a with
  | ⟨0, _⟩ => show win3_3.index t (0 : Fin 1) * 64 + 1 * (j 0).val = (j 0).val; rw [e.w3]; omega

/-- Input window 4's block at every point is its whole array. -/
theorem whole4 (c : Dev nD) (t : Fin cfg3.N) : (iblk3 V c 4 t : Vec Ideal S64x64 .f32) = (V c main_v75 : S64x64.Idx → Elt Ideal .f32) := by
  have e := idx t
  funext j
  unfold iblk3
  rw [View.read_apply]
  refine congrArg (V c main_v75 : S64x64.Idx → Elt Ideal .f32) (funext fun a => Fin.ext ?_)
  match a with
  | ⟨0, _⟩ => show win3_4.index t (0 : Fin 2) * 64 + 1 * (j 0).val = (j 0).val; rw [(e.w4).1]; omega
  | ⟨1, _⟩ => show win3_4.index t (1 : Fin 2) * 64 + 1 * (j 1).val = (j 1).val; rw [(e.w4).2]; omega

/-- Input window 5's block at every point is its whole array. -/
theorem whole5 (c : Dev nD) (t : Fin cfg3.N) : (iblk3 V c 5 t : Vec Ideal S64 .f32) = (V c main_v77 : S64.Idx → Elt Ideal .f32) := by
  have e := idx t
  funext j
  unfold iblk3
  rw [View.read_apply]
  refine congrArg (V c main_v77 : S64.Idx → Elt Ideal .f32) (funext fun a => Fin.ext ?_)
  match a with
  | ⟨0, _⟩ => show win3_5.index t (0 : Fin 1) * 64 + 1 * (j 0).val = (j 0).val; rw [e.w5]; omega

/-- Input window 6's block at every point is its whole array. -/
theorem whole6 (c : Dev nD) (t : Fin cfg3.N) : (iblk3 V c 6 t : Vec Ideal S64 .f32) = (V c main_v79 : S64.Idx → Elt Ideal .f32) := by
  have e := idx t
  funext j
  unfold iblk3
  rw [View.read_apply]
  refine congrArg (V c main_v79 : S64.Idx → Elt Ideal .f32) (funext fun a => Fin.ext ?_)
  match a with
  | ⟨0, _⟩ => show win3_6.index t (0 : Fin 1) * 64 + 1 * (j 0).val = (j 0).val; rw [e.w6]; omega

/-- WHAT POINT `t` WRITES BACK is block `t` of the layer's rows over the arrays as the region finds them. -/
theorem flushed_eq (c : Dev nD) (t : Fin cfg3.N) :
    (dat3 V c).flushed 7 t = ((cfg3.win 7).blk t).view.read (Elt Ideal)
      (layerT (V c main_v69 : S100000x64.Idx → Elt Ideal .f32) (V c main_v57 : S100000x64.Idx → Elt Ideal .f32) (V c main_v71 : S64x64.Idx → Elt Ideal .f32) (V c main_v73 : S64.Idx → Elt Ideal .f32) (V c main_v75 : S64x64.Idx → Elt Ideal .f32) (V c main_v77 : S64.Idx → Elt Ideal .f32) (V c main_v79 : S64.Idx → Elt Ideal .f32)) := by
  have e := idx t
  have hN : grid3.N = 50 := N_3
  have ht : t.val < 50 := Nat.lt_of_lt_of_eq t.isLt (show cfg3.N = 50 from N_3)
  show (cfg3.win 7).cut (grid3.coords t) ((dat3 V c).after 7 t) = _
  rw [after3_7]
  funext y
  obtain ⟨p, q, rfl⟩ : ∃ (p : Fin 2000) (q : Fin 64), y = ix2 p q := ⟨y 0, y 1, eq_ix2 y⟩
  have hp : t.val * 2000 + p.val < 100000 := by have := p.isLt; omega
  have hemb : ((cfg3.win 7).blk t).view.emb (ix2 p q) = (ix2 (⟨t.val * 2000 + p.val, hp⟩ : Fin 100000) q : S100000x64.Idx) :=
    funext fun a => Fin.ext (by
      match a with
      | ⟨0, _⟩ => show win3_7.index t (0 : Fin 2) * 2000 + 1 * p.val = t.val * 2000 + p.val; rw [(e.w7).1]; omega
      | ⟨1, _⟩ => show win3_7.index t (1 : Fin 2) * 64 + 1 * q.val = q.val; rw [(e.w7).2]; omega)
  show out3_7 (iblk3 V c 0 t) (iblk3 V c 1 t) (iblk3 V c 2 t) (iblk3 V c 3 t) (iblk3 V c 4 t) (iblk3 V c 5 t) (iblk3 V c 6 t) (ix2 p q)
    = (layerT (V c main_v69 : S100000x64.Idx → Elt Ideal .f32) (V c main_v57 : S100000x64.Idx → Elt Ideal .f32) (V c main_v71 : S64x64.Idx → Elt Ideal .f32) (V c main_v73 : S64.Idx → Elt Ideal .f32) (V c main_v75 : S64x64.Idx → Elt Ideal .f32) (V c main_v77 : S64.Idx → Elt Ideal .f32) (V c main_v79 : S64.Idx → Elt Ideal .f32)) (((cfg3.win 7).blk t).view.emb (ix2 p q))
  rw [hemb, layerT_apply]
  refine (out3_7_apply _ _ _ _ _ _ _ p q).trans ?_
  rw [whole2 V c t, whole3 V c t, whole4 V c t, whole5 V c t, whole6 V c t]
  have h0 : row (iblk3 V c 0 t : Vec Ideal S2000x64 .f32) p = row (V c main_v69 : S100000x64.Idx → Elt Ideal .f32) ⟨t.val * 2000 + p.val, hp⟩ :=
    funext fun k => rows0 V c t p _ rfl k
  have h1 : row (iblk3 V c 1 t : Vec Ideal S2000x64 .f32) p = row (V c main_v57 : S100000x64.Idx → Elt Ideal .f32) ⟨t.val * 2000 + p.val, hp⟩ :=
    funext fun k => rows1 V c t p _ rfl k
  rw [h0, h1]

/-- An index of the result array is in point `t`'s block iff each coordinate is in the block's range on its axis. -/
theorem mem_blk (t : Fin cfg3.N) (i : S100000x64.Idx) :
    i ∈ ((cfg3.win 7).blk t).view.set ↔ ∀ a : Fin 2, win3_7.index t a * S2000x64.size a ≤ (i a).val ∧ (i a).val < win3_7.index t a * S2000x64.size a + S2000x64.size a := by
  show i ∈ ((View.whole main_v80).slice (win3_7.rect t)).set ↔ _
  rw [View.set_slice_whole, Rect.mem_set_unit]
  exact Iff.rfl

/-- Every row of the result array is in the block of the point its number divided by 2000 names. -/
theorem cover (i : S100000x64.Idx) : ∃ t : Fin cfg3.N, (cfg3.win 7).flush t = true ∧ i ∈ ((cfg3.win 7).blk t).view.set := by
  have hi0 : (i 0).val < 100000 := (i 0).isLt
  have hi1 : (i 1).val < 64 := (i 1).isLt
  have hN : grid3.N = 50 := N_3
  have ht : (i 0).val / 2000 < grid3.N := by rw [hN]; omega
  have e := idx ⟨(i 0).val / 2000, ht⟩
  refine ⟨⟨(i 0).val / 2000, ht⟩, flush3_7 _, ?_⟩
  rw [mem_blk]
  intro a
  match a with
  | ⟨0, _⟩ =>
    show win3_7.index ⟨(i 0).val / 2000, ht⟩ (0 : Fin 2) * 2000 ≤ (i 0).val ∧ (i 0).val < win3_7.index ⟨(i 0).val / 2000, ht⟩ (0 : Fin 2) * 2000 + 2000
    rw [(e.w7).1]; show (i 0).val / 2000 * 2000 ≤ (i 0).val ∧ (i 0).val < (i 0).val / 2000 * 2000 + 2000; omega
  | ⟨1, _⟩ =>
    show win3_7.index ⟨(i 0).val / 2000, ht⟩ (1 : Fin 2) * 64 ≤ (i 1).val ∧ (i 1).val < win3_7.index ⟨(i 0).val / 2000, ht⟩ (1 : Fin 2) * 64 + 64
    rw [(e.w7).2]; omega

/-- THE ARRAY after the region: the layer's rows of the arrays as the region finds them. -/
theorem final (c : Dev nD) : (dat3 V c).arrAt 7 cfg3.N = (layerT (V c main_v69 : S100000x64.Idx → Elt Ideal .f32) (V c main_v57 : S100000x64.Idx → Elt Ideal .f32) (V c main_v71 : S64x64.Idx → Elt Ideal .f32) (V c main_v73 : S64.Idx → Elt Ideal .f32) (V c main_v75 : S64x64.Idx → Elt Ideal .f32) (V c main_v77 : S64.Idx → Elt Ideal .f32) (V c main_v79 : S64.Idx → Elt Ideal .f32)) :=
  (dat3 V c).arrAt_eq_of_cover 7 _ (fun t _ => flushed_eq V c t) (fun i => cover i)

end Cert.Sage.Region3

end
-- ==== Proof.Chain3.lean ====
/-
  Layer 3 of the idealized kernel, from the exit of the region before it to its own region's exit: the host stretch
  gathers the node rows at the sources, adds them up at the destinations and divides by the degree, and slices the
  layer's parameters out of the arguments; the region then leaves the layer's rows. Stated from what the boundary
  before holds.
-/
import proofs.«182089_j86543591014918_2_alg».proof.Proof.ChainBase
import proofs.«182089_j86543591014918_2_alg».proof.Proof.Region3
import proofs.«182089_j86543591014918_2_alg».proof.Proof.RefStages
import Idealize.ShloMosaic.Lib.StableHlo.Run

noncomputable section

namespace Cert.Sage.Chain

open Idealize.ShloMosaic Idealize.ShloMosaic.TcCoe Idealize.SL.Sem Idealize.ShloMosaic.StableHlo
open Cert.KernelIdeal Cert.KernelIdeal.Gen Cert.SageRows

variable (m : (ℓ : Loc nD τ sig) → Buf (Elt Ideal) ℓ) (ρ : Dev nD → PrngReg) (c : Dev nD)

set_option maxHeartbeats 2000000

/-! ## The host stretch -/

theorem keep3 (hb : Base m c (W6 m ρ c)) (hh : W6 m ρ c (Proc.devRef .tc main_v57) = H2 m c) (hd : W6 m ρ c (Proc.devRef .tc main_v11) = Cert.Sage.degCol (F := Ideal) (A1 m c)) : Base m c (W7 m ρ c) where
  v1 := by
    refine Eq.trans ?_ hb.v1
    show StableHlo.after hostOps3 (W6 m ρ c) (Proc.devRef .tc main_v1) = _
    after_results_simp
  v3 := by
    refine Eq.trans ?_ hb.v3
    show StableHlo.after hostOps3 (W6 m ρ c) (Proc.devRef .tc main_v3) = _
    after_results_simp
  g4 := by
    refine Eq.trans ?_ hb.g4
    show StableHlo.after hostOps3 (W6 m ρ c) (Proc.devRef .tc main_arg4) = _
    after_results_simp
  g5 := by
    refine Eq.trans ?_ hb.g5
    show StableHlo.after hostOps3 (W6 m ρ c) (Proc.devRef .tc main_arg5) = _
    after_results_simp
  g6 := by
    refine Eq.trans ?_ hb.g6
    show StableHlo.after hostOps3 (W6 m ρ c) (Proc.devRef .tc main_arg6) = _
    after_results_simp
  g7 := by
    refine Eq.trans ?_ hb.g7
    show StableHlo.after hostOps3 (W6 m ρ c) (Proc.devRef .tc main_arg7) = _
    after_results_simp
  g8 := by
    refine Eq.trans ?_ hb.g8
    show StableHlo.after hostOps3 (W6 m ρ c) (Proc.devRef .tc main_arg8) = _
    after_results_simp
  g9 := by
    refine Eq.trans ?_ hb.g9
    show StableHlo.after hostOps3 (W6 m ρ c) (Proc.devRef .tc main_arg9) = _
    after_results_simp
  g10 := by
    refine Eq.trans ?_ hb.g10
    show StableHlo.after hostOps3 (W6 m ρ c) (Proc.devRef .tc main_arg10) = _
    after_results_simp

theorem h3_prev (hb : Base m c (W6 m ρ c)) (hh : W6 m ρ c (Proc.devRef .tc main_v57) = H2 m c) (hd : W6 m ρ c (Proc.devRef .tc main_v11) = Cert.Sage.degCol (F := Ideal) (A1 m c)) : W7 m ρ c (Proc.devRef .tc main_v57) = H2 m c := by
  refine Eq.trans ?_ hh
  show StableHlo.after hostOps3 (W6 m ρ c) (Proc.devRef .tc main_v57) = _
  after_results_simp

theorem h3_deg (hb : Base m c (W6 m ρ c)) (hh : W6 m ρ c (Proc.devRef .tc main_v57) = H2 m c) (hd : W6 m ρ c (Proc.devRef .tc main_v11) = Cert.Sage.degCol (F := Ideal) (A1 m c)) : W7 m ρ c (Proc.devRef .tc main_v11) = Cert.Sage.degCol (F := Ideal) (A1 m c) := by
  refine Eq.trans ?_ hd
  show StableHlo.after hostOps3 (W6 m ρ c) (Proc.devRef .tc main_v11) = _
  after_results_simp

theorem h3_agg (hb : Base m c (W6 m ρ c)) (hh : W6 m ρ c (Proc.devRef .tc main_v57) = H2 m c) (hd : W6 m ρ c (Proc.devRef .tc main_v11) = Cert.Sage.degCol (F := Ideal) (A1 m c)) : W7 m ρ c (Proc.devRef .tc main_v69) = Cert.Sage.agg (H2 m c) (A1 m c) := by
  show StableHlo.after hostOps3 (W6 m ρ c) (Proc.devRef .tc main_v69) = _
  after_results_simp
  rw [hb.v1, hb.v3, hh, hd]
  rfl

theorem h3_v71 (hb : Base m c (W6 m ρ c)) (hh : W6 m ρ c (Proc.devRef .tc main_v57) = H2 m c) (hd : W6 m ρ c (Proc.devRef .tc main_v11) = Cert.Sage.degCol (F := Ideal) (A1 m c)) : W7 m ρ c (Proc.devRef .tc main_v71) = Cert.Sage.mat2 (A4 m c) := by
  show StableHlo.after hostOps3 (W6 m ρ c) (Proc.devRef .tc main_v71) = _
  after_results_simp
  rw [hb.g4]
  rfl

theorem h3_v73 (hb : Base m c (W6 m ρ c)) (hh : W6 m ρ c (Proc.devRef .tc main_v57) = H2 m c) (hd : W6 m ρ c (Proc.devRef .tc main_v11) = Cert.Sage.degCol (F := Ideal) (A1 m c)) : W7 m ρ c (Proc.devRef .tc main_v73) = Cert.Sage.vec2 (A5 m c) := by
  show StableHlo.after hostOps3 (W6 m ρ c) (Proc.devRef .tc main_v73) = _
  after_results_simp
  rw [hb.g5]
  rfl

theorem h3_v75 (hb : Base m c (W6 m ρ c)) (hh : W6 m ρ c (Proc.devRef .tc main_v57) = H2 m c) (hd : W6 m ρ c (Proc.devRef .tc main_v11) = Cert.Sage.degCol (F := Ideal) (A1 m c)) : W7 m ρ c (Proc.devRef .tc main_v75) = Cert.Sage.mat2 (A6 m c) := by
  show StableHlo.after hostOps3 (W6 m ρ c) (Proc.devRef .tc main_v75) = _
  after_results_simp
  rw [hb.g6]
  rfl

theorem h3_v77 (hb : Base m c (W6 m ρ c)) (hh : W6 m ρ c (Proc.devRef .tc main_v57) = H2 m c) (hd : W6 m ρ c (Proc.devRef .tc main_v11) = Cert.Sage.degCol (F := Ideal) (A1 m c)) : W7 m ρ c (Proc.devRef .tc main_v77) = Cert.Sage.vec2 (A7 m c) := by
  show StableHlo.after hostOps3 (W6 m ρ c) (Proc.devRef .tc main_v77) = _
  after_results_simp
  rw [hb.g7]
  rfl

theorem h3_v79 (hb : Base m c (W6 m ρ c)) (hh : W6 m ρ c (Proc.devRef .tc main_v57) = H2 m c) (hd : W6 m ρ c (Proc.devRef .tc main_v11) = Cert.Sage.degCol (F := Ideal) (A1 m c)) : W7 m ρ c (Proc.devRef .tc main_v79) = Cert.Sage.vec2 (A8 m c) := by
  show StableHlo.after hostOps3 (W6 m ρ c) (Proc.devRef .tc main_v79) = _
  after_results_simp
  rw [hb.g8]
  rfl

/-! ## The region -/

theorem baseOut3 (hb : Base m c (W6 m ρ c)) (hh : W6 m ρ c (Proc.devRef .tc main_v57) = H2 m c) (hd : W6 m ρ c (Proc.devRef .tc main_v11) = Cert.Sage.degCol (F := Ideal) (A1 m c)) : Base m c (W8 m ρ c) where
  v1 := (W8_of_ne m ρ c main_v1 (by decide)).trans (keep3 m ρ c hb hh hd).v1
  v3 := (W8_of_ne m ρ c main_v3 (by decide)).trans (keep3 m ρ c hb hh hd).v3
  g4 := (W8_of_ne m ρ c main_arg4 (by decide)).trans (keep3 m ρ c hb hh hd).g4
  g5 := (W8_of_ne m ρ c main_arg5 (by decide)).trans (keep3 m ρ c hb hh hd).g5
  g6 := (W8_of_ne m ρ c main_arg6 (by decide)).trans (keep3 m ρ c hb hh hd).g6
  g7 := (W8_of_ne m ρ c main_arg7 (by decide)).trans (keep3 m ρ c hb hh hd).g7
  g8 := (W8_of_ne m ρ c main_arg8 (by decide)).trans (keep3 m ρ c hb hh hd).g8
  g9 := (W8_of_ne m ρ c main_arg9 (by decide)).trans (keep3 m ρ c hb hh hd).g9
  g10 := (W8_of_ne m ρ c main_arg10 (by decide)).trans (keep3 m ρ c hb hh hd).g10

theorem deg3 (hb : Base m c (W6 m ρ c)) (hh : W6 m ρ c (Proc.devRef .tc main_v57) = H2 m c) (hd : W6 m ρ c (Proc.devRef .tc main_v11) = Cert.Sage.degCol (F := Ideal) (A1 m c)) : W8 m ρ c (Proc.devRef .tc main_v11) = Cert.Sage.degCol (F := Ideal) (A1 m c) :=
  (W8_of_ne m ρ c main_v11 (by decide)).trans (h3_deg m ρ c hb hh hd)

/-- The region leaves the layer's rows. -/
theorem out3 (hb : Base m c (W6 m ρ c)) (hh : W6 m ρ c (Proc.devRef .tc main_v57) = H2 m c) (hd : W6 m ρ c (Proc.devRef .tc main_v11) = Cert.Sage.degCol (F := Ideal) (A1 m c)) : W8 m ρ c (Proc.devRef .tc main_v80) = H3 m c := by
  refine (W8_arr m ρ c 7).trans ((Cert.Sage.Region3.final (V7 m ρ) c).trans ?_)
  show layerT (W7 m ρ c (Proc.devRef .tc main_v69)) (W7 m ρ c (Proc.devRef .tc main_v57)) (W7 m ρ c (Proc.devRef .tc main_v71)) (W7 m ρ c (Proc.devRef .tc main_v73)) (W7 m ρ c (Proc.devRef .tc main_v75)) (W7 m ρ c (Proc.devRef .tc main_v77)) (W7 m ρ c (Proc.devRef .tc main_v79)) = _
  rw [h3_agg m ρ c hb hh hd, h3_prev m ρ c hb hh hd, h3_v71 m ρ c hb hh hd, h3_v73 m ρ c hb hh hd, h3_v75 m ρ c hb hh hd, h3_v77 m ρ c hb hh hd, h3_v79 m ρ c hb hh hd]
  exact (Cert.Sage.layer_eq _ _ _ _ _ _ _).symm

end Cert.Sage.Chain

end
-- ==== Proof.Region4.lean ====
/-
  Region 4 of the idealized kernel (the closing normalisation tiled over 2000-row blocks), from blocks to the array.
  At any contents `V` of the buffers when the region is entered, the result array after the region's write-backs is the
  normalised rows of the node rows as `V` holds them: point `t` writes back rows `2000·t … 2000·t + 1999` (the input
  read at the same rows, scale and shift whole), and the fifty blocks tile the 100000 rows.
-/
import proofs.«182089_j86543591014918_2_alg».proof.Proof.TileStages

noncomputable section

namespace Cert.Sage.Region4

open Idealize.ShloMosaic Idealize.ShloMosaic.TcCoe Idealize.ShloMosaic.ValueIdx Idealize.SL.Sem
open Idealize.ShloMosaic.Pipeline (Dat)
open Cert.KernelIdeal Cert.KernelIdeal.Gen Cert.SageRows Cert.Sage.Tile

variable (V : (c : Dev nD) → (b : Ref sig .tc) → Buf (Elt Ideal) ((c : Thread nD τ).loc b))

/-- The printed index maps at a point: the row-blocked windows move with the point, the others stay on block zero. -/
structure IdxFacts (t : Fin grid4.N) : Prop where
  w0 : win4_0.index t (0 : Fin 2) = t.val ∧ win4_0.index t (1 : Fin 2) = 0
  w1 : win4_1.index t (0 : Fin 1) = 0
  w2 : win4_2.index t (0 : Fin 1) = 0
  w3 : win4_3.index t (0 : Fin 2) = t.val ∧ win4_3.index t (1 : Fin 2) = 0

theorem idx : ∀ t : Fin cfg4.N, IdxFacts t := fun t => by
  have h := (by decide +kernel : ∀ t : Fin grid4.N, (win4_0.index t (0 : Fin 2) = t.val ∧ win4_0.index t (1 : Fin 2) = 0) ∧ (win4_1.index t (0 : Fin 1) = 0) ∧ (win4_2.index t (0 : Fin 1) = 0) ∧ (win4_3.index t (0 : Fin 2) = t.val ∧ win4_3.index t (1 : Fin 2) = 0)) t
  obtain ⟨h0, h1, h2, h3⟩ := h
  exact ⟨h0, h1, h2, h3⟩

/-- Input window 0's block at point `t` is rows `2000·t … 2000·t + 1999` of its array. -/
theorem rows0 (c : Dev nD) (t : Fin cfg4.N) (p : Fin 2000) (P : Fin 100000) (hP : P.val = t.val * 2000 + p.val) (k : Fin 64) :
    (iblk4 V c 0 t : Vec Ideal S2000x64 .f32) (ix2 p k) = (V c main_v80 : S100000x64.Idx → Elt Ideal .f32) (ix2 P k) := by
  have e := idx t
  unfold iblk4
  rw [View.read_apply]
  refine congrArg (V c main_v80 : S100000x64.Idx → Elt Ideal .f32) (funext fun a => Fin.ext ?_)
  match a with
  | ⟨0, _⟩ => show win4_0.index t (0 : Fin 2) * 2000 + 1 * p.val = P.val; rw [(e.w0).1, hP]; omega
  | ⟨1, _⟩ => show win4_0.index t (1 : Fin 2) * 64 + 1 * k.val = k.val; rw [(e.w0).2]; omega

/-- Input window 1's block at every point is its whole array. -/
theorem whole1 (c : Dev nD) (t : Fin cfg4.N) : (iblk4 V c 1 t : Vec Ideal S64 .f32) = (V c main_arg9 : S64.Idx → Elt Ideal .f32) := by
  have e := idx t
  funext j
  unfold iblk4
  rw [View.read_apply]
  refine congrArg (V c main_arg9 : S64.Idx → Elt Ideal .f32) (funext fun a => Fin.ext ?_)
  match a with
  | ⟨0, _⟩ => show win4_1.index t (0 : Fin 1) * 64 + 1 * (j 0).val = (j 0).val; rw [e.w1]; omega

/-- Input window 2's block at every point is its whole array. -/
theorem whole2 (c : Dev nD) (t : Fin cfg4.N) : (iblk4 V c 2 t : Vec Ideal S64 .f32) = (V c main_arg10 : S64.Idx → Elt Ideal .f32) := by
  have e := idx t
  funext j
  unfold iblk4
  rw [View.read_apply]
  refine congrArg (V c main_arg10 : S64.Idx → Elt Ideal .f32) (funext fun a => Fin.ext ?_)
  match a with
  | ⟨0, _⟩ => show win4_2.index t (0 : Fin 1) * 64 + 1 * (j 0).val = (j 0).val; rw [e.w2]; omega

/-- WHAT POINT `t` WRITES BACK is block `t` of the normalised rows over the arrays as the region finds them. -/
theorem flushed_eq (c : Dev nD) (t : Fin cfg4.N) :
    (dat4 V c).flushed 3 t = ((cfg4.win 3).blk t).view.read (Elt Ideal)
      (lnT (V c main_v80 : S100000x64.Idx → Elt Ideal .f32) (V c main_arg9 : S64.Idx → Elt Ideal .f32) (V c main_arg10 : S64.Idx → Elt Ideal .f32)) := by
  have e := idx t
  have ht : t.val < 50 := Nat.lt_of_lt_of_eq t.isLt (show cfg4.N = 50 from N_4)
  show (cfg4.win 3).cut (grid4.coords t) ((dat4 V c).after 3 t) = _
  rw [after4_3]
  funext y
  obtain ⟨p, q, rfl⟩ : ∃ (p : Fin 2000) (q : Fin 64), y = ix2 p q := ⟨y 0, y 1, eq_ix2 y⟩
  have hp : t.val * 2000 + p.val < 100000 := by have := p.isLt; omega
  have hemb : ((cfg4.win 3).blk t).view.emb (ix2 p q) = (ix2 (⟨t.val * 2000 + p.val, hp⟩ : Fin 100000) q : S100000x64.Idx) :=
    funext fun a => Fin.ext (by
      match a with
      | ⟨0, _⟩ => show win4_3.index t (0 : Fin 2) * 2000 + 1 * p.val = t.val * 2000 + p.val; rw [(e.w3).1]; omega
      | ⟨1, _⟩ => show win4_3.index t (1 : Fin 2) * 64 + 1 * q.val = q.val; rw [(e.w3).2]; omega)
  show out4_3 (iblk4 V c 0 t) (iblk4 V c 1 t) (iblk4 V c 2 t) (ix2 p q)
    = (lnT (V c main_v80 : S100000x64.Idx → Elt Ideal .f32) (V c main_arg9 : S64.Idx → Elt Ideal .f32) (V c main_arg10 : S64.Idx → Elt Ideal .f32)) (((cfg4.win 3).blk t).view.emb (ix2 p q))
  rw [hemb, lnT_apply]
  refine (out4_3_apply _ _ _ p q).trans ?_
  rw [whole1 V c t, whole2 V c t]
  have h0 : row (iblk4 V c 0 t : Vec Ideal S2000x64 .f32) p = row (V c main_v80 : S100000x64.Idx → Elt Ideal .f32) ⟨t.val * 2000 + p.val, hp⟩ :=
    funext fun k => rows0 V c t p _ rfl k
  rw [h0]

/-- An index of the result array is in point `t`'s block iff each coordinate is in the block's range on its axis. -/
theorem mem_blk (t : Fin cfg4.N) (i : S100000x64.Idx) :
    i ∈ ((cfg4.win 3).blk t).view.set ↔ ∀ a : Fin 2, win4_3.index t a * S2000x64.size a ≤ (i a).val ∧ (i a).val < win4_3.index t a * S2000x64.size a + S2000x64.size a := by
  show i ∈ ((View.whole main_v81).slice (win4_3.rect t)).set ↔ _
  rw [View.set_slice_whole, Rect.mem_set_unit]
  exact Iff.rfl

/-- Every row of the result array is in the block of the point its number divided by 2000 names. -/
theorem cover (i : S100000x64.Idx) : ∃ t : Fin cfg4.N, (cfg4.win 3).flush t = true ∧ i ∈ ((cfg4.win 3).blk t).view.set := by
  have hi0 : (i 0).val < 100000 := (i 0).isLt
  have hi1 : (i 1).val < 64 := (i 1).isLt
  have hN : grid4.N = 50 := N_4
  have ht : (i 0).val / 2000 < grid4.N := by rw [hN]; omega
  have e := idx ⟨(i 0).val / 2000, ht⟩
  refine ⟨⟨(i 0).val / 2000, ht⟩, flush4_3 _, ?_⟩
  rw [mem_blk]
  intro a
  match a with
  | ⟨0, _⟩ =>
    show win4_3.index ⟨(i 0).val / 2000, ht⟩ (0 : Fin 2) * 2000 ≤ (i 0).val ∧ (i 0).val < win4_3.index ⟨(i 0).val / 2000, ht⟩ (0 : Fin 2) * 2000 + 2000
    rw [(e.w3).1]; show (i 0).val / 2000 * 2000 ≤ (i 0).val ∧ (i 0).val < (i 0).val / 2000 * 2000 + 2000; omega
  | ⟨1, _⟩ =>
    show win4_3.index ⟨(i 0).val / 2000, ht⟩ (1 : Fin 2) * 64 ≤ (i 1).val ∧ (i 1).val < win4_3.index ⟨(i 0).val / 2000, ht⟩ (1 : Fin 2) * 64 + 64
    rw [(e.w3).2]; omega

/-- THE ARRAY after the region: the normalised rows of the arrays as the region finds them. -/
theorem final (c : Dev nD) : (dat4 V c).arrAt 3 cfg4.N = (lnT (V c main_v80 : S100000x64.Idx → Elt Ideal .f32) (V c main_arg9 : S64.Idx → Elt Ideal .f32) (V c main_arg10 : S64.Idx → Elt Ideal .f32)) :=
  (dat4 V c).arrAt_eq_of_cover 3 _ (fun t _ => flushed_eq V c t) (fun i => cover i)

end Cert.Sage.Region4

end
-- ==== Proof.KerRun.lean ====
/-
  The idealized kernel's run with its result NAMED: every weakly fair execution of @main terminates, nothing
  faulting, with the result array at the last boundary's contents `Gen.W9` (the fold of the host stretches and the
  five regions' write-backs over the launch memory) and every argument array as launched. The same launch of the
  same segments as the frame; only what is read off the last thread state differs (the result's buffer too).
-/
import proofs.«182089_j86543591014918_2_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => ∀ c : Dev nD,
      r.2.mem ((c.tc : Thread nD τ).loc main_v81) = W9 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v81 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c)⟩)

end Cert.KernelIdeal.Named

end
-- ==== Proof.KerValue.lean ====
/-
  The idealized kernel's result array is the reference's function of the arguments: the boundary contents are
  walked from the launch through the four host stretches and the five regions (each layer from what the boundary
  before it holds), the last region normalising the third layer's rows; the run with the result named then ends
  at that function.
-/
import proofs.«182089_j86543591014918_2_alg».proof.Proof.Chain0
import proofs.«182089_j86543591014918_2_alg».proof.Proof.Chain1
import proofs.«182089_j86543591014918_2_alg».proof.Proof.Chain2
import proofs.«182089_j86543591014918_2_alg».proof.Proof.Chain3
import proofs.«182089_j86543591014918_2_alg».proof.Proof.Region4
import proofs.«182089_j86543591014918_2_alg».proof.Proof.KerRun
import Idealize.ShloMosaic.Lib.StableHlo.Run

noncomputable section

namespace Cert.Sage.Chain

open Idealize.ShloMosaic Idealize.ShloMosaic.TcCoe Idealize.SL.Sem Idealize.ShloMosaic.StableHlo
open Cert.KernelIdeal Cert.KernelIdeal.Gen Cert.SageRows

variable (m : (ℓ : Loc nD τ sig) → Buf (Elt Ideal) ℓ) (ρ : Dev nD → PrngReg)

section
variable (c : Dev nD)

/-- The last boundary's contents at the result array. -/
theorem result : W9 m ρ c (Proc.devRef .tc main_v81)
    = Cert.Sage.refOut (A0 m c) (A1 m c) (A2 m c) (A3 m c) (A4 m c) (A5 m c) (A6 m c) (A7 m c) (A8 m c) (A9 m c) (A10 m c) := by
  have b2 := baseW2 m ρ c
  have h2 := w2_v4 m ρ c
  have b4 := baseOut1 m ρ c b2 h2
  have h4 := out1 m ρ c b2 h2
  have d4 := deg1 m ρ c b2 h2
  have b6 := baseOut2 m ρ c b4 h4 d4
  have h6 := out2 m ρ c b4 h4 d4
  have d6 := deg2 m ρ c b4 h4 d4
  have b8 := baseOut3 m ρ c b6 h6 d6
  have h8 := out3 m ρ c b6 h6 d6
  refine (W9_arr m ρ c 3).trans ((Cert.Sage.Region4.final (V8 m ρ) c).trans ?_)
  show lnT (W8 m ρ c (Proc.devRef .tc main_v80)) (W8 m ρ c (Proc.devRef .tc main_arg9)) (W8 m ρ c (Proc.devRef .tc main_arg10)) = _
  rw [h8, b8.g9, b8.g10]
  exact (Cert.Sage.lnorm_eq _ _ _).symm

end

/-- Every weakly fair execution of the idealized kernel terminates, nothing faulting, with the result array at the
    reference's function of the arguments as launched and every argument unchanged. -/
theorem run : θ_run defs (onTc (τ := τ) (main (F := Ideal))) ⟨m, fun _ => 0, ρ⟩ (fun r => ∀ c : Dev nD,
      r.2.mem ((c.tc : Thread nD τ).loc main_v81)
        = Cert.Sage.refOut (A0 m c) (A1 m c) (A2 m c) (A3 m c) (A4 m c) (A5 m c) (A6 m c) (A7 m c) (A8 m c) (A9 m c) (A10 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result m ρ c), (h c).2⟩) (Cert.KernelIdeal.Named.run m ρ)

end Cert.Sage.Chain

end
-- ==== Proof.RefOps.lean ====
/-
  The reference's @main as a list of host operations, window by window, with the calls of its outlined
  functions (relu; _var, which itself calls _where) expanded in place: a callee's operations stand at the
  call site, in the callee's statement order, over the call's own buffer record.
-/
import proofs.«182089_j86543591014918_2_alg».proof.Proof.Gen.ReferenceIdeal
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 64 of 332, calls expanded (window `main_part0`). -/
abbrev ops_part0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg2 main_v4 ((fun l r => Host.dotGeneral dot_S100000x384_S384x64_S100000x64_1_0_0_1_n_n none l r) : (⟨S100000x384, .f32⟩ : BufTy).Contents (Elt F) → (⟨S384x64, .f32⟩ : BufTy).Contents (Elt F) → (⟨S100000x64, .f32⟩ : BufTy).Contents (Elt F)),
    unary main_arg3 main_v5 (broadcastInDim S1x64 ![1] bcast_S64_S1x64_1 : (⟨S64, .f32⟩ : BufTy).Contents (Elt F) → (⟨S1x64, .f32⟩ : BufTy).Contents (Elt F)),
    unary main_v5 main_v6 (broadcastInDim S100000x64 ![0, 1] bcast_S1x64_S100000x64_0_1 : (⟨S1x64, .f32⟩ : BufTy).Contents (Elt F) → (⟨S100000x64, .f32⟩ : BufTy).Contents (Elt F)),
    binary main_v4 main_v6 main_v7 (addf : (⟨S100000x64, .f32⟩ : BufTy).Contents (Elt F) → (⟨S100000x64, .f32⟩ : BufTy).Contents (Elt F) → (⟨S100000x64, .f32⟩ : BufTy).Contents (Elt F)),
    TRef.nullary main_call0.cst (constant S_ .f32 0x00000000#32),
    TRef.unary main_call0.cst main_call0.v0 (broadcastInDim S100000x64 ![] bcast_S_S100000x64),
    TRef.binary (.of main_v7) main_call0.v0 main_call0.v1 maximumf,
    nullary main_cst (constant S_ .f32 0x3F800000#32),
    unary main_cst main_v9 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v10 (broadcastInDim S100000 ![] bcast_S_S100000 : (⟨S_, .f32⟩ : BufTy).Contents (Elt F) → (⟨S100000, .f32⟩ : BufTy).Contents (Elt F)),
    unary main_v3 main_v11 (broadcastInDim S1600000x1 ![0] bcast_S1600000_S1600000x1_0 : (⟨S1600000, .i32⟩ : BufTy).Contents (Elt F) → (⟨S1600000x1, .i32⟩ : BufTy).Contents (Elt F)),
    ternary main_v10 main_v11 main_v9 main_v12 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v13 (broadcastInDim S100000 ![] bcast_S_S100000 : (⟨S_, .f32⟩ : BufTy).Contents (Elt F) → (⟨S100000, .f32⟩ : BufTy).Contents (Elt F)),
    binary main_v12 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (broadcastInDim S100000x1 ![0] bcast_S100000_S100000x1_0 : (⟨S100000, .f32⟩ : BufTy).Contents (Elt F) → (⟨S100000x1, .f32⟩ : BufTy).Contents (Elt F)),
    nullary main_c (constantI S_ 32 0#32),
    unary main_c main_v16 (broadcastInDim S1600000 ![] bcast_S_S1600000 : (⟨S_, .i32⟩ : BufTy).Contents (Elt F) → (⟨S1600000, .i32⟩ : BufTy).Contents (Elt F)),
    binary main_v1 main_v16 main_v17 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v18 (broadcastInDim S1600000 ![] bcast_S_S1600000 : (⟨S_, .i32⟩ : BufTy).Contents (Elt F) → (⟨S1600000, .i32⟩ : BufTy).Contents (Elt F)),
    binary main_v1 main_v18 main_v19 (addi : (⟨S1600000, .i32⟩ : BufTy).Contents (Elt F) → (⟨S1600000, .i32⟩ : BufTy).Contents (Elt F) → (⟨S1600000, .i32⟩ : BufTy).Contents (Elt F)),
    ternary main_v17 main_v19 main_v1 main_v20 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v20 main_v21 (broadcastInDim S1600000x1 ![0] bcast_S1600000_S1600000x1_0 : (⟨S1600000, .i32⟩ : BufTy).Contents (Elt F) → (⟨S1600000x1, .i32⟩ : BufTy).Contents (Elt F)),
    binary main_v8 main_v21 main_v22 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_3 (constant S_ .f32 0x00000000#32),
    unary main_cst_3 main_v23 (broadcastInDim S100000x64 ![] bcast_S_S100000x64 : (⟨S_, .f32⟩ : BufTy).Contents (Elt F) → (⟨S100000x64, .f32⟩ : BufTy).Contents (Elt F)),
    unary main_v3 main_v24 (broadcastInDim S1600000x1 ![0] bcast_S1600000_S1600000x1_0 : (⟨S1600000, .i32⟩ : BufTy).Contents (Elt F) → (⟨S1600000x1, .i32⟩ : BufTy).Contents (Elt F)),
    ternary main_v23 main_v24 main_v22 main_v25 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_v15 main_v26 (broadcastInDim S100000x64 ![0, 1] bcast_S100000x1_S100000x64_0_1 : (⟨S100000x1, .f32⟩ : BufTy).Contents (Elt F) → (⟨S100000x64, .f32⟩ : BufTy).Contents (Elt F)),
    binary main_v25 main_v26 main_v27 (Host.divf : (⟨S100000x64, .f32⟩ : BufTy).Contents (Elt F) → (⟨S100000x64, .f32⟩ : BufTy).Contents (Elt F) → (⟨S100000x64, .f32⟩ : BufTy).Contents (Elt F)),
    unary main_arg4 main_v28 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v28 main_v29 rfl shapeCasts_S1x64x64_S64x64,
    binary main_v27 main_v29 main_v30 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg5 main_v31 ((extractStridedSlice S1x64 ![0, 0] · slices_S3x64_S1x64_0_0) : (⟨S3x64, .f32⟩ : BufTy).Contents (Elt F) → (⟨S1x64, .f32⟩ : BufTy).Contents (Elt F)),
    reshape main_v31 main_v32 rfl shapeCasts_S1x64_S64,
    unary main_v32 main_v33 (broadcastInDim S1x64 ![1] bcast_S64_S1x64_1 : (⟨S64, .f32⟩ : BufTy).Contents (Elt F) → (⟨S1x64, .f32⟩ : BufTy).Contents (Elt F)),
    unary main_v33 main_v34 (broadcastInDim S100000x64 ![0, 1] bcast_S1x64_S100000x64_0_1 : (⟨S1x64, .f32⟩ : BufTy).Contents (Elt F) → (⟨S100000x64, .f32⟩ : BufTy).Contents (Elt F)),
    binary main_v30 main_v34 main_v35 (addf : (⟨S100000x64, .f32⟩ : BufTy).Contents (Elt F) → (⟨S100000x64, .f32⟩ : BufTy).Contents (Elt F) → (⟨S100000x64, .f32⟩ : BufTy).Contents (Elt F)),
    unary main_arg6 main_v36 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v36 main_v37 rfl shapeCasts_S1x64x64_S64x64,
    binary main_v8 main_v37 main_v38 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v35 main_v38 main_v39 (addf : (⟨S100000x64, .f32⟩ : BufTy).Contents (Elt F) → (⟨S100000x64, .f32⟩ : BufTy).Contents (Elt F) → (⟨S100000x64, .f32⟩ : BufTy).Contents (Elt F)),
    binary main_v39 main_v39 main_v40 (mulf : (⟨S100000x64, .f32⟩ : BufTy).Contents (Elt F) → (⟨S100000x64, .f32⟩ : BufTy).Contents (Elt F) → (⟨S100000x64, .f32⟩ : BufTy).Contents (Elt F)),
    nullary main_cst_4 (constant S_ .f32 0x00000000#32),
    binary main_v40 main_cst_4 main_v41 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v41 main_v42 (broadcastInDim S100000x1 ![0] bcast_S100000_S100000x1_0 : (⟨S100000, .f32⟩ : BufTy).Contents (Elt F) → (⟨S100000x1, .f32⟩ : BufTy).Contents (Elt F)),
    nullary main_cst_5 (constant S_ .f32 0x179ABE15#32),
    unary main_cst_5 main_v43 (broadcastInDim S100000x1 ![] bcast_S_S100000x1 : (⟨S_, .f32⟩ : BufTy).Contents (Elt F) → (⟨S100000x1, .f32⟩ : BufTy).Contents (Elt F)),
    binary main_v42 main_v43 main_v44 (maximumf : (⟨S100000x1, .f32⟩ : BufTy).Contents (Elt F) → (⟨S100000x1, .f32⟩ : BufTy).Contents (Elt F) → (⟨S100000x1, .f32⟩ : BufTy).Contents (Elt F)),
    unary main_v44 main_v45 (Host.rsqrt : (⟨S100000x1, .f32⟩ : BufTy).Contents (Elt F) → (⟨S100000x1, .f32⟩ : BufTy).Contents (Elt F)),
    unary main_v45 main_v46 (broadcastInDim S100000x64 ![0, 1] bcast_S100000x1_S100000x64_0_1 : (⟨S100000x1, .f32⟩ : BufTy).Contents (Elt F) → (⟨S100000x64, .f32⟩ : BufTy).Contents (Elt F)),
    binary main_v39 main_v46 main_v47 (mulf : (⟨S100000x64, .f32⟩ : BufTy).Contents (Elt F) → (⟨S100000x64, .f32⟩ : BufTy).Contents (Elt F) → (⟨S100000x64, .f32⟩ : BufTy).Contents (Elt F)),
    TRef.nullary main_call1.cst (constant S_ .f32 0x00000000#32),
    TRef.unary main_call1.cst main_call1.v0 (broadcastInDim S100000x64 ![] bcast_S_S100000x64),
    TRef.binary (.of main_v47) main_call1.v0 main_call1.v1 maximumf,
    binary main_v48 main_v8 main_v49 (addf : (⟨S100000x64, .f32⟩ : BufTy).Contents (Elt F) → (⟨S100000x64, .f32⟩ : BufTy).Contents (Elt F) → (⟨S100000x64, .f32⟩ : BufTy).Contents (Elt F)),
    unary main_arg7 main_v50 ((extractStridedSlice S1x64 ![0, 0] · slices_S3x64_S1x64_0_0) : (⟨S3x64, .f32⟩ : BufTy).Contents (Elt F) → (⟨S1x64, .f32⟩ : BufTy).Contents (Elt F)),
    reshape main_v50 main_v51 rfl shapeCasts_S1x64_S64 ]

/-- @main's operations 65 … 146 of 332, calls expanded (window `main_part1`). -/
abbrev ops_part1 : List (HloOp τ sig (Elt F)) :=
  [ unary main_arg8 main_v52 ((extractStridedSlice S1x64 ![0, 0] · slices_S3x64_S1x64_0_0) : (⟨S3x64, .f32⟩ : BufTy).Contents (Elt F) → (⟨S1x64, .f32⟩ : BufTy).Contents (Elt F)),
    reshape main_v52 main_v53 rfl shapeCasts_S1x64_S64,
    nullary main_cst_6 (constant S_ .f32 0x00000000#32),
    binary main_v49 main_cst_6 main_v54 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v54 main_v55 (broadcastInDim S100000x1 ![0] bcast_S100000_S100000x1_0 : (⟨S100000, .f32⟩ : BufTy).Contents (Elt F) → (⟨S100000x1, .f32⟩ : BufTy).Contents (Elt F)),
    nullary main_cst_7 (constant S_ .f32 0x42800000#32),
    unary main_cst_7 main_v56 (broadcastInDim S100000x1 ![] bcast_S_S100000x1 : (⟨S_, .f32⟩ : BufTy).Contents (Elt F) → (⟨S100000x1, .f32⟩ : BufTy).Contents (Elt F)),
    binary main_v55 main_v56 main_v57 (Host.divf : (⟨S100000x1, .f32⟩ : BufTy).Contents (Elt F) → (⟨S100000x1, .f32⟩ : BufTy).Contents (Elt F) → (⟨S100000x1, .f32⟩ : BufTy).Contents (Elt F)),
    nullary main_c_8 (constantI S_ 32 0#32),
    TRef.nullary main_call2.cst (constant S_ .f32 0x00000000#32),
    TRef.binary (.of main_v49) main_call2.cst main_call2.v0 (fun x v => Host.reduceAdd x v reducesTo_S100000x64_S100000_d1 h_S_),
    TRef.unary main_call2.v0 main_call2.v1 (broadcastInDim S100000x1 ![0] bcast_S100000_S100000x1_0),
    TRef.nullary main_call2.cst_0 (constant S_ .f32 0x42800000#32),
    TRef.unary main_call2.cst_0 main_call2.v2 (broadcastInDim S100000x1 ![] bcast_S_S100000x1),
    TRef.binary main_call2.v1 main_call2.v2 main_call2.v3 Host.divf,
    TRef.unary main_call2.v3 main_call2.v4 (broadcastInDim S100000x64 ![0, 1] bcast_S100000x1_S100000x64_0_1),
    TRef.binary (.of main_v49) main_call2.v4 main_call2.v5 subf,
    TRef.binary main_call2.v5 main_call2.v5 main_call2.v6 mulf,
    TRef.unary (.of main_c_8) main_call2.v7 (sitofp .f32),
    TRef.nullary main_call2.cst_1 (constant S_ .f32 0x42800000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x64_S100000_d1 h_S_),
    TRef.unary main_call2.v9 main_call2.v10 (broadcastInDim S100000x1 ![0] bcast_S100000_S100000x1_0),
    TRef.unary main_call2.v8 main_call2.v11 (broadcastInDim S100000x1 ![] bcast_S_S100000x1),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2.call0.v0 id,
    TRef.unary main_call2.call0.v0 main_call2.call0.v1 (broadcastInDim S100000x1 ![] bcast_S_S100000x1),
    TRef.ternary main_call2.v13 main_call2.v12 main_call2.call0.v1 main_call2.call0.v2 (fun p a b => select (broadcastInDim S100000x1 ![] bcast_S_S100000x1 p) a b),
    unary main_v57 main_v59 (broadcastInDim S100000x64 ![0, 1] bcast_S100000x1_S100000x64_0_1 : (⟨S100000x1, .f32⟩ : BufTy).Contents (Elt F) → (⟨S100000x64, .f32⟩ : BufTy).Contents (Elt F)),
    binary main_v49 main_v59 main_v60 (subf : (⟨S100000x64, .f32⟩ : BufTy).Contents (Elt F) → (⟨S100000x64, .f32⟩ : BufTy).Contents (Elt F) → (⟨S100000x64, .f32⟩ : BufTy).Contents (Elt F)),
    nullary main_cst_9 (constant S_ .f32 0x3727C5AC#32),
    unary main_cst_9 main_v61 (broadcastInDim S100000x1 ![] bcast_S_S100000x1 : (⟨S_, .f32⟩ : BufTy).Contents (Elt F) → (⟨S100000x1, .f32⟩ : BufTy).Contents (Elt F)),
    binary main_v58 main_v61 main_v62 (addf : (⟨S100000x1, .f32⟩ : BufTy).Contents (Elt F) → (⟨S100000x1, .f32⟩ : BufTy).Contents (Elt F) → (⟨S100000x1, .f32⟩ : BufTy).Contents (Elt F)),
    unary main_v62 main_v63 (Host.rsqrt : (⟨S100000x1, .f32⟩ : BufTy).Contents (Elt F) → (⟨S100000x1, .f32⟩ : BufTy).Contents (Elt F)),
    unary main_v63 main_v64 (broadcastInDim S100000x64 ![0, 1] bcast_S100000x1_S100000x64_0_1 : (⟨S100000x1, .f32⟩ : BufTy).Contents (Elt F) → (⟨S100000x64, .f32⟩ : BufTy).Contents (Elt F)),
    binary main_v60 main_v64 main_v65 (mulf : (⟨S100000x64, .f32⟩ : BufTy).Contents (Elt F) → (⟨S100000x64, .f32⟩ : BufTy).Contents (Elt F) → (⟨S100000x64, .f32⟩ : BufTy).Contents (Elt F)),
    unary main_v51 main_v66 (broadcastInDim S1x64 ![1] bcast_S64_S1x64_1 : (⟨S64, .f32⟩ : BufTy).Contents (Elt F) → (⟨S1x64, .f32⟩ : BufTy).Contents (Elt F)),
    unary main_v66 main_v67 (broadcastInDim S100000x64 ![0, 1] bcast_S1x64_S100000x64_0_1 : (⟨S1x64, .f32⟩ : BufTy).Contents (Elt F) → (⟨S100000x64, .f32⟩ : BufTy).Contents (Elt F)),
    binary main_v65 main_v67 main_v68 (mulf : (⟨S100000x64, .f32⟩ : BufTy).Contents (Elt F) → (⟨S100000x64, .f32⟩ : BufTy).Contents (Elt F) → (⟨S100000x64, .f32⟩ : BufTy).Contents (Elt F)),
    unary main_v53 main_v69 (broadcastInDim S1x64 ![1] bcast_S64_S1x64_1 : (⟨S64, .f32⟩ : BufTy).Contents (Elt F) → (⟨S1x64, .f32⟩ : BufTy).Contents (Elt F)),
    unary main_v69 main_v70 (broadcastInDim S100000x64 ![0, 1] bcast_S1x64_S100000x64_0_1 : (⟨S1x64, .f32⟩ : BufTy).Contents (Elt F) → (⟨S100000x64, .f32⟩ : BufTy).Contents (Elt F)),
    binary main_v68 main_v70 main_v71 (addf : (⟨S100000x64, .f32⟩ : BufTy).Contents (Elt F) → (⟨S100000x64, .f32⟩ : BufTy).Contents (Elt F) → (⟨S100000x64, .f32⟩ : BufTy).Contents (Elt F)),
    nullary main_c_10 (constantI S_ 32 0#32),
    unary main_c_10 main_v72 (broadcastInDim S1600000 ![] bcast_S_S1600000 : (⟨S_, .i32⟩ : BufTy).Contents (Elt F) → (⟨S1600000, .i32⟩ : BufTy).Contents (Elt F)),
    binary main_v1 main_v72 main_v73 (cmpi .slt : (⟨S1600000, .i32⟩ : BufTy).Contents (Elt F) → (⟨S1600000, .i32⟩ : BufTy).Contents (Elt F) → (⟨S1600000, .i1⟩ : BufTy).Contents (Elt F)),
    nullary main_c_11 (constantI S_ 32 100000#32),
    unary main_c_11 main_v74 (broadcastInDim S1600000 ![] bcast_S_S1600000 : (⟨S_, .i32⟩ : BufTy).Contents (Elt F) → (⟨S1600000, .i32⟩ : BufTy).Contents (Elt F)),
    binary main_v1 main_v74 main_v75 (addi : (⟨S1600000, .i32⟩ : BufTy).Contents (Elt F) → (⟨S1600000, .i32⟩ : BufTy).Contents (Elt F) → (⟨S1600000, .i32⟩ : BufTy).Contents (Elt F)),
    ternary main_v73 main_v75 main_v1 main_v76 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v76 main_v77 (broadcastInDim S1600000x1 ![0] bcast_S1600000_S1600000x1_0 : (⟨S1600000, .i32⟩ : BufTy).Contents (Elt F) → (⟨S1600000x1, .i32⟩ : BufTy).Contents (Elt F)),
    binary main_v71 main_v77 main_v78 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_12 (constant S_ .f32 0x00000000#32),
    unary main_cst_12 main_v79 (broadcastInDim S100000x64 ![] bcast_S_S100000x64 : (⟨S_, .f32⟩ : BufTy).Contents (Elt F) → (⟨S100000x64, .f32⟩ : BufTy).Contents (Elt F)),
    unary main_v3 main_v80 (broadcastInDim S1600000x1 ![0] bcast_S1600000_S1600000x1_0 : (⟨S1600000, .i32⟩ : BufTy).Contents (Elt F) → (⟨S1600000x1, .i32⟩ : BufTy).Contents (Elt F)),
    ternary main_v79 main_v80 main_v78 main_v81 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_v15 main_v82 (broadcastInDim S100000x64 ![0, 1] bcast_S100000x1_S100000x64_0_1 : (⟨S100000x1, .f32⟩ : BufTy).Contents (Elt F) → (⟨S100000x64, .f32⟩ : BufTy).Contents (Elt F)),
    binary main_v81 main_v82 main_v83 (Host.divf : (⟨S100000x64, .f32⟩ : BufTy).Contents (Elt F) → (⟨S100000x64, .f32⟩ : BufTy).Contents (Elt F) → (⟨S100000x64, .f32⟩ : BufTy).Contents (Elt F)),
    unary main_arg4 main_v84 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v84 main_v85 rfl shapeCasts_S1x64x64_S64x64,
    binary main_v83 main_v85 main_v86 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg5 main_v87 ((extractStridedSlice S1x64 ![1, 0] · slices_S3x64_S1x64_1_0) : (⟨S3x64, .f32⟩ : BufTy).Contents (Elt F) → (⟨S1x64, .f32⟩ : BufTy).Contents (Elt F)),
    reshape main_v87 main_v88 rfl shapeCasts_S1x64_S64,
    unary main_v88 main_v89 (broadcastInDim S1x64 ![1] bcast_S64_S1x64_1 : (⟨S64, .f32⟩ : BufTy).Contents (Elt F) → (⟨S1x64, .f32⟩ : BufTy).Contents (Elt F)),
    unary main_v89 main_v90 (broadcastInDim S100000x64 ![0, 1] bcast_S1x64_S100000x64_0_1 : (⟨S1x64, .f32⟩ : BufTy).Contents (Elt F) → (⟨S100000x64, .f32⟩ : BufTy).Contents (Elt F)),
    binary main_v86 main_v90 main_v91 (addf : (⟨S100000x64, .f32⟩ : BufTy).Contents (Elt F) → (⟨S100000x64, .f32⟩ : BufTy).Contents (Elt F) → (⟨S100000x64, .f32⟩ : BufTy).Contents (Elt F)),
    unary main_arg6 main_v92 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v92 main_v93 rfl shapeCasts_S1x64x64_S64x64,
    binary main_v71 main_v93 main_v94 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v91 main_v94 main_v95 (addf : (⟨S100000x64, .f32⟩ : BufTy).Contents (Elt F) → (⟨S100000x64, .f32⟩ : BufTy).Contents (Elt F) → (⟨S100000x64, .f32⟩ : BufTy).Contents (Elt F)),
    binary main_v95 main_v95 main_v96 (mulf : (⟨S100000x64, .f32⟩ : BufTy).Contents (Elt F) → (⟨S100000x64, .f32⟩ : BufTy).Contents (Elt F) → (⟨S100000x64, .f32⟩ : BufTy).Contents (Elt F)),
    nullary main_cst_13 (constant S_ .f32 0x00000000#32),
    binary main_v96 main_cst_13 main_v97 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v97 main_v98 (broadcastInDim S100000x1 ![0] bcast_S100000_S100000x1_0 : (⟨S100000, .f32⟩ : BufTy).Contents (Elt F) → (⟨S100000x1, .f32⟩ : BufTy).Contents (Elt F)),
    nullary main_cst_14 (constant S_ .f32 0x179ABE15#32),
    unary main_cst_14 main_v99 (broadcastInDim S100000x1 ![] bcast_S_S100000x1 : (⟨S_, .f32⟩ : BufTy).Contents (Elt F) → (⟨S100000x1, .f32⟩ : BufTy).Contents (Elt F)),
    binary main_v98 main_v99 main_v100 (maximumf : (⟨S100000x1, .f32⟩ : BufTy).Contents (Elt F) → (⟨S100000x1, .f32⟩ : BufTy).Contents (Elt F) → (⟨S100000x1, .f32⟩ : BufTy).Contents (Elt F)),
    unary main_v100 main_v101 (Host.rsqrt : (⟨S100000x1, .f32⟩ : BufTy).Contents (Elt F) → (⟨S100000x1, .f32⟩ : BufTy).Contents (Elt F)),
    unary main_v101 main_v102 (broadcastInDim S100000x64 ![0, 1] bcast_S100000x1_S100000x64_0_1 : (⟨S100000x1, .f32⟩ : BufTy).Contents (Elt F) → (⟨S100000x64, .f32⟩ : BufTy).Contents (Elt F)) ]

/-- @main's operations 147 … 230 of 332, calls expanded (window `main_part2`). -/
abbrev ops_part2 : List (HloOp τ sig (Elt F)) :=
  [ binary main_v95 main_v102 main_v103 (mulf : (⟨S100000x64, .f32⟩ : BufTy).Contents (Elt F) → (⟨S100000x64, .f32⟩ : BufTy).Contents (Elt F) → (⟨S100000x64, .f32⟩ : BufTy).Contents (Elt F)),
    TRef.nullary main_call3.cst (constant S_ .f32 0x00000000#32),
    TRef.unary main_call3.cst main_call3.v0 (broadcastInDim S100000x64 ![] bcast_S_S100000x64),
    TRef.binary (.of main_v103) main_call3.v0 main_call3.v1 maximumf,
    binary main_v104 main_v71 main_v105 (addf : (⟨S100000x64, .f32⟩ : BufTy).Contents (Elt F) → (⟨S100000x64, .f32⟩ : BufTy).Contents (Elt F) → (⟨S100000x64, .f32⟩ : BufTy).Contents (Elt F)),
    unary main_arg7 main_v106 ((extractStridedSlice S1x64 ![1, 0] · slices_S3x64_S1x64_1_0) : (⟨S3x64, .f32⟩ : BufTy).Contents (Elt F) → (⟨S1x64, .f32⟩ : BufTy).Contents (Elt F)),
    reshape main_v106 main_v107 rfl shapeCasts_S1x64_S64,
    unary main_arg8 main_v108 ((extractStridedSlice S1x64 ![1, 0] · slices_S3x64_S1x64_1_0) : (⟨S3x64, .f32⟩ : BufTy).Contents (Elt F) → (⟨S1x64, .f32⟩ : BufTy).Contents (Elt F)),
    reshape main_v108 main_v109 rfl shapeCasts_S1x64_S64,
    nullary main_cst_15 (constant S_ .f32 0x00000000#32),
    binary main_v105 main_cst_15 main_v110 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v110 main_v111 (broadcastInDim S100000x1 ![0] bcast_S100000_S100000x1_0 : (⟨S100000, .f32⟩ : BufTy).Contents (Elt F) → (⟨S100000x1, .f32⟩ : BufTy).Contents (Elt F)),
    nullary main_cst_16 (constant S_ .f32 0x42800000#32),
    unary main_cst_16 main_v112 (broadcastInDim S100000x1 ![] bcast_S_S100000x1 : (⟨S_, .f32⟩ : BufTy).Contents (Elt F) → (⟨S100000x1, .f32⟩ : BufTy).Contents (Elt F)),
    binary main_v111 main_v112 main_v113 (Host.divf : (⟨S100000x1, .f32⟩ : BufTy).Contents (Elt F) → (⟨S100000x1, .f32⟩ : BufTy).Contents (Elt F) → (⟨S100000x1, .f32⟩ : BufTy).Contents (Elt F)),
    nullary main_c_17 (constantI S_ 32 0#32),
    TRef.nullary main_call4.cst (constant S_ .f32 0x00000000#32),
    TRef.binary (.of main_v105) main_call4.cst main_call4.v0 (fun x v => Host.reduceAdd x v reducesTo_S100000x64_S100000_d1 h_S_),
    TRef.unary main_call4.v0 main_call4.v1 (broadcastInDim S100000x1 ![0] bcast_S100000_S100000x1_0),
    TRef.nullary main_call4.cst_0 (constant S_ .f32 0x42800000#32),
    TRef.unary main_call4.cst_0 main_call4.v2 (broadcastInDim S100000x1 ![] bcast_S_S100000x1),
    TRef.binary main_call4.v1 main_call4.v2 main_call4.v3 Host.divf,
    TRef.unary main_call4.v3 main_call4.v4 (broadcastInDim S100000x64 ![0, 1] bcast_S100000x1_S100000x64_0_1),
    TRef.binary (.of main_v105) main_call4.v4 main_call4.v5 subf,
    TRef.binary main_call4.v5 main_call4.v5 main_call4.v6 mulf,
    TRef.unary (.of main_c_17) main_call4.v7 (sitofp .f32),
    TRef.nullary main_call4.cst_1 (constant S_ .f32 0x42800000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S100000x64_S100000_d1 h_S_),
    TRef.unary main_call4.v9 main_call4.v10 (broadcastInDim S100000x1 ![0] bcast_S100000_S100000x1_0),
    TRef.unary main_call4.v8 main_call4.v11 (broadcastInDim S100000x1 ![] bcast_S_S100000x1),
    TRef.binary main_call4.v10 main_call4.v11 main_call4.v12 Host.divf,
    TRef.nullary main_call4.cst_3 (constant S_ .f32 0x00000000#32),
    TRef.binary main_call4.v8 main_call4.cst_3 main_call4.v13 (cmpf .ogt),
    TRef.nullary main_call4.cst_4 (constant S_ .f32 0x7FC00000#32),
    TRef.unary main_call4.cst_4 main_call4.call0.v0 id,
    TRef.unary main_call4.call0.v0 main_call4.call0.v1 (broadcastInDim S100000x1 ![] bcast_S_S100000x1),
    TRef.ternary main_call4.v13 main_call4.v12 main_call4.call0.v1 main_call4.call0.v2 (fun p a b => select (broadcastInDim S100000x1 ![] bcast_S_S100000x1 p) a b),
    unary main_v113 main_v115 (broadcastInDim S100000x64 ![0, 1] bcast_S100000x1_S100000x64_0_1 : (⟨S100000x1, .f32⟩ : BufTy).Contents (Elt F) → (⟨S100000x64, .f32⟩ : BufTy).Contents (Elt F)),
    binary main_v105 main_v115 main_v116 (subf : (⟨S100000x64, .f32⟩ : BufTy).Contents (Elt F) → (⟨S100000x64, .f32⟩ : BufTy).Contents (Elt F) → (⟨S100000x64, .f32⟩ : BufTy).Contents (Elt F)),
    nullary main_cst_18 (constant S_ .f32 0x3727C5AC#32),
    unary main_cst_18 main_v117 (broadcastInDim S100000x1 ![] bcast_S_S100000x1 : (⟨S_, .f32⟩ : BufTy).Contents (Elt F) → (⟨S100000x1, .f32⟩ : BufTy).Contents (Elt F)),
    binary main_v114 main_v117 main_v118 (addf : (⟨S100000x1, .f32⟩ : BufTy).Contents (Elt F) → (⟨S100000x1, .f32⟩ : BufTy).Contents (Elt F) → (⟨S100000x1, .f32⟩ : BufTy).Contents (Elt F)),
    unary main_v118 main_v119 (Host.rsqrt : (⟨S100000x1, .f32⟩ : BufTy).Contents (Elt F) → (⟨S100000x1, .f32⟩ : BufTy).Contents (Elt F)),
    unary main_v119 main_v120 (broadcastInDim S100000x64 ![0, 1] bcast_S100000x1_S100000x64_0_1 : (⟨S100000x1, .f32⟩ : BufTy).Contents (Elt F) → (⟨S100000x64, .f32⟩ : BufTy).Contents (Elt F)),
    binary main_v116 main_v120 main_v121 (mulf : (⟨S100000x64, .f32⟩ : BufTy).Contents (Elt F) → (⟨S100000x64, .f32⟩ : BufTy).Contents (Elt F) → (⟨S100000x64, .f32⟩ : BufTy).Contents (Elt F)),
    unary main_v107 main_v122 (broadcastInDim S1x64 ![1] bcast_S64_S1x64_1 : (⟨S64, .f32⟩ : BufTy).Contents (Elt F) → (⟨S1x64, .f32⟩ : BufTy).Contents (Elt F)),
    unary main_v122 main_v123 (broadcastInDim S100000x64 ![0, 1] bcast_S1x64_S100000x64_0_1 : (⟨S1x64, .f32⟩ : BufTy).Contents (Elt F) → (⟨S100000x64, .f32⟩ : BufTy).Contents (Elt F)),
    binary main_v121 main_v123 main_v124 (mulf : (⟨S100000x64, .f32⟩ : BufTy).Contents (Elt F) → (⟨S100000x64, .f32⟩ : BufTy).Contents (Elt F) → (⟨S100000x64, .f32⟩ : BufTy).Contents (Elt F)),
    unary main_v109 main_v125 (broadcastInDim S1x64 ![1] bcast_S64_S1x64_1 : (⟨S64, .f32⟩ : BufTy).Contents (Elt F) → (⟨S1x64, .f32⟩ : BufTy).Contents (Elt F)),
    unary main_v125 main_v126 (broadcastInDim S100000x64 ![0, 1] bcast_S1x64_S100000x64_0_1 : (⟨S1x64, .f32⟩ : BufTy).Contents (Elt F) → (⟨S100000x64, .f32⟩ : BufTy).Contents (Elt F)),
    binary main_v124 main_v126 main_v127 (addf : (⟨S100000x64, .f32⟩ : BufTy).Contents (Elt F) → (⟨S100000x64, .f32⟩ : BufTy).Contents (Elt F) → (⟨S100000x64, .f32⟩ : BufTy).Contents (Elt F)),
    nullary main_c_19 (constantI S_ 32 0#32),
    unary main_c_19 main_v128 (broadcastInDim S1600000 ![] bcast_S_S1600000 : (⟨S_, .i32⟩ : BufTy).Contents (Elt F) → (⟨S1600000, .i32⟩ : BufTy).Contents (Elt F)),
    binary main_v1 main_v128 main_v129 (cmpi .slt : (⟨S1600000, .i32⟩ : BufTy).Contents (Elt F) → (⟨S1600000, .i32⟩ : BufTy).Contents (Elt F) → (⟨S1600000, .i1⟩ : BufTy).Contents (Elt F)),
    nullary main_c_20 (constantI S_ 32 100000#32),
    unary main_c_20 main_v130 (broadcastInDim S1600000 ![] bcast_S_S1600000 : (⟨S_, .i32⟩ : BufTy).Contents (Elt F) → (⟨S1600000, .i32⟩ : BufTy).Contents (Elt F)),
    binary main_v1 main_v130 main_v131 (addi : (⟨S1600000, .i32⟩ : BufTy).Contents (Elt F) → (⟨S1600000, .i32⟩ : BufTy).Contents (Elt F) → (⟨S1600000, .i32⟩ : BufTy).Contents (Elt F)),
    ternary main_v129 main_v131 main_v1 main_v132 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v132 main_v133 (broadcastInDim S1600000x1 ![0] bcast_S1600000_S1600000x1_0 : (⟨S1600000, .i32⟩ : BufTy).Contents (Elt F) → (⟨S1600000x1, .i32⟩ : BufTy).Contents (Elt F)),
    binary main_v127 main_v133 main_v134 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_21 (constant S_ .f32 0x00000000#32),
    unary main_cst_21 main_v135 (broadcastInDim S100000x64 ![] bcast_S_S100000x64 : (⟨S_, .f32⟩ : BufTy).Contents (Elt F) → (⟨S100000x64, .f32⟩ : BufTy).Contents (Elt F)),
    unary main_v3 main_v136 (broadcastInDim S1600000x1 ![0] bcast_S1600000_S1600000x1_0 : (⟨S1600000, .i32⟩ : BufTy).Contents (Elt F) → (⟨S1600000x1, .i32⟩ : BufTy).Contents (Elt F)),
    ternary main_v135 main_v136 main_v134 main_v137 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_v15 main_v138 (broadcastInDim S100000x64 ![0, 1] bcast_S100000x1_S100000x64_0_1 : (⟨S100000x1, .f32⟩ : BufTy).Contents (Elt F) → (⟨S100000x64, .f32⟩ : BufTy).Contents (Elt F)),
    binary main_v137 main_v138 main_v139 (Host.divf : (⟨S100000x64, .f32⟩ : BufTy).Contents (Elt F) → (⟨S100000x64, .f32⟩ : BufTy).Contents (Elt F) → (⟨S100000x64, .f32⟩ : BufTy).Contents (Elt F)),
    unary main_arg4 main_v140 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v140 main_v141 rfl shapeCasts_S1x64x64_S64x64,
    binary main_v139 main_v141 main_v142 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg5 main_v143 ((extractStridedSlice S1x64 ![2, 0] · slices_S3x64_S1x64_2_0) : (⟨S3x64, .f32⟩ : BufTy).Contents (Elt F) → (⟨S1x64, .f32⟩ : BufTy).Contents (Elt F)),
    reshape main_v143 main_v144 rfl shapeCasts_S1x64_S64,
    unary main_v144 main_v145 (broadcastInDim S1x64 ![1] bcast_S64_S1x64_1 : (⟨S64, .f32⟩ : BufTy).Contents (Elt F) → (⟨S1x64, .f32⟩ : BufTy).Contents (Elt F)),
    unary main_v145 main_v146 (broadcastInDim S100000x64 ![0, 1] bcast_S1x64_S100000x64_0_1 : (⟨S1x64, .f32⟩ : BufTy).Contents (Elt F) → (⟨S100000x64, .f32⟩ : BufTy).Contents (Elt F)),
    binary main_v142 main_v146 main_v147 (addf : (⟨S100000x64, .f32⟩ : BufTy).Contents (Elt F) → (⟨S100000x64, .f32⟩ : BufTy).Contents (Elt F) → (⟨S100000x64, .f32⟩ : BufTy).Contents (Elt F)),
    unary main_arg6 main_v148 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v148 main_v149 rfl shapeCasts_S1x64x64_S64x64,
    binary main_v127 main_v149 main_v150 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v147 main_v150 main_v151 (addf : (⟨S100000x64, .f32⟩ : BufTy).Contents (Elt F) → (⟨S100000x64, .f32⟩ : BufTy).Contents (Elt F) → (⟨S100000x64, .f32⟩ : BufTy).Contents (Elt F)),
    binary main_v151 main_v151 main_v152 (mulf : (⟨S100000x64, .f32⟩ : BufTy).Contents (Elt F) → (⟨S100000x64, .f32⟩ : BufTy).Contents (Elt F) → (⟨S100000x64, .f32⟩ : BufTy).Contents (Elt F)),
    nullary main_cst_22 (constant S_ .f32 0x00000000#32),
    binary main_v152 main_cst_22 main_v153 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v153 main_v154 (broadcastInDim S100000x1 ![0] bcast_S100000_S100000x1_0 : (⟨S100000, .f32⟩ : BufTy).Contents (Elt F) → (⟨S100000x1, .f32⟩ : BufTy).Contents (Elt F)) ]

/-- @main's operations 231 … 332 of 332, calls expanded (window `main_part3`). -/
abbrev ops_part3 : List (HloOp τ sig (Elt F)) :=
  [ nullary main_cst_23 (constant S_ .f32 0x179ABE15#32),
    unary main_cst_23 main_v155 (broadcastInDim S100000x1 ![] bcast_S_S100000x1 : (⟨S_, .f32⟩ : BufTy).Contents (Elt F) → (⟨S100000x1, .f32⟩ : BufTy).Contents (Elt F)),
    binary main_v154 main_v155 main_v156 (maximumf : (⟨S100000x1, .f32⟩ : BufTy).Contents (Elt F) → (⟨S100000x1, .f32⟩ : BufTy).Contents (Elt F) → (⟨S100000x1, .f32⟩ : BufTy).Contents (Elt F)),
    unary main_v156 main_v157 (Host.rsqrt : (⟨S100000x1, .f32⟩ : BufTy).Contents (Elt F) → (⟨S100000x1, .f32⟩ : BufTy).Contents (Elt F)),
    unary main_v157 main_v158 (broadcastInDim S100000x64 ![0, 1] bcast_S100000x1_S100000x64_0_1 : (⟨S100000x1, .f32⟩ : BufTy).Contents (Elt F) → (⟨S100000x64, .f32⟩ : BufTy).Contents (Elt F)),
    binary main_v151 main_v158 main_v159 (mulf : (⟨S100000x64, .f32⟩ : BufTy).Contents (Elt F) → (⟨S100000x64, .f32⟩ : BufTy).Contents (Elt F) → (⟨S100000x64, .f32⟩ : BufTy).Contents (Elt F)),
    TRef.nullary main_call5.cst (constant S_ .f32 0x00000000#32),
    TRef.unary main_call5.cst main_call5.v0 (broadcastInDim S100000x64 ![] bcast_S_S100000x64),
    TRef.binary (.of main_v159) main_call5.v0 main_call5.v1 maximumf,
    binary main_v160 main_v127 main_v161 (addf : (⟨S100000x64, .f32⟩ : BufTy).Contents (Elt F) → (⟨S100000x64, .f32⟩ : BufTy).Contents (Elt F) → (⟨S100000x64, .f32⟩ : BufTy).Contents (Elt F)),
    unary main_arg7 main_v162 ((extractStridedSlice S1x64 ![2, 0] · slices_S3x64_S1x64_2_0) : (⟨S3x64, .f32⟩ : BufTy).Contents (Elt F) → (⟨S1x64, .f32⟩ : BufTy).Contents (Elt F)),
    reshape main_v162 main_v163 rfl shapeCasts_S1x64_S64,
    unary main_arg8 main_v164 ((extractStridedSlice S1x64 ![2, 0] · slices_S3x64_S1x64_2_0) : (⟨S3x64, .f32⟩ : BufTy).Contents (Elt F) → (⟨S1x64, .f32⟩ : BufTy).Contents (Elt F)),
    reshape main_v164 main_v165 rfl shapeCasts_S1x64_S64,
    nullary main_cst_24 (constant S_ .f32 0x00000000#32),
    binary main_v161 main_cst_24 main_v166 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v166 main_v167 (broadcastInDim S100000x1 ![0] bcast_S100000_S100000x1_0 : (⟨S100000, .f32⟩ : BufTy).Contents (Elt F) → (⟨S100000x1, .f32⟩ : BufTy).Contents (Elt F)),
    nullary main_cst_25 (constant S_ .f32 0x42800000#32),
    unary main_cst_25 main_v168 (broadcastInDim S100000x1 ![] bcast_S_S100000x1 : (⟨S_, .f32⟩ : BufTy).Contents (Elt F) → (⟨S100000x1, .f32⟩ : BufTy).Contents (Elt F)),
    binary main_v167 main_v168 main_v169 (Host.divf : (⟨S100000x1, .f32⟩ : BufTy).Contents (Elt F) → (⟨S100000x1, .f32⟩ : BufTy).Contents (Elt F) → (⟨S100000x1, .f32⟩ : BufTy).Contents (Elt F)),
    nullary main_c_26 (constantI S_ 32 0#32),
    TRef.nullary main_call6.cst (constant S_ .f32 0x00000000#32),
    TRef.binary (.of main_v161) main_call6.cst main_call6.v0 (fun x v => Host.reduceAdd x v reducesTo_S100000x64_S100000_d1 h_S_),
    TRef.unary main_call6.v0 main_call6.v1 (broadcastInDim S100000x1 ![0] bcast_S100000_S100000x1_0),
    TRef.nullary main_call6.cst_0 (constant S_ .f32 0x42800000#32),
    TRef.unary main_call6.cst_0 main_call6.v2 (broadcastInDim S100000x1 ![] bcast_S_S100000x1),
    TRef.binary main_call6.v1 main_call6.v2 main_call6.v3 Host.divf,
    TRef.unary main_call6.v3 main_call6.v4 (broadcastInDim S100000x64 ![0, 1] bcast_S100000x1_S100000x64_0_1),
    TRef.binary (.of main_v161) main_call6.v4 main_call6.v5 subf,
    TRef.binary main_call6.v5 main_call6.v5 main_call6.v6 mulf,
    TRef.unary (.of main_c_26) main_call6.v7 (sitofp .f32),
    TRef.nullary main_call6.cst_1 (constant S_ .f32 0x42800000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S100000x64_S100000_d1 h_S_),
    TRef.unary main_call6.v9 main_call6.v10 (broadcastInDim S100000x1 ![0] bcast_S100000_S100000x1_0),
    TRef.unary main_call6.v8 main_call6.v11 (broadcastInDim S100000x1 ![] bcast_S_S100000x1),
    TRef.binary main_call6.v10 main_call6.v11 main_call6.v12 Host.divf,
    TRef.nullary main_call6.cst_3 (constant S_ .f32 0x00000000#32),
    TRef.binary main_call6.v8 main_call6.cst_3 main_call6.v13 (cmpf .ogt),
    TRef.nullary main_call6.cst_4 (constant S_ .f32 0x7FC00000#32),
    TRef.unary main_call6.cst_4 main_call6.call0.v0 id,
    TRef.unary main_call6.call0.v0 main_call6.call0.v1 (broadcastInDim S100000x1 ![] bcast_S_S100000x1),
    TRef.ternary main_call6.v13 main_call6.v12 main_call6.call0.v1 main_call6.call0.v2 (fun p a b => select (broadcastInDim S100000x1 ![] bcast_S_S100000x1 p) a b),
    unary main_v169 main_v171 (broadcastInDim S100000x64 ![0, 1] bcast_S100000x1_S100000x64_0_1 : (⟨S100000x1, .f32⟩ : BufTy).Contents (Elt F) → (⟨S100000x64, .f32⟩ : BufTy).Contents (Elt F)),
    binary main_v161 main_v171 main_v172 (subf : (⟨S100000x64, .f32⟩ : BufTy).Contents (Elt F) → (⟨S100000x64, .f32⟩ : BufTy).Contents (Elt F) → (⟨S100000x64, .f32⟩ : BufTy).Contents (Elt F)),
    nullary main_cst_27 (constant S_ .f32 0x3727C5AC#32),
    unary main_cst_27 main_v173 (broadcastInDim S100000x1 ![] bcast_S_S100000x1 : (⟨S_, .f32⟩ : BufTy).Contents (Elt F) → (⟨S100000x1, .f32⟩ : BufTy).Contents (Elt F)),
    binary main_v170 main_v173 main_v174 (addf : (⟨S100000x1, .f32⟩ : BufTy).Contents (Elt F) → (⟨S100000x1, .f32⟩ : BufTy).Contents (Elt F) → (⟨S100000x1, .f32⟩ : BufTy).Contents (Elt F)),
    unary main_v174 main_v175 (Host.rsqrt : (⟨S100000x1, .f32⟩ : BufTy).Contents (Elt F) → (⟨S100000x1, .f32⟩ : BufTy).Contents (Elt F)),
    unary main_v175 main_v176 (broadcastInDim S100000x64 ![0, 1] bcast_S100000x1_S100000x64_0_1 : (⟨S100000x1, .f32⟩ : BufTy).Contents (Elt F) → (⟨S100000x64, .f32⟩ : BufTy).Contents (Elt F)),
    binary main_v172 main_v176 main_v177 (mulf : (⟨S100000x64, .f32⟩ : BufTy).Contents (Elt F) → (⟨S100000x64, .f32⟩ : BufTy).Contents (Elt F) → (⟨S100000x64, .f32⟩ : BufTy).Contents (Elt F)),
    unary main_v163 main_v178 (broadcastInDim S1x64 ![1] bcast_S64_S1x64_1 : (⟨S64, .f32⟩ : BufTy).Contents (Elt F) → (⟨S1x64, .f32⟩ : BufTy).Contents (Elt F)),
    unary main_v178 main_v179 (broadcastInDim S100000x64 ![0, 1] bcast_S1x64_S100000x64_0_1 : (⟨S1x64, .f32⟩ : BufTy).Contents (Elt F) → (⟨S100000x64, .f32⟩ : BufTy).Contents (Elt F)),
    binary main_v177 main_v179 main_v180 (mulf : (⟨S100000x64, .f32⟩ : BufTy).Contents (Elt F) → (⟨S100000x64, .f32⟩ : BufTy).Contents (Elt F) → (⟨S100000x64, .f32⟩ : BufTy).Contents (Elt F)),
    unary main_v165 main_v181 (broadcastInDim S1x64 ![1] bcast_S64_S1x64_1 : (⟨S64, .f32⟩ : BufTy).Contents (Elt F) → (⟨S1x64, .f32⟩ : BufTy).Contents (Elt F)),
    unary main_v181 main_v182 (broadcastInDim S100000x64 ![0, 1] bcast_S1x64_S100000x64_0_1 : (⟨S1x64, .f32⟩ : BufTy).Contents (Elt F) → (⟨S100000x64, .f32⟩ : BufTy).Contents (Elt F)),
    binary main_v180 main_v182 main_v183 (addf : (⟨S100000x64, .f32⟩ : BufTy).Contents (Elt F) → (⟨S100000x64, .f32⟩ : BufTy).Contents (Elt F) → (⟨S100000x64, .f32⟩ : BufTy).Contents (Elt F)),
    nullary main_cst_28 (constant S_ .f32 0x00000000#32),
    binary main_v183 main_cst_28 main_v184 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v184 main_v185 (broadcastInDim S100000x1 ![0] bcast_S100000_S100000x1_0 : (⟨S100000, .f32⟩ : BufTy).Contents (Elt F) → (⟨S100000x1, .f32⟩ : BufTy).Contents (Elt F)),
    nullary main_cst_29 (constant S_ .f32 0x42800000#32),
    unary main_cst_29 main_v186 (broadcastInDim S100000x1 ![] bcast_S_S100000x1 : (⟨S_, .f32⟩ : BufTy).Contents (Elt F) → (⟨S100000x1, .f32⟩ : BufTy).Contents (Elt F)),
    binary main_v185 main_v186 main_v187 (Host.divf : (⟨S100000x1, .f32⟩ : BufTy).Contents (Elt F) → (⟨S100000x1, .f32⟩ : BufTy).Contents (Elt F) → (⟨S100000x1, .f32⟩ : BufTy).Contents (Elt F)),
    nullary main_c_30 (constantI S_ 32 0#32),
    TRef.nullary main_call7.cst (constant S_ .f32 0x00000000#32),
    TRef.binary (.of main_v183) main_call7.cst main_call7.v0 (fun x v => Host.reduceAdd x v reducesTo_S100000x64_S100000_d1 h_S_),
    TRef.unary main_call7.v0 main_call7.v1 (broadcastInDim S100000x1 ![0] bcast_S100000_S100000x1_0),
    TRef.nullary main_call7.cst_0 (constant S_ .f32 0x42800000#32),
    TRef.unary main_call7.cst_0 main_call7.v2 (broadcastInDim S100000x1 ![] bcast_S_S100000x1),
    TRef.binary main_call7.v1 main_call7.v2 main_call7.v3 Host.divf,
    TRef.unary main_call7.v3 main_call7.v4 (broadcastInDim S100000x64 ![0, 1] bcast_S100000x1_S100000x64_0_1),
    TRef.binary (.of main_v183) main_call7.v4 main_call7.v5 subf,
    TRef.binary main_call7.v5 main_call7.v5 main_call7.v6 mulf,
    TRef.unary (.of main_c_30) main_call7.v7 (sitofp .f32),
    TRef.nullary main_call7.cst_1 (constant S_ .f32 0x42800000#32),
    TRef.binary main_call7.cst_1 main_call7.v7 main_call7.v8 subf,
    TRef.nullary main_call7.cst_2 (constant S_ .f32 0x00000000#32),
    TRef.binary main_call7.v6 main_call7.cst_2 main_call7.v9 (fun x v => Host.reduceAdd x v reducesTo_S100000x64_S100000_d1 h_S_),
    TRef.unary main_call7.v9 main_call7.v10 (broadcastInDim S100000x1 ![0] bcast_S100000_S100000x1_0),
    TRef.unary main_call7.v8 main_call7.v11 (broadcastInDim S100000x1 ![] bcast_S_S100000x1),
    TRef.binary main_call7.v10 main_call7.v11 main_call7.v12 Host.divf,
    TRef.nullary main_call7.cst_3 (constant S_ .f32 0x00000000#32),
    TRef.binary main_call7.v8 main_call7.cst_3 main_call7.v13 (cmpf .ogt),
    TRef.nullary main_call7.cst_4 (constant S_ .f32 0x7FC00000#32),
    TRef.unary main_call7.cst_4 main_call7.call0.v0 id,
    TRef.unary main_call7.call0.v0 main_call7.call0.v1 (broadcastInDim S100000x1 ![] bcast_S_S100000x1),
    TRef.ternary main_call7.v13 main_call7.v12 main_call7.call0.v1 main_call7.call0.v2 (fun p a b => select (broadcastInDim S100000x1 ![] bcast_S_S100000x1 p) a b),
    unary main_v187 main_v189 (broadcastInDim S100000x64 ![0, 1] bcast_S100000x1_S100000x64_0_1 : (⟨S100000x1, .f32⟩ : BufTy).Contents (Elt F) → (⟨S100000x64, .f32⟩ : BufTy).Contents (Elt F)),
    binary main_v183 main_v189 main_v190 (subf : (⟨S100000x64, .f32⟩ : BufTy).Contents (Elt F) → (⟨S100000x64, .f32⟩ : BufTy).Contents (Elt F) → (⟨S100000x64, .f32⟩ : BufTy).Contents (Elt F)),
    nullary main_cst_31 (constant S_ .f32 0x3727C5AC#32),
    unary main_cst_31 main_v191 (broadcastInDim S100000x1 ![] bcast_S_S100000x1 : (⟨S_, .f32⟩ : BufTy).Contents (Elt F) → (⟨S100000x1, .f32⟩ : BufTy).Contents (Elt F)),
    binary main_v188 main_v191 main_v192 (addf : (⟨S100000x1, .f32⟩ : BufTy).Contents (Elt F) → (⟨S100000x1, .f32⟩ : BufTy).Contents (Elt F) → (⟨S100000x1, .f32⟩ : BufTy).Contents (Elt F)),
    unary main_v192 main_v193 (Host.rsqrt : (⟨S100000x1, .f32⟩ : BufTy).Contents (Elt F) → (⟨S100000x1, .f32⟩ : BufTy).Contents (Elt F)),
    unary main_v193 main_v194 (broadcastInDim S100000x64 ![0, 1] bcast_S100000x1_S100000x64_0_1 : (⟨S100000x1, .f32⟩ : BufTy).Contents (Elt F) → (⟨S100000x64, .f32⟩ : BufTy).Contents (Elt F)),
    binary main_v190 main_v194 main_v195 (mulf : (⟨S100000x64, .f32⟩ : BufTy).Contents (Elt F) → (⟨S100000x64, .f32⟩ : BufTy).Contents (Elt F) → (⟨S100000x64, .f32⟩ : BufTy).Contents (Elt F)),
    unary main_arg9 main_v196 (broadcastInDim S1x64 ![1] bcast_S64_S1x64_1 : (⟨S64, .f32⟩ : BufTy).Contents (Elt F) → (⟨S1x64, .f32⟩ : BufTy).Contents (Elt F)),
    unary main_v196 main_v197 (broadcastInDim S100000x64 ![0, 1] bcast_S1x64_S100000x64_0_1 : (⟨S1x64, .f32⟩ : BufTy).Contents (Elt F) → (⟨S100000x64, .f32⟩ : BufTy).Contents (Elt F)),
    binary main_v195 main_v197 main_v198 (mulf : (⟨S100000x64, .f32⟩ : BufTy).Contents (Elt F) → (⟨S100000x64, .f32⟩ : BufTy).Contents (Elt F) → (⟨S100000x64, .f32⟩ : BufTy).Contents (Elt F)),
    unary main_arg10 main_v199 (broadcastInDim S1x64 ![1] bcast_S64_S1x64_1 : (⟨S64, .f32⟩ : BufTy).Contents (Elt F) → (⟨S1x64, .f32⟩ : BufTy).Contents (Elt F)),
    unary main_v199 main_v200 (broadcastInDim S100000x64 ![0, 1] bcast_S1x64_S100000x64_0_1 : (⟨S1x64, .f32⟩ : BufTy).Contents (Elt F) → (⟨S100000x64, .f32⟩ : BufTy).Contents (Elt F)),
    binary main_v198 main_v200 main_v201 (addf : (⟨S100000x64, .f32⟩ : BufTy).Contents (Elt F) → (⟨S100000x64, .f32⟩ : BufTy).Contents (Elt F) → (⟨S100000x64, .f32⟩ : BufTy).Contents (Elt F)) ]

/-- @main's 332 operations, in order. -/
abbrev ops : List (HloOp τ sig (Elt F)) :=
  ops_part0 ++ (ops_part1 ++ (ops_part2 ++ ops_part3))

end Cert.ReferenceIdeal.RefRun

end
-- ==== Proof.RefMainEq.lean ====
/-
  The reference's @main IS the list of operations of RefOps: window by window, the outlined functions'
  definitions unfolded at their calls, both sides are one chain of host steps. With that, the program's run:
  every weakly fair execution terminates with each buffer at the fold of the operations over the launch contents.
-/
import proofs.«182089_j86543591014918_2_alg».proof.Proof.RefOps

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
/-- Window 0 of @main is its operations in sequence (the callees unfolded at their calls). -/
theorem main_part0_eq (c : Dev nD) : main_part0 (F := F) c = seq ops_part0 := rfl

set_option maxRecDepth 16384 in
/-- Window 1 of @main is its operations in sequence (the callees unfolded at their calls). -/
theorem main_part1_eq (c : Dev nD) : main_part1 (F := F) c = seq ops_part1 := rfl

set_option maxRecDepth 16384 in
/-- Window 2 of @main is its operations in sequence (the callees unfolded at their calls). -/
theorem main_part2_eq (c : Dev nD) : main_part2 (F := F) c = seq ops_part2 := rfl

set_option maxRecDepth 16384 in
/-- Window 3 of @main is its operations in sequence (the callees unfolded at their calls). -/
theorem main_part3_eq (c : Dev nD) : main_part3 (F := F) c = seq ops_part3 := rfl

set_option maxRecDepth 16384 in
/-- @main runs its four windows in order, which is the concatenated list run as one. -/
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
/-- Every operation of window 0 touches TensorCore references only. -/
theorem ops_part0_sub : (ops_part0 : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., binary_bufs_sub .., binary_bufs_sub .., nullary_bufs_sub .., binary_bufs_sub .., unary_bufs_sub .., nullary_bufs_sub .., unary_bufs_sub .., binary_bufs_sub .., unary_bufs_sub .., unary_bufs_sub .., binary_bufs_sub .., nullary_bufs_sub .., unary_bufs_sub .., binary_bufs_sub .., binary_bufs_sub .., unary_bufs_sub .., reshape_bufs_sub ..⟩

set_option maxRecDepth 16384 in
/-- Every operation of window 1 touches TensorCore references only. -/
theorem ops_part1_sub : (ops_part1 : List (HloOp τ sig (Elt F))).Forall fun op => op.bufs ⊆ tcRefs τ sig :=
  ⟨unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., binary_bufs_sub .., binary_bufs_sub .., nullary_bufs_sub .., binary_bufs_sub .., unary_bufs_sub .., nullary_bufs_sub .., unary_bufs_sub .., binary_bufs_sub .., unary_bufs_sub .., unary_bufs_sub ..⟩

set_option maxRecDepth 16384 in
/-- Every operation of window 2 touches TensorCore references only. -/
theorem ops_part2_sub : (ops_part2 : List (HloOp τ sig (Elt F))).Forall fun op => op.bufs ⊆ tcRefs τ sig :=
  ⟨binary_bufs_sub .., nullary_bufs_sub .., unary_bufs_sub .., binary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., binary_bufs_sub .., binary_bufs_sub .., nullary_bufs_sub .., binary_bufs_sub .., unary_bufs_sub ..⟩

set_option maxRecDepth 16384 in
/-- Every operation of window 3 touches TensorCore references only. -/
theorem ops_part3_sub : (ops_part3 : List (HloOp τ sig (Elt F))).Forall fun op => op.bufs ⊆ tcRefs τ sig :=
  ⟨nullary_bufs_sub .., unary_bufs_sub .., binary_bufs_sub .., unary_bufs_sub .., unary_bufs_sub .., binary_bufs_sub .., nullary_bufs_sub .., unary_bufs_sub .., binary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops_part0_sub op h, List.forall_iff_forall_mem.mp ops_part1_sub op h,
      List.forall_iff_forall_mem.mp ops_part2_sub op h, List.forall_iff_forall_mem.mp ops_part3_sub op h]

/-- For any float values, from any memory with zero counters: every weakly fair execution of @main on the
    TensorCore terminates, and every final state has each TensorCore buffer at the operations' fold over the
    launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.RefRun

end
-- ==== Proof.RefWrites.lean ====
import proofs.«182089_j86543591014918_2_alg».proof.Proof.RefOps
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- One operation's written buffer is in the window's list: the builder's `writes` is the singleton of its result
    reference, and membership in the literal list is decided over references. -/
local macro "writes_step" : tactic =>
  `(tactic| (simp only [nullary_writes, unary_writes, binary_writes, ternary_writes, reshape_writes,
      Finset.singleton_subset_iff, List.mem_toFinset]; exact List.mem_map_of_mem (by decide)))

/-- The buffers that window 0's operations write, in order. -/
abbrev ops_part0_W : List (Ref sig .tc) := [main_v0, main_v1, main_v2, main_v3, main_v4, main_v5, main_v6, main_v7, main_call0_cst, main_call0_v0, main_v8, main_cst, main_v9, main_cst_0, main_v10, main_v11, main_v12, main_cst_1, main_v13, main_v14, main_v15, main_c, main_v16, main_v17, main_c_2, main_v18, main_v19, main_v20, main_v21, main_v22, main_cst_3, main_v23, main_v24, main_v25, main_v26, main_v27, main_v28, main_v29, main_v30, main_v31, main_v32, main_v33, main_v34, main_v35, main_v36, main_v37, main_v38, main_v39, main_v40, main_cst_4, main_v41, main_v42, main_cst_5, main_v43, main_v44, main_v45, main_v46, main_v47, main_call1_cst, main_call1_v0, main_v48, main_v49, main_v50, main_v51]

set_option maxRecDepth 16384 in
theorem ops_part0_writes : (ops_part0 : List (HloOp τ sig (Elt F))).Forall fun op => op.writes ⊆ (ops_part0_W.map (Proc.devRef (τ := τ) .tc)).toFinset := by
  simp only [List.Forall]
  exact ⟨by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step⟩

/-- The buffers that window 1's operations write, in order. -/
abbrev ops_part1_W : List (Ref sig .tc) := [main_v52, main_v53, main_cst_6, main_v54, main_v55, main_cst_7, main_v56, main_v57, main_c_8, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v58, main_v59, main_v60, main_cst_9, main_v61, main_v62, main_v63, main_v64, main_v65, main_v66, main_v67, main_v68, main_v69, main_v70, main_v71, main_c_10, main_v72, main_v73, main_c_11, main_v74, main_v75, main_v76, main_v77, main_v78, main_cst_12, main_v79, main_v80, main_v81, main_v82, main_v83, main_v84, main_v85, main_v86, main_v87, main_v88, main_v89, main_v90, main_v91, main_v92, main_v93, main_v94, main_v95, main_v96, main_cst_13, main_v97, main_v98, main_cst_14, main_v99, main_v100, main_v101, main_v102]

set_option maxRecDepth 16384 in
theorem ops_part1_writes : (ops_part1 : List (HloOp τ sig (Elt F))).Forall fun op => op.writes ⊆ (ops_part1_W.map (Proc.devRef (τ := τ) .tc)).toFinset := by
  simp only [List.Forall]
  exact ⟨by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step⟩

/-- The buffers that window 2's operations write, in order. -/
abbrev ops_part2_W : List (Ref sig .tc) := [main_v103, main_call3_cst, main_call3_v0, main_v104, main_v105, main_v106, main_v107, main_v108, main_v109, main_cst_15, main_v110, main_v111, main_cst_16, main_v112, main_v113, main_c_17, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_v12, main_call4_cst_3, main_call4_v13, main_call4_cst_4, main_call4_call0_v0, main_call4_call0_v1, main_v114, main_v115, main_v116, main_cst_18, main_v117, main_v118, main_v119, main_v120, main_v121, main_v122, main_v123, main_v124, main_v125, main_v126, main_v127, main_c_19, main_v128, main_v129, main_c_20, main_v130, main_v131, main_v132, main_v133, main_v134, main_cst_21, main_v135, main_v136, main_v137, main_v138, main_v139, main_v140, main_v141, main_v142, main_v143, main_v144, main_v145, main_v146, main_v147, main_v148, main_v149, main_v150, main_v151, main_v152, main_cst_22, main_v153, main_v154]

set_option maxRecDepth 16384 in
theorem ops_part2_writes : (ops_part2 : List (HloOp τ sig (Elt F))).Forall fun op => op.writes ⊆ (ops_part2_W.map (Proc.devRef (τ := τ) .tc)).toFinset := by
  simp only [List.Forall]
  exact ⟨by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step⟩

/-- The buffers that window 3's operations write, in order. -/
abbrev ops_part3_W : List (Ref sig .tc) := [main_cst_23, main_v155, main_v156, main_v157, main_v158, main_v159, main_call5_cst, main_call5_v0, main_v160, main_v161, main_v162, main_v163, main_v164, main_v165, main_cst_24, main_v166, main_v167, main_cst_25, main_v168, main_v169, main_c_26, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_v12, main_call6_cst_3, main_call6_v13, main_call6_cst_4, main_call6_call0_v0, main_call6_call0_v1, main_v170, main_v171, main_v172, main_cst_27, main_v173, main_v174, main_v175, main_v176, main_v177, main_v178, main_v179, main_v180, main_v181, main_v182, main_v183, main_cst_28, main_v184, main_v185, main_cst_29, main_v186, main_v187, main_c_30, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_v12, main_call7_cst_3, main_call7_v13, main_call7_cst_4, main_call7_call0_v0, main_call7_call0_v1, main_v188, main_v189, main_v190, main_cst_31, main_v191, main_v192, main_v193, main_v194, main_v195, main_v196, main_v197, main_v198, main_v199, main_v200, main_v201]

set_option maxRecDepth 16384 in
theorem ops_part3_writes : (ops_part3 : List (HloOp τ sig (Elt F))).Forall fun op => op.writes ⊆ (ops_part3_W.map (Proc.devRef (τ := τ) .tc)).toFinset := by
  simp only [List.Forall]
  exact ⟨by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step, by writes_step⟩

end Cert.ReferenceIdeal.RefRun

end
-- ==== Proof.RefVals.lean ====
/-
  What the reference's buffers hold, window by window, as the stage functions of RefSpec applied to the
  arguments' contents: each buffer a later window reads is stated once its window has run, a buffer a
  window does not write passes through it, and the result buffer after the last window is `Cert.Sage.refOut`
  of the eleven arguments.
-/
import proofs.«182089_j86543591014918_2_alg».proof.Proof.RefWrites
import proofs.«182089_j86543591014918_2_alg».proof.Proof.RefSpec
import Idealize.ShloMosaic.Lib.StableHlo.Run
import Idealize.ShloMosaic.Lib.Pipeline.Frame

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl
theorem val0_main_arg10 (V0 : Valuation τ sig (Elt F)) : val0 V0 (no_index (Proc.devRef .tc main_arg10)) = V0 (Proc.devRef .tc main_arg10) := rfl

/-- The device's buffer contents after @main's first 1 window. -/
def val1 (V0 : Valuation τ sig (Elt F)) : Valuation τ sig (Elt F) := after ops_part0 (val0 V0)
/-- A buffer that window 0 does not write keeps its contents through it. -/
theorem val1_keep (V0 : Valuation τ sig (Elt F)) (r : Ref sig .tc) (h : r ∉ ops_part0_W) :
    val1 V0 (Proc.devRef .tc r) = val0 V0 (Proc.devRef .tc r) :=
  after_of_writes_sub ops_part0 _ ops_part0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
theorem val1_main_arg7 (V0 : Valuation τ sig (Elt F)) : val1 V0 (no_index (Proc.devRef .tc main_arg7)) = V0 (Proc.devRef .tc main_arg7) :=
  (val1_keep V0 main_arg7 (by decide)).trans (val0_main_arg7 V0)
theorem val1_main_arg8 (V0 : Valuation τ sig (Elt F)) : val1 V0 (no_index (Proc.devRef .tc main_arg8)) = V0 (Proc.devRef .tc main_arg8) :=
  (val1_keep V0 main_arg8 (by decide)).trans (val0_main_arg8 V0)
theorem val1_main_arg9 (V0 : Valuation τ sig (Elt F)) : val1 V0 (no_index (Proc.devRef .tc main_arg9)) = V0 (Proc.devRef .tc main_arg9) :=
  (val1_keep V0 main_arg9 (by decide)).trans (val0_main_arg9 V0)
theorem val1_main_arg10 (V0 : Valuation τ sig (Elt F)) : val1 V0 (no_index (Proc.devRef .tc main_arg10)) = V0 (Proc.devRef .tc main_arg10) :=
  (val1_keep V0 main_arg10 (by decide)).trans (val0_main_arg10 V0)
set_option maxRecDepth 16384 in
set_option maxHeartbeats 4000000 in
theorem val1_main_v1 (V0 : Valuation τ sig (Elt F)) : val1 V0 (no_index (Proc.devRef .tc main_v1)) = Cert.Sage.src (V0 (Proc.devRef .tc main_arg1)) := by
  unfold val1
  simp only [ops_part0]
  after_results_simp
  simp only [val0_main_arg0, val0_main_arg1, val0_main_arg2, val0_main_arg3, val0_main_arg4, val0_main_arg5, val0_main_arg6, val0_main_arg7] <;> rfl
set_option maxRecDepth 16384 in
set_option maxHeartbeats 4000000 in
theorem val1_main_v3 (V0 : Valuation τ sig (Elt F)) : val1 V0 (no_index (Proc.devRef .tc main_v3)) = Cert.Sage.dst (V0 (Proc.devRef .tc main_arg1)) := by
  unfold val1
  simp only [ops_part0]
  after_results_simp
  simp only [val0_main_arg0, val0_main_arg1, val0_main_arg2, val0_main_arg3, val0_main_arg4, val0_main_arg5, val0_main_arg6, val0_main_arg7] <;> rfl
set_option maxRecDepth 16384 in
set_option maxHeartbeats 4000000 in
theorem val1_main_v15 (V0 : Valuation τ sig (Elt F)) : val1 V0 (no_index (Proc.devRef .tc main_v15)) = Cert.Sage.degCol (V0 (Proc.devRef .tc main_arg1)) := by
  unfold val1
  simp only [ops_part0]
  after_results_simp
  simp only [val0_main_arg0, val0_main_arg1, val0_main_arg2, val0_main_arg3, val0_main_arg4, val0_main_arg5, val0_main_arg6, val0_main_arg7] <;> rfl
set_option maxRecDepth 16384 in
set_option maxHeartbeats 4000000 in
theorem val1_main_v49 (V0 : Valuation τ sig (Elt F)) : val1 V0 (no_index (Proc.devRef .tc main_v49)) = (addf (Cert.Sage.l2relu (Cert.Sage.pre (Cert.Sage.agg (Cert.Sage.h0 (V0 (Proc.devRef .tc main_arg0)) (V0 (Proc.devRef .tc main_arg2)) (V0 (Proc.devRef .tc main_arg3))) (V0 (Proc.devRef .tc main_arg1))) (Cert.Sage.h0 (V0 (Proc.devRef .tc main_arg0)) (V0 (Proc.devRef .tc main_arg2)) (V0 (Proc.devRef .tc main_arg3))) (Cert.Sage.mat0 (V0 (Proc.devRef .tc main_arg4))) (Cert.Sage.vec0 (V0 (Proc.devRef .tc main_arg5))) (Cert.Sage.mat0 (V0 (Proc.devRef .tc main_arg6))))) (Cert.Sage.h0 (V0 (Proc.devRef .tc main_arg0)) (V0 (Proc.devRef .tc main_arg2)) (V0 (Proc.devRef .tc main_arg3)))) := by
  unfold val1
  simp only [ops_part0]
  after_results_simp
  simp only [val0_main_arg0, val0_main_arg1, val0_main_arg2, val0_main_arg3, val0_main_arg4, val0_main_arg5, val0_main_arg6, val0_main_arg7] <;> rfl
set_option maxRecDepth 16384 in
set_option maxHeartbeats 4000000 in
theorem val1_main_v51 (V0 : Valuation τ sig (Elt F)) : val1 V0 (no_index (Proc.devRef .tc main_v51)) = Cert.Sage.vec0 (V0 (Proc.devRef .tc main_arg7)) := by
  unfold val1
  simp only [ops_part0]
  after_results_simp
  simp only [val0_main_arg0, val0_main_arg1, val0_main_arg2, val0_main_arg3, val0_main_arg4, val0_main_arg5, val0_main_arg6, val0_main_arg7] <;> rfl

/-- The device's buffer contents after @main's first 2 windows. -/
def val2 (V0 : Valuation τ sig (Elt F)) : Valuation τ sig (Elt F) := after ops_part1 (val1 V0)
/-- A buffer that window 1 does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val2_main_arg9 (V0 : Valuation τ sig (Elt F)) : val2 V0 (no_index (Proc.devRef .tc main_arg9)) = V0 (Proc.devRef .tc main_arg9) :=
  (val2_keep V0 main_arg9 (by decide)).trans (val1_main_arg9 V0)
theorem val2_main_arg10 (V0 : Valuation τ sig (Elt F)) : val2 V0 (no_index (Proc.devRef .tc main_arg10)) = V0 (Proc.devRef .tc main_arg10) :=
  (val2_keep V0 main_arg10 (by decide)).trans (val1_main_arg10 V0)
theorem val2_main_v1 (V0 : Valuation τ sig (Elt F)) : val2 V0 (no_index (Proc.devRef .tc main_v1)) = Cert.Sage.src (V0 (Proc.devRef .tc main_arg1)) :=
  (val2_keep V0 main_v1 (by decide)).trans (val1_main_v1 V0)
theorem val2_main_v3 (V0 : Valuation τ sig (Elt F)) : val2 V0 (no_index (Proc.devRef .tc main_v3)) = Cert.Sage.dst (V0 (Proc.devRef .tc main_arg1)) :=
  (val2_keep V0 main_v3 (by decide)).trans (val1_main_v3 V0)
theorem val2_main_v15 (V0 : Valuation τ sig (Elt F)) : val2 V0 (no_index (Proc.devRef .tc main_v15)) = Cert.Sage.degCol (V0 (Proc.devRef .tc main_arg1)) :=
  (val2_keep V0 main_v15 (by decide)).trans (val1_main_v15 V0)
set_option maxRecDepth 16384 in
set_option maxHeartbeats 4000000 in
theorem val2_main_v71 (V0 : Valuation τ sig (Elt F)) : val2 V0 (no_index (Proc.devRef .tc main_v71)) = (Cert.Sage.h1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) := by
  unfold val2
  simp only [ops_part1]
  after_results_simp
  simp only [val1_main_arg4, val1_main_arg5, val1_main_arg6, val1_main_arg8, val1_main_v1, val1_main_v3, val1_main_v15, val1_main_v49, val1_main_v51] <;> rfl
set_option maxRecDepth 16384 in
set_option maxHeartbeats 4000000 in
theorem val2_main_v95 (V0 : Valuation τ sig (Elt F)) : val2 V0 (no_index (Proc.devRef .tc main_v95)) = (Cert.Sage.pre (Cert.Sage.agg (Cert.Sage.h1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (V0 (Proc.devRef .tc main_arg1))) (Cert.Sage.h1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (Cert.Sage.mat1 (V0 (Proc.devRef .tc main_arg4))) (Cert.Sage.vec1 (V0 (Proc.devRef .tc main_arg5))) (Cert.Sage.mat1 (V0 (Proc.devRef .tc main_arg6)))) := by
  unfold val2
  simp only [ops_part1]
  after_results_simp
  simp only [val1_main_arg4, val1_main_arg5, val1_main_arg6, val1_main_arg8, val1_main_v1, val1_main_v3, val1_main_v15, val1_main_v49, val1_main_v51] <;> rfl
set_option maxRecDepth 16384 in
set_option maxHeartbeats 4000000 in
theorem val2_main_v102 (V0 : Valuation τ sig (Elt F)) : val2 V0 (no_index (Proc.devRef .tc main_v102)) = Cert.Sage.spread (Host.rsqrt (maximumf (Cert.Sage.colSum (mulf (Cert.Sage.pre (Cert.Sage.agg (Cert.Sage.h1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (V0 (Proc.devRef .tc main_arg1))) (Cert.Sage.h1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (Cert.Sage.mat1 (V0 (Proc.devRef .tc main_arg4))) (Cert.Sage.vec1 (V0 (Proc.devRef .tc main_arg5))) (Cert.Sage.mat1 (V0 (Proc.devRef .tc main_arg6)))) (Cert.Sage.pre (Cert.Sage.agg (Cert.Sage.h1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (V0 (Proc.devRef .tc main_arg1))) (Cert.Sage.h1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (Cert.Sage.mat1 (V0 (Proc.devRef .tc main_arg4))) (Cert.Sage.vec1 (V0 (Proc.devRef .tc main_arg5))) (Cert.Sage.mat1 (V0 (Proc.devRef .tc main_arg6)))))) (Cert.Sage.colOf (constant S_ .f32 0x179ABE15#32)))) := by
  unfold val2
  simp only [ops_part1]
  after_results_simp
  simp only [val1_main_arg4, val1_main_arg5, val1_main_arg6, val1_main_arg8, val1_main_v1, val1_main_v3, val1_main_v15, val1_main_v49, val1_main_v51] <;> rfl

/-- The device's buffer contents after @main's first 3 windows. -/
def val3 (V0 : Valuation τ sig (Elt F)) : Valuation τ sig (Elt F) := after ops_part2 (val2 V0)
/-- A buffer that window 2 does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)
theorem val3_main_arg10 (V0 : Valuation τ sig (Elt F)) : val3 V0 (no_index (Proc.devRef .tc main_arg10)) = V0 (Proc.devRef .tc main_arg10) :=
  (val3_keep V0 main_arg10 (by decide)).trans (val2_main_arg10 V0)
set_option maxRecDepth 16384 in
set_option maxHeartbeats 4000000 in
theorem val3_main_v127 (V0 : Valuation τ sig (Elt F)) : val3 V0 (no_index (Proc.devRef .tc main_v127)) = (Cert.Sage.h2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) := by
  unfold val3
  simp only [ops_part2]
  after_results_simp
  simp only [val2_main_arg4, val2_main_arg5, val2_main_arg6, val2_main_arg7, val2_main_arg8, val2_main_v71, val2_main_v95, val2_main_v102, val2_main_v1, val2_main_v3, val2_main_v15] <;> rfl
set_option maxRecDepth 16384 in
set_option maxHeartbeats 4000000 in
theorem val3_main_v151 (V0 : Valuation τ sig (Elt F)) : val3 V0 (no_index (Proc.devRef .tc main_v151)) = (Cert.Sage.pre (Cert.Sage.agg (Cert.Sage.h2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (V0 (Proc.devRef .tc main_arg1))) (Cert.Sage.h2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (Cert.Sage.mat2 (V0 (Proc.devRef .tc main_arg4))) (Cert.Sage.vec2 (V0 (Proc.devRef .tc main_arg5))) (Cert.Sage.mat2 (V0 (Proc.devRef .tc main_arg6)))) := by
  unfold val3
  simp only [ops_part2]
  after_results_simp
  simp only [val2_main_arg4, val2_main_arg5, val2_main_arg6, val2_main_arg7, val2_main_arg8, val2_main_v71, val2_main_v95, val2_main_v102, val2_main_v1, val2_main_v3, val2_main_v15] <;> rfl
set_option maxRecDepth 16384 in
set_option maxHeartbeats 4000000 in
theorem val3_main_v154 (V0 : Valuation τ sig (Elt F)) : val3 V0 (no_index (Proc.devRef .tc main_v154)) = Cert.Sage.colSum (mulf (Cert.Sage.pre (Cert.Sage.agg (Cert.Sage.h2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (V0 (Proc.devRef .tc main_arg1))) (Cert.Sage.h2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (Cert.Sage.mat2 (V0 (Proc.devRef .tc main_arg4))) (Cert.Sage.vec2 (V0 (Proc.devRef .tc main_arg5))) (Cert.Sage.mat2 (V0 (Proc.devRef .tc main_arg6)))) (Cert.Sage.pre (Cert.Sage.agg (Cert.Sage.h2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (V0 (Proc.devRef .tc main_arg1))) (Cert.Sage.h2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (Cert.Sage.mat2 (V0 (Proc.devRef .tc main_arg4))) (Cert.Sage.vec2 (V0 (Proc.devRef .tc main_arg5))) (Cert.Sage.mat2 (V0 (Proc.devRef .tc main_arg6))))) := by
  unfold val3
  simp only [ops_part2]
  after_results_simp
  simp only [val2_main_arg4, val2_main_arg5, val2_main_arg6, val2_main_arg7, val2_main_arg8, val2_main_v71, val2_main_v95, val2_main_v102, val2_main_v1, val2_main_v3, val2_main_v15] <;> rfl

/-- The device's buffer contents after @main's first 4 windows. -/
def val4 (V0 : Valuation τ sig (Elt F)) : Valuation τ sig (Elt F) := after ops_part3 (val3 V0)
/-- A buffer that window 3 does not write keeps its contents through it. -/
theorem val4_keep (V0 : Valuation τ sig (Elt F)) (r : Ref sig .tc) (h : r ∉ ops_part3_W) :
    val4 V0 (Proc.devRef .tc r) = val3 V0 (Proc.devRef .tc r) :=
  after_of_writes_sub ops_part3 _ ops_part3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_arg8 (V0 : Valuation τ sig (Elt F)) : val4 V0 (no_index (Proc.devRef .tc main_arg8)) = V0 (Proc.devRef .tc main_arg8) :=
  (val4_keep V0 main_arg8 (by decide)).trans (val3_main_arg8 V0)
theorem val4_main_arg9 (V0 : Valuation τ sig (Elt F)) : val4 V0 (no_index (Proc.devRef .tc main_arg9)) = V0 (Proc.devRef .tc main_arg9) :=
  (val4_keep V0 main_arg9 (by decide)).trans (val3_main_arg9 V0)
theorem val4_main_arg10 (V0 : Valuation τ sig (Elt F)) : val4 V0 (no_index (Proc.devRef .tc main_arg10)) = V0 (Proc.devRef .tc main_arg10) :=
  (val4_keep V0 main_arg10 (by decide)).trans (val3_main_arg10 V0)
set_option maxRecDepth 16384 in
set_option maxHeartbeats 4000000 in
theorem val4_main_v201 (V0 : Valuation τ sig (Elt F)) : val4 V0 (no_index (Proc.devRef .tc main_v201)) = Cert.Sage.refOut (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold val4
  simp only [ops_part3]
  after_results_simp
  simp only [val3_main_arg7, val3_main_arg8, val3_main_arg9, val3_main_arg10, val3_main_v127, val3_main_v151, val3_main_v154] <;> rfl

/-- The fold of all of @main's operations is the four windows' folds in turn. -/
theorem after_ops (V0 : Valuation τ sig (Elt F)) : after ops V0 = val4 V0 := by
  simp only [ops, after_append]
  rfl

end Cert.ReferenceIdeal.RefRun

end
-- ==== Proof.RefRun.lean ====
/-
  The reference's run, read back: from any memory with zero counters every weakly fair execution of @main
  terminates with the result buffer at `Cert.Sage.refOut` of the eleven arguments' launch contents and the
  arguments unchanged.
-/
import proofs.«182089_j86543591014918_2_alg».proof.Proof.RefMainEq
import proofs.«182089_j86543591014918_2_alg».proof.Proof.RefVals
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
/-- For any float values: the result is `refOut` of the arguments' launch contents, the arguments are unchanged. -/
theorem run_gen (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v201) = Cert.Sage.refOut (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v201).trans (by simp only [after_ops]; exact val4_main_v201 (launchContents m c)),
      (h c main_arg0).trans (by simp only [after_ops]; exact val4_main_arg0 (launchContents m c)),
      (h c main_arg1).trans (by simp only [after_ops]; exact val4_main_arg1 (launchContents m c)),
      (h c main_arg2).trans (by simp only [after_ops]; exact val4_main_arg2 (launchContents m c)),
      (h c main_arg3).trans (by simp only [after_ops]; exact val4_main_arg3 (launchContents m c)),
      (h c main_arg4).trans (by simp only [after_ops]; exact val4_main_arg4 (launchContents m c)),
      (h c main_arg5).trans (by simp only [after_ops]; exact val4_main_arg5 (launchContents m c)),
      (h c main_arg6).trans (by simp only [after_ops]; exact val4_main_arg6 (launchContents m c)),
      (h c main_arg7).trans (by simp only [after_ops]; exact val4_main_arg7 (launchContents m c)),
      (h c main_arg8).trans (by simp only [after_ops]; exact val4_main_arg8 (launchContents m c)),
      (h c main_arg9).trans (by simp only [after_ops]; exact val4_main_arg9 (launchContents m c)),
      (h c main_arg10).trans (by simp only [after_ops]; exact val4_main_arg10 (launchContents m c))⟩)
    (run_all m ρ)

/-- The same at the ideal instance, in the shape the certificate's claims use. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v201) = Cert.Sage.refOut (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  run_gen (F := Ideal) m ρ

end Cert.ReferenceIdeal.RefRun

end
-- ==== Proof.lean ====
/-
  The certificate's five claims for a three-layer mean-aggregating graph network over 100000 nodes and 1600000 edges.

  The kernel program computes the input projection, each layer's dense part (two 64×64 products, the bias, the
  scaling of every row to unit length, the rectifier, the residual and the layer normalisation) and the closing
  normalisation in five regions tiled over 2000-row blocks, with the gathers, the scatter-additions and the division
  by the in-degree between them as host operations; the reference computes the same stages as host operations on
  whole arrays. At exact (extended real) values:

  * every stage's output entry (p, q) depends on row p of its matrix operands only, and both programs compute it by
    the same formula (LibSageRows: linRow, unitRow, lnRow, projRow) — a tile's lane sums and a host reduction are
    the same finite sum, a product into a zero accumulator and a host dot product the same contraction, the kernel's
    division by the literal 64 and the reference's division by `64 − 0` (guarded by `64 − 0 > 0`) the same division;
  * each region's fifty blocks tile its result array, so the array after the region is the stage's formula on every
    row (Region0 … Region4);
  * the host operations between the regions are the reference's own, applied to equal arrays (Chain0 … Chain3).

  So the kernel's result array is the reference's function `Cert.Sage.refOut` of the arguments (KerValue), which is
  what the reference's run ends at (RefRun). No law of the extended reals beyond these identifications is used, and
  the precondition is not opened. The three frames: the two kernels' are the generated ones; the reference's is its
  run with the result dropped. The idealization rewrote nothing, so its conjunct is trivial.
-/
import proofs.«182089_j86543591014918_2_alg».proof.Defs
import proofs.«182089_j86543591014918_2_alg».proof.Proof.Gen.Kernel
import proofs.«182089_j86543591014918_2_alg».proof.Proof.Gen.Kernel.Frame
import proofs.«182089_j86543591014918_2_alg».proof.Proof.Gen.KernelIdeal
import proofs.«182089_j86543591014918_2_alg».proof.Proof.Gen.KernelIdeal.Frame
import proofs.«182089_j86543591014918_2_alg».proof.Proof.Gen.ReferenceIdeal
import proofs.«182089_j86543591014918_2_alg».proof.Proof.Gen.Pre_finite_inputs
import proofs.«182089_j86543591014918_2_alg».proof.Proof.KerValue
import proofs.«182089_j86543591014918_2_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.RefRun.run m ρ)

/-- Both programs end at the reference's function of the (agreeing) arguments. -/
theorem algebraic : Cert.algebraic_KernelIdeal_ReferenceIdeal := by
  intro m ρ m' ρ' _ hagree
  refine ⟨fun c => Cert.Sage.refOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), Cert.Sage.Chain.run m ρ, ?_⟩
  refine (θ_run Cert.ReferenceIdeal.defs _ _).mono (fun _ h c => ⟨(h c).1.trans ?_, (h c).2⟩)
    (Cert.ReferenceIdeal.RefRun.run m' ρ')
  obtain ⟨e0, e1, e2, e3, e4, e5, e6, e7, e8, e9, e10⟩ := hagree c
  rw [e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
